-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S4x64x64 : Shape := ⟨3, ![4, 64, 64]⟩
abbrev S4x64 : Shape := ⟨2, ![4, 64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S4x64 .f32) (main_arg6 : FVec F S64x40 .f32) (main_arg7 : FVec F S40 .f32) (main_v13 : IVec S_ 1) (main_v16 : IVec S4x64x64 1) : IVec S_ 1 :=
  let main_c_5 : IVec S_ 1 := constantI S_ 1 1#1
  let main_v17 : IVec S_ 1 := (fun x v => Host.reduce IntOp.andi x v reducesTo_S4x64x64_S_d0_1_2 h_S_) main_v16 main_c_5
  let main_v18 : IVec S_ 1 := andi main_v13 main_v17
  let main_v19 : FVec F S4x64 .f32 := Host.absf main_arg5
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S4x64x64 .f32) (main_arg5 : FVec F S4x64 .f32) (main_arg6 : FVec F S64x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S4x64x64 .f32 := Host.absf main_arg4
  let main_cst_4 : FVec F S_ .f32 := constant S_ .f32 0x7F800000#32
  let main_v15 : FVec F S4x64x64 .f32 := broadcastInDim S4x64x64 ![] bcast_S_S4x64x64 main_cst_4
  let main_v16 : IVec S4x64x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S4x64x64 : Shape := ⟨3, ![4, 64, 64]⟩
abbrev S4x64 : Shape := ⟨2, ![4, 64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64x64 : Shape := ⟨3, ![1, 64, 64]⟩
abbrev S64x64 : Shape := ⟨2, ![64, 64]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 149
  | .vmem => 52
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S4x64x64, .f32⟩
  | 5 => ⟨S4x64, .f32⟩
  | 6 => ⟨S64x40, .f32⟩
  | 7 => ⟨S40, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S_, .f32⟩
  | 26 => ⟨S100000, .f32⟩
  | 27 => ⟨S100000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S1x64, .f32⟩
  | 58 => ⟨S100000x64, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x64, .f32⟩
  | 68 => ⟨S1700000x1, .f32⟩
  | 69 => ⟨S1700000x64, .f32⟩
  | 70 => ⟨S1700000x64, .f32⟩
  | 71 => ⟨S_, .f32⟩
  | 72 => ⟨S100000x64, .f32⟩
  | 73 => ⟨S1700000x1, .i32⟩
  | 74 => ⟨S100000x64, .f32⟩
  | 75 => ⟨S1x64x64, .f32⟩
  | 76 => ⟨S64x64, .f32⟩
  | 77 => ⟨S1x64, .f32⟩
  | 78 => ⟨S64, .f32⟩
  | 79 => ⟨S1x64, .f32⟩
  | 80 => ⟨S100000x64, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000x64, .f32⟩
  | 90 => ⟨S1700000x1, .f32⟩
  | 91 => ⟨S1700000x64, .f32⟩
  | 92 => ⟨S1700000x64, .f32⟩
  | 93 => ⟨S_, .f32⟩
  | 94 => ⟨S100000x64, .f32⟩
  | 95 => ⟨S1700000x1, .i32⟩
  | 96 => ⟨S100000x64, .f32⟩
  | 97 => ⟨S1x64x64, .f32⟩
  | 98 => ⟨S64x64, .f32⟩
  | 99 => ⟨S1x64, .f32⟩
  | 100 => ⟨S64, .f32⟩
  | 101 => ⟨S1x64, .f32⟩
  | 102 => ⟨S100000x64, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x64, .f32⟩
  | 112 => ⟨S1700000x1, .f32⟩
  | 113 => ⟨S1700000x64, .f32⟩
  | 114 => ⟨S1700000x64, .f32⟩
  | 115 => ⟨S_, .f32⟩
  | 116 => ⟨S100000x64, .f32⟩
  | 117 => ⟨S1700000x1, .i32⟩
  | 118 => ⟨S100000x64, .f32⟩
  | 119 => ⟨S1x64x64, .f32⟩
  | 120 => ⟨S64x64, .f32⟩
  | 121 => ⟨S1x64, .f32⟩
  | 122 => ⟨S64, .f32⟩
  | 123 => ⟨S1x64, .f32⟩
  | 124 => ⟨S100000x64, .f32⟩
  | 125 => ⟨S_, .i32⟩
  | 126 => ⟨S1700000, .i32⟩
  | 127 => ⟨S1700000, .i1⟩
  | _ => ⟨S100000x128, .f32⟩

abbrev hbmTy0_1 (i : Nat) : BufTy := match i % 128 with
  | 0 => ⟨S_, .i32⟩
  | 1 => ⟨S1700000, .i32⟩
  | 2 => ⟨S1700000, .i32⟩
  | 3 => ⟨S1700000, .i32⟩
  | 4 => ⟨S1700000x1, .i32⟩
  | 5 => ⟨S1700000x64, .f32⟩
  | 6 => ⟨S1700000x1, .f32⟩
  | 7 => ⟨S1700000x64, .f32⟩
  | 8 => ⟨S1700000x64, .f32⟩
  | 9 => ⟨S_, .f32⟩
  | 10 => ⟨S100000x64, .f32⟩
  | 11 => ⟨S1700000x1, .i32⟩
  | 12 => ⟨S100000x64, .f32⟩
  | 13 => ⟨S1x64x64, .f32⟩
  | 14 => ⟨S64x64, .f32⟩
  | 15 => ⟨S1x64, .f32⟩
  | 16 => ⟨S64, .f32⟩
  | 17 => ⟨S1x64, .f32⟩
  | 18 => ⟨S100000x64, .f32⟩
  | 19 => ⟨S1x40, .f32⟩
  | 20 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S64x64, .f32⟩
  | .local _ .vmem, ⟨43, _⟩ => ⟨S1x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S64x40, .f32⟩
  | .local _ .vmem, ⟨49, _⟩ => ⟨S1x40, .f32⟩
  | .local _ .vmem, ⟨50, _⟩ => ⟨S5000x40, .f32⟩
  | .local _ .vmem, ⟨51, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_6 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_7 : Ref sig .tc := ⟨.hbm, 47, rfl⟩
abbrev main_v26 : Ref sig .tc := ⟨.hbm, 48, rfl⟩
abbrev main_v27 : Ref sig .tc := ⟨.hbm, 49, rfl⟩
abbrev main_c_8 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_11 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_12 : Ref sig .tc := ⟨.hbm, 81, rfl⟩
abbrev main_v55 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_15 : Ref sig .tc := ⟨.hbm, 103, rfl⟩
abbrev main_v74 : Ref sig .tc := ⟨.hbm, 104, rfl⟩
abbrev main_v75 : Ref sig .tc := ⟨.hbm, 105, rfl⟩
abbrev main_c_16 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_17 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_c_18 : Ref sig .tc := ⟨.hbm, 125, rfl⟩
abbrev main_v93 : Ref sig .tc := ⟨.hbm, 126, rfl⟩
abbrev main_v94 : Ref sig .tc := ⟨.hbm, 127, rfl⟩
abbrev main_c_19 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_20 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg5_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg3_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem4_0 : DmaSem sig := 43
abbrev cc4_sem5_0 : DmaSem sig := 44
abbrev cc4_sem5_1 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem3_1 : DmaSem sig := 51

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x40 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x40 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x40.size a ≤ S64x40.size a
  hwx5_1 : ∀ i : grid5.Coords, EltTy.bits .f32 = 32 ∨ (Rect.block (s := S64x40) S64x40.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x40.size a ≤ S1x40.size a
  hwx5_2 : ∀ i : grid5.Coords, EltTy.bits .f32 = 32 ∨ (Rect.block (s := S1x40) S1x40.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x40.size a ≤ S100000x40.size a
  hwx5_3 : ∀ i : grid5.Coords, EltTy.bits .f32 = 32 ∨ (Rect.block (s := S100000x40) S5000x40.size (cc5_transform_3 i) (hinb5_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v67) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v69) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v72) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v73) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v86) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v35) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v88) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v91) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v92) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v105) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v92) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v35) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v107) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v110) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v111) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v111) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg6) S64x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v112) S1x40.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v113) S5000x40.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S4x64x64 : Shape := ⟨3, ![4, 64, 64]⟩
abbrev S4x64 : Shape := ⟨2, ![4, 64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1x64 : Shape := ⟨2, ![1, 64]⟩
abbrev S1700000x64 : Shape := ⟨2, ![1700000, 64]⟩
abbrev S1x64x64 : Shape := ⟨3, ![1, 64, 64]⟩
abbrev S64x64 : Shape := ⟨2, ![64, 64]⟩
abbrev S100000x40 : Shape := ⟨2, ![100000, 40]⟩
abbrev S1x40 : Shape := ⟨2, ![1, 40]⟩

abbrev nBuf : Space → Nat
  | .hbm => 225
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S4x64x64, .f32⟩
  | 5 => ⟨S4x64, .f32⟩
  | 6 => ⟨S64x40, .f32⟩
  | 7 => ⟨S40, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x64, .f32⟩
  | 51 => ⟨S1x64, .f32⟩
  | 52 => ⟨S100000x64, .f32⟩
  | 53 => ⟨S100000x64, .f32⟩
  | 54 => ⟨S_, .f32⟩
  | 55 => ⟨S100000x64, .f32⟩
  | 56 => ⟨S100000x64, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x64, .f32⟩
  | 66 => ⟨S1700000x1, .f32⟩
  | 67 => ⟨S1700000x64, .f32⟩
  | 68 => ⟨S1700000x64, .f32⟩
  | 69 => ⟨S_, .f32⟩
  | 70 => ⟨S100000x64, .f32⟩
  | 71 => ⟨S1700000x1, .i32⟩
  | 72 => ⟨S100000x64, .f32⟩
  | 73 => ⟨S_, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S100000x64, .f32⟩
  | 84 => ⟨S1x64x64, .f32⟩
  | 85 => ⟨S64x64, .f32⟩
  | 86 => ⟨S100000x64, .f32⟩
  | 87 => ⟨S1x64, .f32⟩
  | 88 => ⟨S64, .f32⟩
  | 89 => ⟨S1x64, .f32⟩
  | 90 => ⟨S100000x64, .f32⟩
  | 91 => ⟨S100000x64, .f32⟩
  | 92 => ⟨S_, .f32⟩
  | 93 => ⟨S100000x64, .f32⟩
  | 94 => ⟨S100000x64, .f32⟩
  | 95 => ⟨S1x64, .f32⟩
  | 96 => ⟨S100000x64, .f32⟩
  | 97 => ⟨S100000x64, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x64, .f32⟩
  | 107 => ⟨S1700000x1, .f32⟩
  | 108 => ⟨S1700000x64, .f32⟩
  | 109 => ⟨S1700000x64, .f32⟩
  | 110 => ⟨S_, .f32⟩
  | 111 => ⟨S100000x64, .f32⟩
  | 112 => ⟨S1700000x1, .i32⟩
  | 113 => ⟨S100000x64, .f32⟩
  | 114 => ⟨S_, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S100000x64, .f32⟩
  | 121 => ⟨S_, .f32⟩
  | 122 => ⟨S100000x64, .f32⟩
  | 123 => ⟨S100000x64, .f32⟩
  | 124 => ⟨S100000x64, .f32⟩
  | 125 => ⟨S1x64x64, .f32⟩
  | 126 => ⟨S64x64, .f32⟩
  | 127 => ⟨S100000x64, .f32⟩
  | _ => ⟨S100000x128, .f32⟩

abbrev hbmTy0_1 (i : Nat) : BufTy := match i % 128 with
  | 0 => ⟨S1x64, .f32⟩
  | 1 => ⟨S64, .f32⟩
  | 2 => ⟨S1x64, .f32⟩
  | 3 => ⟨S100000x64, .f32⟩
  | 4 => ⟨S100000x64, .f32⟩
  | 5 => ⟨S_, .f32⟩
  | 6 => ⟨S100000x64, .f32⟩
  | 7 => ⟨S100000x64, .f32⟩
  | 8 => ⟨S1x64, .f32⟩
  | 9 => ⟨S100000x64, .f32⟩
  | 10 => ⟨S100000x64, .f32⟩
  | 11 => ⟨S_, .i32⟩
  | 12 => ⟨S1700000, .i32⟩
  | 13 => ⟨S1700000, .i1⟩
  | 14 => ⟨S_, .i32⟩
  | 15 => ⟨S1700000, .i32⟩
  | 16 => ⟨S1700000, .i32⟩
  | 17 => ⟨S1700000, .i32⟩
  | 18 => ⟨S1700000x1, .i32⟩
  | 19 => ⟨S1700000x64, .f32⟩
  | 20 => ⟨S1700000x1, .f32⟩
  | 21 => ⟨S1700000x64, .f32⟩
  | 22 => ⟨S1700000x64, .f32⟩
  | 23 => ⟨S_, .f32⟩
  | 24 => ⟨S100000x64, .f32⟩
  | 25 => ⟨S1700000x1, .i32⟩
  | 26 => ⟨S100000x64, .f32⟩
  | 27 => ⟨S_, .f32⟩
  | 28 => ⟨S100000x64, .f32⟩
  | 29 => ⟨S100000x64, .f32⟩
  | 30 => ⟨S_, .f32⟩
  | 31 => ⟨S100000x64, .f32⟩
  | 32 => ⟨S100000x64, .f32⟩
  | 33 => ⟨S100000x64, .f32⟩
  | 34 => ⟨S_, .f32⟩
  | 35 => ⟨S100000x64, .f32⟩
  | 36 => ⟨S100000x64, .f32⟩
  | 37 => ⟨S100000x64, .f32⟩
  | 38 => ⟨S1x64x64, .f32⟩
  | 39 => ⟨S64x64, .f32⟩
  | 40 => ⟨S100000x64, .f32⟩
  | 41 => ⟨S1x64, .f32⟩
  | 42 => ⟨S64, .f32⟩
  | 43 => ⟨S1x64, .f32⟩
  | 44 => ⟨S100000x64, .f32⟩
  | 45 => ⟨S100000x64, .f32⟩
  | 46 => ⟨S_, .f32⟩
  | 47 => ⟨S100000x64, .f32⟩
  | 48 => ⟨S100000x64, .f32⟩
  | 49 => ⟨S1x64, .f32⟩
  | 50 => ⟨S100000x64, .f32⟩
  | 51 => ⟨S100000x64, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S_, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S100000x64, .f32⟩
  | 79 => ⟨S1x64x64, .f32⟩
  | 80 => ⟨S64x64, .f32⟩
  | 81 => ⟨S100000x64, .f32⟩
  | 82 => ⟨S1x64, .f32⟩
  | 83 => ⟨S64, .f32⟩
  | 84 => ⟨S1x64, .f32⟩
  | 85 => ⟨S100000x64, .f32⟩
  | 86 => ⟨S100000x64, .f32⟩
  | 87 => ⟨S_, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S100000x40, .f32⟩
  | 94 => ⟨S1x40, .f32⟩
  | 95 => ⟨S100000x40, .f32⟩
  | 96 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call1_cst : Ref sig .tc := ⟨.hbm, 54, rfl⟩
abbrev main_call1_v0 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_cst_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_16 : Ref sig .tc := ⟨.hbm, 114, rfl⟩
abbrev main_v82 : Ref sig .tc := ⟨.hbm, 115, rfl⟩
abbrev main_v83 : Ref sig .tc := ⟨.hbm, 116, rfl⟩
abbrev main_cst_17 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_18 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_call3_cst : Ref sig .tc := ⟨.hbm, 133, rfl⟩
abbrev main_call3_v0 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_c_19 : Ref sig .tc := ⟨.hbm, 139, rfl⟩
abbrev main_v102 : Ref sig .tc := ⟨.hbm, 140, rfl⟩
abbrev main_v103 : Ref sig .tc := ⟨.hbm, 141, rfl⟩
abbrev main_c_20 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_21 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_22 : Ref sig .tc := ⟨.hbm, 155, rfl⟩
abbrev main_v115 : Ref sig .tc := ⟨.hbm, 156, rfl⟩
abbrev main_v116 : Ref sig .tc := ⟨.hbm, 157, rfl⟩
abbrev main_cst_23 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_cst_24 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_call4_cst : Ref sig .tc := ⟨.hbm, 174, rfl⟩
abbrev main_call4_v0 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_c_25 : Ref sig .tc := ⟨.hbm, 180, rfl⟩
abbrev main_v135 : Ref sig .tc := ⟨.hbm, 181, rfl⟩
abbrev main_v136 : Ref sig .tc := ⟨.hbm, 182, rfl⟩
abbrev main_c_26 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_cst_27 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_cst_28 : Ref sig .tc := ⟨.hbm, 196, rfl⟩
abbrev main_v148 : Ref sig .tc := ⟨.hbm, 197, rfl⟩
abbrev main_v149 : Ref sig .tc := ⟨.hbm, 198, rfl⟩
abbrev main_cst_29 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_cst_30 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_call5_cst : Ref sig .tc := ⟨.hbm, 215, rfl⟩
abbrev main_call5_v0 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1700000x1_S1700000x64_0_1 : S1700000x1.BroadcastsInDim S1700000x64 (![0, 1] : Fin 2 → Fin S1700000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.K_Region0.lean ====
/-
  Pipeline 0 of the forward pass (the input projection: relu(x·W_in + b_in) on a block of 5000 rows): what it leaves in its output block as a function of the
  input blocks, and that its body, handed the staged blocks, runs to its return leaving exactly that.
-/
import proofs.«134498_j40424232190561_2_alg».proof.Proof.Gen.Kernel.Launch
import proofs.«134498_j40424232190561_2_alg».proof.Proof.Gen.Kernel.Skeleton
import proofs.«134498_j40424232190561_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pipeline 0: the input projection: relu(x·W_in + b_in) on a block of 5000 rows, entered with the TensorCore's buffers at `V` -/

section Region0

variable (V : (c : Dev nD) → (b : Ref sig .tc) → Buf (Elt F) ((c : Thread nD τ).loc b))

/-- Window `w`'s block at grid point `t`, read off the window's array as the pipeline finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output block: its one store, of the payload of the whole input blocks, over the whole block. -/
def out0 (x0 : Vec F S5000x128 .f32) (x1 : Vec F S128x64 .f32) (x2 : Vec F S1x64 .f32) : Vec F S5000x64 .f32 :=
  View.canon [⟨(Rect.unit (s := S5000x64) ![0, 0] S5000x64.size inb_S5000x64_S5000x64_0_0), k0_pay1 (View.ld x0 (Rect.unit (s := S5000x128) ![0, 0] S5000x128.size inb_S5000x128_S5000x128_0_0)) (View.ld x1 (Rect.unit (s := S128x64) ![0, 0] S128x64.size inb_S128x64_S128x64_0_0)) (View.ld x2 (Rect.unit (s := S1x64) ![0, 0] S1x64.size inb_S1x64_S1x64_0_0))⟩]

/-- The one store covers the output block. -/
theorem cover0 (p : Vec F S5000x64 .f32) (y : S5000x64.Idx) :
    ∃ pc ∈ ([⟨(Rect.unit (s := S5000x64) ![0, 0] S5000x64.size inb_S5000x64_S5000x64_0_0), p⟩] : List (View.Piece (Elt F) S5000x64 .f32)), y ∈ pc.1.set :=
  View.cover_of_tiled [⟨(Rect.unit (s := S5000x64) ![0, 0] S5000x64.size inb_S5000x64_S5000x64_0_0), p⟩] S5000x64.size (by rfl) y

set_option maxHeartbeats 4000000 in
/-- The body, handed whole staging buffers — the inputs at `x0 …`, the output at anything —, returns them with the inputs as they were
    and the output at `out0` of the inputs. -/
theorem sound_kernel0 (c : Dev nD) (E : Set ℕ) (i : grid0.Coords) (a0 : Memref sig .tc .vmem S5000x128 .f32) (h0 : a0.IsWhole) (a1 : Memref sig .tc .vmem S128x64 .f32) (h1 : a1.IsWhole) (a2 : Memref sig .tc .vmem S1x64 .f32) (h2 : a2.IsWhole) (a3 : Memref sig .tc .vmem S5000x64 .f32) (h3 : a3.IsWhole)
    (x0 : Vec F S5000x128 .f32) (x1 : Vec F S128x64 .f32) (x2 : Vec F S1x64 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out0 x0 x1 x2)) -∗ K ⟨⟩))
      ⊢ wp frame (wpE (defs₀ (F := F)) Variants.none c none) E (cc0__input_proj_kernel i a0 h0 a1 h1 a2 h2 a3 h3) K := by
  simp only [cc0__input_proj_kernel_eq_skeleton]; unfold cc0__input_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The pipeline's proof data on core `c`: the arrays as found; after the body at point `t` every input block in place and the
    output block at `out0` of the input blocks; nothing kept between points, nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => out0 (blk0 V c 0 t) (blk0 V c 1 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = out0 (blk0 V c 0 t) (blk0 V c 1 t) (blk0 V c 2 t) := by dsimp only [dat0]
theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A_eq0]; try rfl) t d).trans
    (by unfold Dat.fetched Dat.blockOf blk0; rw [A_eq0]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A_eq0]; try rfl) t d).trans
    (by unfold Dat.fetched Dat.blockOf blk0; rw [A_eq0]; try rfl)
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [A_eq0]; try rfl) t d).trans
    (by unfold Dat.fetched Dat.blockOf blk0; rw [A_eq0]; try rfl)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Pipe

end
-- ==== Proof.K_Region1.lean ====
/-
  Pipeline 1 of the forward pass (one propagation layer on a block of 5000 rows): what it leaves in its output block as a function of the
  input blocks, and that its body, handed the staged blocks, runs to its return leaving exactly that.
-/
import proofs.«134498_j40424232190561_2_alg».proof.Proof.Gen.Kernel.Launch
import proofs.«134498_j40424232190561_2_alg».proof.Proof.Gen.Kernel.Skeleton
import proofs.«134498_j40424232190561_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pipeline 1: one propagation layer on a block of 5000 rows, entered with the TensorCore's buffers at `V` -/

section Region1

variable (V : (c : Dev nD) → (b : Ref sig .tc) → Buf (Elt F) ((c : Thread nD τ).loc b))

/-- Window `w`'s block at grid point `t`, read off the window's array as the pipeline finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output block: its one store, of the payload of the whole input blocks, over the whole block. -/
def out1 (x0 : Vec F S5000x64 .f32) (x1 : Vec F S5000x64 .f32) (x2 : Vec F S5000x64 .f32) (x3 : Vec F S64x64 .f32) (x4 : Vec F S1x64 .f32) : Vec F S5000x64 .f32 :=
  View.canon [⟨(Rect.unit (s := S5000x64) ![0, 0] S5000x64.size inb_S5000x64_S5000x64_0_0), k1_pay1 (View.ld x0 (Rect.unit (s := S5000x64) ![0, 0] S5000x64.size inb_S5000x64_S5000x64_0_0)) (View.ld x1 (Rect.unit (s := S5000x64) ![0, 0] S5000x64.size inb_S5000x64_S5000x64_0_0)) (View.ld x2 (Rect.unit (s := S5000x64) ![0, 0] S5000x64.size inb_S5000x64_S5000x64_0_0)) (View.ld x3 (Rect.unit (s := S64x64) ![0, 0] S64x64.size inb_S64x64_S64x64_0_0)) (View.ld x4 (Rect.unit (s := S1x64) ![0, 0] S1x64.size inb_S1x64_S1x64_0_0))⟩]

/-- The one store covers the output block. -/
theorem cover1 (p : Vec F S5000x64 .f32) (y : S5000x64.Idx) :
    ∃ pc ∈ ([⟨(Rect.unit (s := S5000x64) ![0, 0] S5000x64.size inb_S5000x64_S5000x64_0_0), p⟩] : List (View.Piece (Elt F) S5000x64 .f32)), y ∈ pc.1.set :=
  View.cover_of_tiled [⟨(Rect.unit (s := S5000x64) ![0, 0] S5000x64.size inb_S5000x64_S5000x64_0_0), p⟩] S5000x64.size (by rfl) y

set_option maxHeartbeats 4000000 in
/-- The body, handed whole staging buffers — the inputs at `x0 …`, the output at anything —, returns them with the inputs as they were
    and the output at `out1` of the inputs. -/
theorem sound_kernel1 (c : Dev nD) (E : Set ℕ) (i : grid1.Coords) (a0 : Memref sig .tc .vmem S5000x64 .f32) (h0 : a0.IsWhole) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S5000x64 .f32) (h5 : a5.IsWhole)
    (x0 : Vec F S5000x64 .f32) (x1 : Vec F S5000x64 .f32) (x2 : Vec F S5000x64 .f32) (x3 : Vec F S64x64 .f32) (x4 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out1 x0 x1 x2 x3 x4)) -∗ K ⟨⟩))
      ⊢ wp frame (wpE (defs₀ (F := F)) Variants.none c none) E (cc1__gcn_layer_kernel i a0 h0 a1 h1 a2 h2 a3 h3 a4 h4 a5 h5) K := by
  simp only [cc1__gcn_layer_kernel_eq_skeleton]; unfold cc1__gcn_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

/-- The pipeline's proof data on core `c`: the arrays as found; after the body at point `t` every input block in place and the
    output block at `out1` of the input blocks; nothing kept between points, nothing owed; the array two input windows read is held half by each. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => out1 (blk1 V c 0 t) (blk1 V c 1 t) (blk1 V c 2 t) (blk1 V c 3 t) (blk1 V c 4 t)
  Φ _ := Pipeline.ΦA spec1 c
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = out1 (blk1 V c 0 t) (blk1 V c 1 t) (blk1 V c 2 t) (blk1 V c 3 t) (blk1 V c 4 t) := by dsimp only [dat1]
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A_eq1]; try rfl) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [A_eq1]; try rfl) t d).trans
    (by unfold Dat.fetched Dat.blockOf blk1; rw [A_eq1]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [A_eq1]; try rfl) t d).trans
    (by unfold Dat.fetched Dat.blockOf blk1; rw [A_eq1]; try rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [A_eq1]; try rfl) t d).trans
    (by unfold Dat.fetched Dat.blockOf blk1; rw [A_eq1]; try rfl)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Pipe

end
-- ==== Proof.K_Region2.lean ====
/-
  Pipeline 2 of the forward pass (one propagation layer on a block of 5000 rows): what it leaves in its output block as a function of the
  input blocks, and that its body, handed the staged blocks, runs to its return leaving exactly that.
-/
import proofs.«134498_j40424232190561_2_alg».proof.Proof.Gen.Kernel.Launch
import proofs.«134498_j40424232190561_2_alg».proof.Proof.Gen.Kernel.Skeleton
import proofs.«134498_j40424232190561_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pipeline 2: one propagation layer on a block of 5000 rows, entered with the TensorCore's buffers at `V` -/

section Region2

variable (V : (c : Dev nD) → (b : Ref sig .tc) → Buf (Elt F) ((c : Thread nD τ).loc b))

/-- Window `w`'s block at grid point `t`, read off the window's array as the pipeline finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body leaves in the output block: its one store, of the payload of the whole input blocks, over the whole block. -/
def out2 (x0 : Vec F S5000x64 .f32) (x1 : Vec F S5000x64 .f32) (x2 : Vec F S5000x64 .f32) (x3 : Vec F S64x64 .f32) (x4 : Vec F S1x64 .f32) : Vec F S5000x64 .f32 :=
  View.canon [⟨(Rect.unit (s := S5000x64) ![0, 0] S5000x64.size inb_S5000x64_S5000x64_0_0), k2_pay1 (View.ld x0 (Rect.unit (s := S5000x64) ![0, 0] S5000x64.size inb_S5000x64_S5000x64_0_0)) (View.ld x1 (Rect.unit (s := S5000x64) ![0, 0] S5000x64.size inb_S5000x64_S5000x64_0_0)) (View.ld x2 (Rect.unit (s := S5000x64) ![0, 0] S5000x64.size inb_S5000x64_S5000x64_0_0)) (View.ld x3 (Rect.unit (s := S64x64) ![0, 0] S64x64.size inb_S64x64_S64x64_0_0)) (View.ld x4 (Rect.unit (s := S1x64) ![0, 0] S1x64.size inb_S1x64_S1x64_0_0))⟩]

/-- The one store covers the output block. -/
theorem cover2 (p : Vec F S5000x64 .f32) (y : S5000x64.Idx) :
    ∃ pc ∈ ([⟨(Rect.unit (s := S5000x64) ![0, 0] S5000x64.size inb_S5000x64_S5000x64_0_0), p⟩] : List (View.Piece (Elt F) S5000x64 .f32)), y ∈ pc.1.set :=
  View.cover_of_tiled [⟨(Rect.unit (s := S5000x64) ![0, 0] S5000x64.size inb_S5000x64_S5000x64_0_0), p⟩] S5000x64.size (by rfl) y

set_option maxHeartbeats 4000000 in
/-- The body, handed whole staging buffers — the inputs at `x0 …`, the output at anything —, returns them with the inputs as they were
    and the output at `out2` of the inputs. -/
theorem sound_kernel2 (c : Dev nD) (E : Set ℕ) (i : grid2.Coords) (a0 : Memref sig .tc .vmem S5000x64 .f32) (h0 : a0.IsWhole) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S5000x64 .f32) (h5 : a5.IsWhole)
    (x0 : Vec F S5000x64 .f32) (x1 : Vec F S5000x64 .f32) (x2 : Vec F S5000x64 .f32) (x3 : Vec F S64x64 .f32) (x4 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out2 x0 x1 x2 x3 x4)) -∗ K ⟨⟩))
      ⊢ wp frame (wpE (defs₀ (F := F)) Variants.none c none) E (cc2__gcn_layer_kernel i a0 h0 a1 h1 a2 h2 a3 h3 a4 h4 a5 h5) K := by
  simp only [cc2__gcn_layer_kernel_eq_skeleton]; unfold cc2__gcn_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2 _)

/-- The pipeline's proof data on core `c`: the arrays as found; after the body at point `t` every input block in place and the
    output block at `out2` of the input blocks; nothing kept between points, nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => out2 (blk2 V c 0 t) (blk2 V c 1 t) (blk2 V c 2 t) (blk2 V c 3 t) (blk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = out2 (blk2 V c 0 t) (blk2 V c 1 t) (blk2 V c 2 t) (blk2 V c 3 t) (blk2 V c 4 t) := by dsimp only [dat2]
theorem before2_0 (c : Dev nD) (t : Fin cfg2.N) (d) : (dat2 V c).before 0 t d = blk2 V c 0 t :=
  ((dat2 V c).before_in_eq_fetched 0 rfl (fun _ => rfl) (fun _ _ _ => rfl) (fun t => by rw [after2_0]; unfold Dat.blockOf blk2; rw [A_eq2]; try rfl) t d).trans
    (by unfold Dat.fetched Dat.blockOf blk2; rw [A_eq2]; try rfl)
theorem before2_1 (c : Dev nD) (t : Fin cfg2.N) (d) : (dat2 V c).before 1 t d = blk2 V c 1 t :=
  ((dat2 V c).before_in_eq_fetched 1 rfl (fun _ => rfl) (fun _ _ _ => rfl) (fun t => by rw [after2_1]; unfold Dat.blockOf blk2; rw [A_eq2]; try rfl) t d).trans
    (by unfold Dat.fetched Dat.blockOf blk2; rw [A_eq2]; try rfl)
theorem before2_2 (c : Dev nD) (t : Fin cfg2.N) (d) : (dat2 V c).before 2 t d = blk2 V c 2 t :=
  ((dat2 V c).before_in_eq_fetched 2 rfl (fun _ => rfl) (fun _ _ _ => rfl) (fun t => by rw [after2_2]; unfold Dat.blockOf blk2; rw [A_eq2]; try rfl) t d).trans
    (by unfold Dat.fetched Dat.blockOf blk2; rw [A_eq2]; try rfl)
theorem before2_3 (c : Dev nD) (t : Fin cfg2.N) (d) : (dat2 V c).before 3 t d = blk2 V c 3 t :=
  ((dat2 V c).before_in_eq_fetched 3 rfl (fun _ => rfl) (fun _ _ _ => rfl) (fun t => by rw [after2_3]; unfold Dat.blockOf blk2; rw [A_eq2]; try rfl) t d).trans
    (by unfold Dat.fetched Dat.blockOf blk2; rw [A_eq2]; try rfl)
theorem before2_4 (c : Dev nD) (t : Fin cfg2.N) (d) : (dat2 V c).before 4 t d = blk2 V c 4 t :=
  ((dat2 V c).before_in_eq_fetched 4 rfl (fun _ => rfl) (fun _ _ _ => rfl) (fun t => by rw [after2_4]; unfold Dat.blockOf blk2; rw [A_eq2]; try rfl) t d).trans
    (by unfold Dat.fetched Dat.blockOf blk2; rw [A_eq2]; try rfl)

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (blk2 V c 0 t) (blk2 V c 1 t) (blk2 V c 2 t) (blk2 V c 3 t) (blk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Pipe

end
-- ==== Proof.K_Region3.lean ====
/-
  Pipeline 3 of the forward pass (one propagation layer on a block of 5000 rows): what it leaves in its output block as a function of the
  input blocks, and that its body, handed the staged blocks, runs to its return leaving exactly that.
-/
import proofs.«134498_j40424232190561_2_alg».proof.Proof.Gen.Kernel.Launch
import proofs.«134498_j40424232190561_2_alg».proof.Proof.Gen.Kernel.Skeleton
import proofs.«134498_j40424232190561_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pipeline 3: one propagation layer on a block of 5000 rows, entered with the TensorCore's buffers at `V` -/

section Region3

variable (V : (c : Dev nD) → (b : Ref sig .tc) → Buf (Elt F) ((c : Thread nD τ).loc b))

/-- Window `w`'s block at grid point `t`, read off the window's array as the pipeline finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the body leaves in the output block: its one store, of the payload of the whole input blocks, over the whole block. -/
def out3 (x0 : Vec F S5000x64 .f32) (x1 : Vec F S5000x64 .f32) (x2 : Vec F S5000x64 .f32) (x3 : Vec F S64x64 .f32) (x4 : Vec F S1x64 .f32) : Vec F S5000x64 .f32 :=
  View.canon [⟨(Rect.unit (s := S5000x64) ![0, 0] S5000x64.size inb_S5000x64_S5000x64_0_0), k3_pay1 (View.ld x0 (Rect.unit (s := S5000x64) ![0, 0] S5000x64.size inb_S5000x64_S5000x64_0_0)) (View.ld x1 (Rect.unit (s := S5000x64) ![0, 0] S5000x64.size inb_S5000x64_S5000x64_0_0)) (View.ld x2 (Rect.unit (s := S5000x64) ![0, 0] S5000x64.size inb_S5000x64_S5000x64_0_0)) (View.ld x3 (Rect.unit (s := S64x64) ![0, 0] S64x64.size inb_S64x64_S64x64_0_0)) (View.ld x4 (Rect.unit (s := S1x64) ![0, 0] S1x64.size inb_S1x64_S1x64_0_0))⟩]

/-- The one store covers the output block. -/
theorem cover3 (p : Vec F S5000x64 .f32) (y : S5000x64.Idx) :
    ∃ pc ∈ ([⟨(Rect.unit (s := S5000x64) ![0, 0] S5000x64.size inb_S5000x64_S5000x64_0_0), p⟩] : List (View.Piece (Elt F) S5000x64 .f32)), y ∈ pc.1.set :=
  View.cover_of_tiled [⟨(Rect.unit (s := S5000x64) ![0, 0] S5000x64.size inb_S5000x64_S5000x64_0_0), p⟩] S5000x64.size (by rfl) y

set_option maxHeartbeats 4000000 in
/-- The body, handed whole staging buffers — the inputs at `x0 …`, the output at anything —, returns them with the inputs as they were
    and the output at `out3` of the inputs. -/
theorem sound_kernel3 (c : Dev nD) (E : Set ℕ) (i : grid3.Coords) (a0 : Memref sig .tc .vmem S5000x64 .f32) (h0 : a0.IsWhole) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S5000x64 .f32) (h5 : a5.IsWhole)
    (x0 : Vec F S5000x64 .f32) (x1 : Vec F S5000x64 .f32) (x2 : Vec F S5000x64 .f32) (x3 : Vec F S64x64 .f32) (x4 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out3 x0 x1 x2 x3 x4)) -∗ K ⟨⟩))
      ⊢ wp frame (wpE (defs₀ (F := F)) Variants.none c none) E (cc3__gcn_layer_kernel i a0 h0 a1 h1 a2 h2 a3 h3 a4 h4 a5 h5) K := by
  simp only [cc3__gcn_layer_kernel_eq_skeleton]; unfold cc3__gcn_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3 _)

/-- The pipeline's proof data on core `c`: the arrays as found; after the body at point `t` every input block in place and the
    output block at `out3` of the input blocks; nothing kept between points, nothing owed. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => out3 (blk3 V c 0 t) (blk3 V c 1 t) (blk3 V c 2 t) (blk3 V c 3 t) (blk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = blk3 V c 3 t := by dsimp only [dat3]
theorem after3_4 (c : Dev nD) (t : Fin cfg3.N) : (dat3 V c).after 4 t = blk3 V c 4 t := by dsimp only [dat3]
theorem after3_5 (c : Dev nD) (t : Fin cfg3.N) : (dat3 V c).after 5 t = out3 (blk3 V c 0 t) (blk3 V c 1 t) (blk3 V c 2 t) (blk3 V c 3 t) (blk3 V c 4 t) := by dsimp only [dat3]
theorem before3_0 (c : Dev nD) (t : Fin cfg3.N) (d) : (dat3 V c).before 0 t d = blk3 V c 0 t :=
  ((dat3 V c).before_in_eq_fetched 0 rfl (fun _ => rfl) (fun _ _ _ => rfl) (fun t => by rw [after3_0]; unfold Dat.blockOf blk3; rw [A_eq3]; try rfl) t d).trans
    (by unfold Dat.fetched Dat.blockOf blk3; rw [A_eq3]; try rfl)
theorem before3_1 (c : Dev nD) (t : Fin cfg3.N) (d) : (dat3 V c).before 1 t d = blk3 V c 1 t :=
  ((dat3 V c).before_in_eq_fetched 1 rfl (fun _ => rfl) (fun _ _ _ => rfl) (fun t => by rw [after3_1]; unfold Dat.blockOf blk3; rw [A_eq3]; try rfl) t d).trans
    (by unfold Dat.fetched Dat.blockOf blk3; rw [A_eq3]; try rfl)
theorem before3_2 (c : Dev nD) (t : Fin cfg3.N) (d) : (dat3 V c).before 2 t d = blk3 V c 2 t :=
  ((dat3 V c).before_in_eq_fetched 2 rfl (fun _ => rfl) (fun _ _ _ => rfl) (fun t => by rw [after3_2]; unfold Dat.blockOf blk3; rw [A_eq3]; try rfl) t d).trans
    (by unfold Dat.fetched Dat.blockOf blk3; rw [A_eq3]; try rfl)
theorem before3_3 (c : Dev nD) (t : Fin cfg3.N) (d) : (dat3 V c).before 3 t d = blk3 V c 3 t :=
  ((dat3 V c).before_in_eq_fetched 3 rfl (fun _ => rfl) (fun _ _ _ => rfl) (fun t => by rw [after3_3]; unfold Dat.blockOf blk3; rw [A_eq3]; try rfl) t d).trans
    (by unfold Dat.fetched Dat.blockOf blk3; rw [A_eq3]; try rfl)
theorem before3_4 (c : Dev nD) (t : Fin cfg3.N) (d) : (dat3 V c).before 4 t d = blk3 V c 4 t :=
  ((dat3 V c).before_in_eq_fetched 4 rfl (fun _ => rfl) (fun _ _ _ => rfl) (fun t => by rw [after3_4]; unfold Dat.blockOf blk3; rw [A_eq3]; try rfl) t d).trans
    (by unfold Dat.fetched Dat.blockOf blk3; rw [A_eq3]; try rfl)

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (blk3 V c 0 t) (blk3 V c 1 t) (blk3 V c 2 t) (blk3 V c 3 t) (blk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Pipe

end
-- ==== Proof.K_Region4.lean ====
/-
  Pipeline 4 of the forward pass (one propagation layer on a block of 5000 rows): what it leaves in its output block as a function of the
  input blocks, and that its body, handed the staged blocks, runs to its return leaving exactly that.
-/
import proofs.«134498_j40424232190561_2_alg».proof.Proof.Gen.Kernel.Launch
import proofs.«134498_j40424232190561_2_alg».proof.Proof.Gen.Kernel.Skeleton
import proofs.«134498_j40424232190561_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pipeline 4: one propagation layer on a block of 5000 rows, entered with the TensorCore's buffers at `V` -/

section Region4

variable (V : (c : Dev nD) → (b : Ref sig .tc) → Buf (Elt F) ((c : Thread nD τ).loc b))

/-- Window `w`'s block at grid point `t`, read off the window's array as the pipeline finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the body leaves in the output block: its one store, of the payload of the whole input blocks, over the whole block. -/
def out4 (x0 : Vec F S5000x64 .f32) (x1 : Vec F S5000x64 .f32) (x2 : Vec F S5000x64 .f32) (x3 : Vec F S64x64 .f32) (x4 : Vec F S1x64 .f32) : Vec F S5000x64 .f32 :=
  View.canon [⟨(Rect.unit (s := S5000x64) ![0, 0] S5000x64.size inb_S5000x64_S5000x64_0_0), k4_pay1 (View.ld x0 (Rect.unit (s := S5000x64) ![0, 0] S5000x64.size inb_S5000x64_S5000x64_0_0)) (View.ld x1 (Rect.unit (s := S5000x64) ![0, 0] S5000x64.size inb_S5000x64_S5000x64_0_0)) (View.ld x2 (Rect.unit (s := S5000x64) ![0, 0] S5000x64.size inb_S5000x64_S5000x64_0_0)) (View.ld x3 (Rect.unit (s := S64x64) ![0, 0] S64x64.size inb_S64x64_S64x64_0_0)) (View.ld x4 (Rect.unit (s := S1x64) ![0, 0] S1x64.size inb_S1x64_S1x64_0_0))⟩]

/-- The one store covers the output block. -/
theorem cover4 (p : Vec F S5000x64 .f32) (y : S5000x64.Idx) :
    ∃ pc ∈ ([⟨(Rect.unit (s := S5000x64) ![0, 0] S5000x64.size inb_S5000x64_S5000x64_0_0), p⟩] : List (View.Piece (Elt F) S5000x64 .f32)), y ∈ pc.1.set :=
  View.cover_of_tiled [⟨(Rect.unit (s := S5000x64) ![0, 0] S5000x64.size inb_S5000x64_S5000x64_0_0), p⟩] S5000x64.size (by rfl) y

set_option maxHeartbeats 4000000 in
/-- The body, handed whole staging buffers — the inputs at `x0 …`, the output at anything —, returns them with the inputs as they were
    and the output at `out4` of the inputs. -/
theorem sound_kernel4 (c : Dev nD) (E : Set ℕ) (i : grid4.Coords) (a0 : Memref sig .tc .vmem S5000x64 .f32) (h0 : a0.IsWhole) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S5000x64 .f32) (h5 : a5.IsWhole)
    (x0 : Vec F S5000x64 .f32) (x1 : Vec F S5000x64 .f32) (x2 : Vec F S5000x64 .f32) (x3 : Vec F S64x64 .f32) (x4 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out4 x0 x1 x2 x3 x4)) -∗ K ⟨⟩))
      ⊢ wp frame (wpE (defs₀ (F := F)) Variants.none c none) E (cc4__gcn_layer_kernel i a0 h0 a1 h1 a2 h2 a3 h3 a4 h4 a5 h5) K := by
  simp only [cc4__gcn_layer_kernel_eq_skeleton]; unfold cc4__gcn_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4 _)

/-- The pipeline's proof data on core `c`: the arrays as found; after the body at point `t` every input block in place and the
    output block at `out4` of the input blocks; nothing kept between points, nothing owed. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => blk4 V c 3 t
    | ⟨4, _⟩ => blk4 V c 4 t
    | ⟨5, _⟩ => out4 (blk4 V c 0 t) (blk4 V c 1 t) (blk4 V c 2 t) (blk4 V c 3 t) (blk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = blk4 V c 0 t := by dsimp only [dat4]
theorem after4_1 (c : Dev nD) (t : Fin cfg4.N) : (dat4 V c).after 1 t = blk4 V c 1 t := by dsimp only [dat4]
theorem after4_2 (c : Dev nD) (t : Fin cfg4.N) : (dat4 V c).after 2 t = blk4 V c 2 t := by dsimp only [dat4]
theorem after4_3 (c : Dev nD) (t : Fin cfg4.N) : (dat4 V c).after 3 t = blk4 V c 3 t := by dsimp only [dat4]
theorem after4_4 (c : Dev nD) (t : Fin cfg4.N) : (dat4 V c).after 4 t = blk4 V c 4 t := by dsimp only [dat4]
theorem after4_5 (c : Dev nD) (t : Fin cfg4.N) : (dat4 V c).after 5 t = out4 (blk4 V c 0 t) (blk4 V c 1 t) (blk4 V c 2 t) (blk4 V c 3 t) (blk4 V c 4 t) := by dsimp only [dat4]
theorem before4_0 (c : Dev nD) (t : Fin cfg4.N) (d) : (dat4 V c).before 0 t d = blk4 V c 0 t :=
  ((dat4 V c).before_in_eq_fetched 0 rfl (fun _ => rfl) (fun _ _ _ => rfl) (fun t => by rw [after4_0]; unfold Dat.blockOf blk4; rw [A_eq4]; try rfl) t d).trans
    (by unfold Dat.fetched Dat.blockOf blk4; rw [A_eq4]; try rfl)
theorem before4_1 (c : Dev nD) (t : Fin cfg4.N) (d) : (dat4 V c).before 1 t d = blk4 V c 1 t :=
  ((dat4 V c).before_in_eq_fetched 1 rfl (fun _ => rfl) (fun _ _ _ => rfl) (fun t => by rw [after4_1]; unfold Dat.blockOf blk4; rw [A_eq4]; try rfl) t d).trans
    (by unfold Dat.fetched Dat.blockOf blk4; rw [A_eq4]; try rfl)
theorem before4_2 (c : Dev nD) (t : Fin cfg4.N) (d) : (dat4 V c).before 2 t d = blk4 V c 2 t :=
  ((dat4 V c).before_in_eq_fetched 2 rfl (fun _ => rfl) (fun _ _ _ => rfl) (fun t => by rw [after4_2]; unfold Dat.blockOf blk4; rw [A_eq4]; try rfl) t d).trans
    (by unfold Dat.fetched Dat.blockOf blk4; rw [A_eq4]; try rfl)
theorem before4_3 (c : Dev nD) (t : Fin cfg4.N) (d) : (dat4 V c).before 3 t d = blk4 V c 3 t :=
  ((dat4 V c).before_in_eq_fetched 3 rfl (fun _ => rfl) (fun _ _ _ => rfl) (fun t => by rw [after4_3]; unfold Dat.blockOf blk4; rw [A_eq4]; try rfl) t d).trans
    (by unfold Dat.fetched Dat.blockOf blk4; rw [A_eq4]; try rfl)
theorem before4_4 (c : Dev nD) (t : Fin cfg4.N) (d) : (dat4 V c).before 4 t d = blk4 V c 4 t :=
  ((dat4 V c).before_in_eq_fetched 4 rfl (fun _ => rfl) (fun _ _ _ => rfl) (fun t => by rw [after4_4]; unfold Dat.blockOf blk4; rw [A_eq4]; try rfl) t d).trans
    (by unfold Dat.fetched Dat.blockOf blk4; rw [A_eq4]; try rfl)

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (blk4 V c 0 t) (blk4 V c 1 t) (blk4 V c 2 t) (blk4 V c 3 t) (blk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every point. -/
theorem body_obligation4 (c : Dev nD) : BodyObligation (dat4 (F := F) V c) (defs₀ (F := F)) Variants.none () Set.univ := fun t => by
  rw [bigSep_W4, bigSep_W4]
  exact sound_body4 V c t

end Region4

end Cert.Kernel.Pipe

end
-- ==== Proof.K_Region5.lean ====
/-
  Pipeline 5 of the forward pass (the output projection x·W_out + b_out on a block of 5000 rows): what it leaves in its output block as a function of the
  input blocks, and that its body, handed the staged blocks, runs to its return leaving exactly that.
-/
import proofs.«134498_j40424232190561_2_alg».proof.Proof.Gen.Kernel.Launch
import proofs.«134498_j40424232190561_2_alg».proof.Proof.Gen.Kernel.Skeleton
import proofs.«134498_j40424232190561_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pipeline 5: the output projection x·W_out + b_out on a block of 5000 rows, entered with the TensorCore's buffers at `V` -/

section Region5

variable (V : (c : Dev nD) → (b : Ref sig .tc) → Buf (Elt F) ((c : Thread nD τ).loc b))

/-- Window `w`'s block at grid point `t`, read off the window's array as the pipeline finds it. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the body leaves in the output block: its one store, of the payload of the whole input blocks, over the whole block. -/
def out5 (x0 : Vec F S5000x64 .f32) (x1 : Vec F S64x40 .f32) (x2 : Vec F S1x40 .f32) : Vec F S5000x40 .f32 :=
  View.canon [⟨(Rect.unit (s := S5000x40) ![0, 0] S5000x40.size inb_S5000x40_S5000x40_0_0), k5_pay1 (View.ld x0 (Rect.unit (s := S5000x64) ![0, 0] S5000x64.size inb_S5000x64_S5000x64_0_0)) (View.ld x1 (Rect.unit (s := S64x40) ![0, 0] S64x40.size inb_S64x40_S64x40_0_0)) (View.ld x2 (Rect.unit (s := S1x40) ![0, 0] S1x40.size inb_S1x40_S1x40_0_0))⟩]

/-- The one store covers the output block. -/
theorem cover5 (p : Vec F S5000x40 .f32) (y : S5000x40.Idx) :
    ∃ pc ∈ ([⟨(Rect.unit (s := S5000x40) ![0, 0] S5000x40.size inb_S5000x40_S5000x40_0_0), p⟩] : List (View.Piece (Elt F) S5000x40 .f32)), y ∈ pc.1.set :=
  View.cover_of_tiled [⟨(Rect.unit (s := S5000x40) ![0, 0] S5000x40.size inb_S5000x40_S5000x40_0_0), p⟩] S5000x40.size (by rfl) y

set_option maxHeartbeats 4000000 in
/-- The body, handed whole staging buffers — the inputs at `x0 …`, the output at anything —, returns them with the inputs as they were
    and the output at `out5` of the inputs. -/
theorem sound_kernel5 (c : Dev nD) (E : Set ℕ) (i : grid5.Coords) (a0 : Memref sig .tc .vmem S5000x64 .f32) (h0 : a0.IsWhole) (a1 : Memref sig .tc .vmem S64x40 .f32) (h1 : a1.IsWhole) (a2 : Memref sig .tc .vmem S1x40 .f32) (h2 : a2.IsWhole) (a3 : Memref sig .tc .vmem S5000x40 .f32) (h3 : a3.IsWhole)
    (x0 : Vec F S5000x64 .f32) (x1 : Vec F S64x40 .f32) (x2 : Vec F S1x40 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out5 x0 x1 x2)) -∗ K ⟨⟩))
      ⊢ wp frame (wpE (defs₀ (F := F)) Variants.none c none) E (cc5__output_proj_kernel i a0 h0 a1 h1 a2 h2 a3 h3) K := by
  simp only [cc5__output_proj_kernel_eq_skeleton]; unfold cc5__output_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5 _)

/-- The pipeline's proof data on core `c`: the arrays as found; after the body at point `t` every input block in place and the
    output block at `out5` of the input blocks; nothing kept between points, nothing owed. -/
def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => out5 (blk5 V c 0 t) (blk5 V c 1 t) (blk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = blk5 V c 0 t := by dsimp only [dat5]
theorem after5_1 (c : Dev nD) (t : Fin cfg5.N) : (dat5 V c).after 1 t = blk5 V c 1 t := by dsimp only [dat5]
theorem after5_2 (c : Dev nD) (t : Fin cfg5.N) : (dat5 V c).after 2 t = blk5 V c 2 t := by dsimp only [dat5]
theorem after5_3 (c : Dev nD) (t : Fin cfg5.N) : (dat5 V c).after 3 t = out5 (blk5 V c 0 t) (blk5 V c 1 t) (blk5 V c 2 t) := by dsimp only [dat5]
theorem before5_0 (c : Dev nD) (t : Fin cfg5.N) (d) : (dat5 V c).before 0 t d = blk5 V c 0 t :=
  ((dat5 V c).before_in_eq_fetched 0 rfl (fun _ => rfl) (fun _ _ _ => rfl) (fun t => by rw [after5_0]; unfold Dat.blockOf blk5; rw [A_eq5]; try rfl) t d).trans
    (by unfold Dat.fetched Dat.blockOf blk5; rw [A_eq5]; try rfl)
theorem before5_1 (c : Dev nD) (t : Fin cfg5.N) (d) : (dat5 V c).before 1 t d = blk5 V c 1 t :=
  ((dat5 V c).before_in_eq_fetched 1 rfl (fun _ => rfl) (fun _ _ _ => rfl) (fun t => by rw [after5_1]; unfold Dat.blockOf blk5; rw [A_eq5]; try rfl) t d).trans
    (by unfold Dat.fetched Dat.blockOf blk5; rw [A_eq5]; try rfl)
theorem before5_2 (c : Dev nD) (t : Fin cfg5.N) (d) : (dat5 V c).before 2 t d = blk5 V c 2 t :=
  ((dat5 V c).before_in_eq_fetched 2 rfl (fun _ => rfl) (fun _ _ _ => rfl) (fun t => by rw [after5_2]; unfold Dat.blockOf blk5; rw [A_eq5]; try rfl) t d).trans
    (by unfold Dat.fetched Dat.blockOf blk5; rw [A_eq5]; try rfl)

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (blk5 V c 0 t) (blk5 V c 1 t) (blk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem body_obligation5 (c : Dev nD) : BodyObligation (dat5 (F := F) V c) (defs₀ (F := F)) Variants.none () Set.univ := fun t => by
  rw [bigSep_W5, bigSep_W5]
  exact sound_body5 V c t

end Region5

end Cert.Kernel.Pipe

end
-- ==== Proof.K_Run.lean ====
/-
  The forward pass as ONE run: the contents of the TensorCore's buffers between its items (five host stretches, then six
  pipelines each preceded by a host stretch), every pipeline's proof data at the contents it is entered with, and each
  pipeline with distinct arrays as a segment of the run.
-/
import proofs.«134498_j40424232190561_2_alg».proof.Proof.Gen.Kernel.Launch
import proofs.«134498_j40424232190561_2_alg».proof.Proof.Gen.Kernel.Skeleton
import proofs.«134498_j40424232190561_2_alg».proof.Proof.Gen.Kernel.Points
import proofs.«134498_j40424232190561_2_alg».proof.Proof.K_Region0
import proofs.«134498_j40424232190561_2_alg».proof.Proof.K_Region1
import proofs.«134498_j40424232190561_2_alg».proof.Proof.K_Region2
import proofs.«134498_j40424232190561_2_alg».proof.Proof.K_Region3
import proofs.«134498_j40424232190561_2_alg».proof.Proof.K_Region4
import proofs.«134498_j40424232190561_2_alg».proof.Proof.K_Region5
import proofs.«134498_j40424232190561_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole run: the buffers' contents between the items of the forward pass

  `E K` is what the TensorCore's buffers hold when pipeline `K` is entered, `X K` what they hold when it is left: the host
  stretch before it applied to what the pipeline before left; a pipeline changes its output array only, to the fold of its
  write-backs. -/

section Run

variable (m : (ℓ : Loc nD τ sig) → Buf (Elt F) ℓ)

/-- A valuation read at the TensorCore's references. -/
abbrev atTc (W : Dev nD → Valuation τ sig (Elt F)) : (c : Dev nD) → (b : Ref sig .tc) → Buf (Elt F) ((c : Thread nD τ).loc b) :=
  fun c b => W c b

/-- Entering pipeline 0: the launch memory after the five host stretches that build the edge lists, the degrees and the
    normalisation weights, and re-lay the input bias as a row. -/
abbrev E0 : Dev nD → Valuation τ sig (Elt F) := fun c => Gen.V5 m c
/-- Leaving pipeline 0: its arrays at what the pipeline leaves, every other buffer as entered. -/
def X0 (c : Dev nD) : Valuation τ sig (Elt F) :=
  Pipeline.withArrays spec0 c (E0 m c) fun w => (dat0 (atTc (E0 m)) c).arrAt w cfg0.N
theorem X0_arr (c : Dev nD) (w : Fin cfg0.W) :
    X0 m c (Proc.devRef .tc (Pipeline.arrRef spec0 w)) = (dat0 (atTc (E0 m)) c).arrAt w cfg0.N := by
  unfold X0; exact Pipeline.withArrays_arr spec0 launch0.win.arr_inj c _ _ w
theorem X0_of_ne (c : Dev nD) (b : Ref sig .tc) (hb : ∀ w, Pipeline.arrRef spec0 w ≠ b) :
    X0 m c (Proc.devRef .tc b) = E0 m c (Proc.devRef .tc b) := by
  unfold X0; exact Pipeline.withArrays_of_ne spec0 c _ _ b hb
theorem hF0 (c : Dev nD) (w : Fin cfg0.W) : (dat0 (atTc (E0 m)) c).arrAt w cfg0.N = atTc (X0 m) c (Pipeline.arrRef spec0 w) :=
  (X0_arr m c w).symm
theorem hrest0 (c : Dev nD) : ∀ b, b ∉ Finset.univ.image (Pipeline.arrRef spec0) → atTc (X0 m) c b = atTc (E0 m) c b :=
  fun b hb => X0_of_ne m c b fun w e => hb (Finset.mem_image.mpr ⟨w, Finset.mem_univ _, e⟩)
/-- Entering pipeline 1: host stretch 1 (the gather, the weighting and the scatter-add of one propagation, the layer's weight
    and bias slices) applied to what pipeline 0 left. -/
abbrev E1 : Dev nD → Valuation τ sig (Elt F) := fun c => StableHlo.after hostOps1 (X0 m c)
/-- Leaving pipeline 1, two of whose input windows read ONE array (the first layer's state is also the initial state): only the
    output array changes, to the fold of the write-backs. -/
def X1 (c : Dev nD) : Valuation τ sig (Elt F) :=
  Function.update (E1 m c) (Proc.devRef .tc main_v54) ((dat1 (atTc (E1 m)) c).arrAt 5 cfg1.N)
theorem X1_out (c : Dev nD) : X1 m c (Proc.devRef .tc main_v54) = (dat1 (atTc (E1 m)) c).arrAt 5 cfg1.N := by
  unfold X1; exact Function.update_self ..
theorem X1_of_ne (c : Dev nD) (b : Ref sig .tc) (hb : b ≠ main_v54) :
    X1 m c (Proc.devRef .tc b) = E1 m c (Proc.devRef .tc b) := by
  unfold X1; exact Function.update_of_ne (StableHlo.devRef_ne_of_ne hb) ..
/-- Entering pipeline 2: host stretch 2 (the gather, the weighting and the scatter-add of one propagation, the layer's weight
    and bias slices) applied to what pipeline 1 left. -/
abbrev E2 : Dev nD → Valuation τ sig (Elt F) := fun c => StableHlo.after hostOps2 (X1 m c)
/-- Leaving pipeline 2: its arrays at what the pipeline leaves, every other buffer as entered. -/
def X2 (c : Dev nD) : Valuation τ sig (Elt F) :=
  Pipeline.withArrays spec2 c (E2 m c) fun w => (dat2 (atTc (E2 m)) c).arrAt w cfg2.N
theorem X2_arr (c : Dev nD) (w : Fin cfg2.W) :
    X2 m c (Proc.devRef .tc (Pipeline.arrRef spec2 w)) = (dat2 (atTc (E2 m)) c).arrAt w cfg2.N := by
  unfold X2; exact Pipeline.withArrays_arr spec2 launch2.win.arr_inj c _ _ w
theorem X2_of_ne (c : Dev nD) (b : Ref sig .tc) (hb : ∀ w, Pipeline.arrRef spec2 w ≠ b) :
    X2 m c (Proc.devRef .tc b) = E2 m c (Proc.devRef .tc b) := by
  unfold X2; exact Pipeline.withArrays_of_ne spec2 c _ _ b hb
theorem hF2 (c : Dev nD) (w : Fin cfg2.W) : (dat2 (atTc (E2 m)) c).arrAt w cfg2.N = atTc (X2 m) c (Pipeline.arrRef spec2 w) :=
  (X2_arr m c w).symm
theorem hrest2 (c : Dev nD) : ∀ b, b ∉ Finset.univ.image (Pipeline.arrRef spec2) → atTc (X2 m) c b = atTc (E2 m) c b :=
  fun b hb => X2_of_ne m c b fun w e => hb (Finset.mem_image.mpr ⟨w, Finset.mem_univ _, e⟩)
/-- Entering pipeline 3: host stretch 3 (the gather, the weighting and the scatter-add of one propagation, the layer's weight
    and bias slices) applied to what pipeline 2 left. -/
abbrev E3 : Dev nD → Valuation τ sig (Elt F) := fun c => StableHlo.after hostOps3 (X2 m c)
/-- Leaving pipeline 3: its arrays at what the pipeline leaves, every other buffer as entered. -/
def X3 (c : Dev nD) : Valuation τ sig (Elt F) :=
  Pipeline.withArrays spec3 c (E3 m c) fun w => (dat3 (atTc (E3 m)) c).arrAt w cfg3.N
theorem X3_arr (c : Dev nD) (w : Fin cfg3.W) :
    X3 m c (Proc.devRef .tc (Pipeline.arrRef spec3 w)) = (dat3 (atTc (E3 m)) c).arrAt w cfg3.N := by
  unfold X3; exact Pipeline.withArrays_arr spec3 launch3.win.arr_inj c _ _ w
theorem X3_of_ne (c : Dev nD) (b : Ref sig .tc) (hb : ∀ w, Pipeline.arrRef spec3 w ≠ b) :
    X3 m c (Proc.devRef .tc b) = E3 m c (Proc.devRef .tc b) := by
  unfold X3; exact Pipeline.withArrays_of_ne spec3 c _ _ b hb
theorem hF3 (c : Dev nD) (w : Fin cfg3.W) : (dat3 (atTc (E3 m)) c).arrAt w cfg3.N = atTc (X3 m) c (Pipeline.arrRef spec3 w) :=
  (X3_arr m c w).symm
theorem hrest3 (c : Dev nD) : ∀ b, b ∉ Finset.univ.image (Pipeline.arrRef spec3) → atTc (X3 m) c b = atTc (E3 m) c b :=
  fun b hb => X3_of_ne m c b fun w e => hb (Finset.mem_image.mpr ⟨w, Finset.mem_univ _, e⟩)
/-- Entering pipeline 4: host stretch 4 (the gather, the weighting and the scatter-add of one propagation, the layer's weight
    and bias slices) applied to what pipeline 3 left. -/
abbrev E4 : Dev nD → Valuation τ sig (Elt F) := fun c => StableHlo.after hostOps4 (X3 m c)
/-- Leaving pipeline 4: its arrays at what the pipeline leaves, every other buffer as entered. -/
def X4 (c : Dev nD) : Valuation τ sig (Elt F) :=
  Pipeline.withArrays spec4 c (E4 m c) fun w => (dat4 (atTc (E4 m)) c).arrAt w cfg4.N
theorem X4_arr (c : Dev nD) (w : Fin cfg4.W) :
    X4 m c (Proc.devRef .tc (Pipeline.arrRef spec4 w)) = (dat4 (atTc (E4 m)) c).arrAt w cfg4.N := by
  unfold X4; exact Pipeline.withArrays_arr spec4 launch4.win.arr_inj c _ _ w
theorem X4_of_ne (c : Dev nD) (b : Ref sig .tc) (hb : ∀ w, Pipeline.arrRef spec4 w ≠ b) :
    X4 m c (Proc.devRef .tc b) = E4 m c (Proc.devRef .tc b) := by
  unfold X4; exact Pipeline.withArrays_of_ne spec4 c _ _ b hb
theorem hF4 (c : Dev nD) (w : Fin cfg4.W) : (dat4 (atTc (E4 m)) c).arrAt w cfg4.N = atTc (X4 m) c (Pipeline.arrRef spec4 w) :=
  (X4_arr m c w).symm
theorem hrest4 (c : Dev nD) : ∀ b, b ∉ Finset.univ.image (Pipeline.arrRef spec4) → atTc (X4 m) c b = atTc (E4 m) c b :=
  fun b hb => X4_of_ne m c b fun w e => hb (Finset.mem_image.mpr ⟨w, Finset.mem_univ _, e⟩)
/-- Entering pipeline 5: host stretch 5 (the gather, the weighting and the scatter-add of one propagation, the layer's weight
    and bias slices — here only the output bias re-laid as a row) applied to what pipeline 4 left. -/
abbrev E5 : Dev nD → Valuation τ sig (Elt F) := fun c => StableHlo.after hostOps5 (X4 m c)
/-- Leaving pipeline 5: its arrays at what the pipeline leaves, every other buffer as entered. -/
def X5 (c : Dev nD) : Valuation τ sig (Elt F) :=
  Pipeline.withArrays spec5 c (E5 m c) fun w => (dat5 (atTc (E5 m)) c).arrAt w cfg5.N
theorem X5_arr (c : Dev nD) (w : Fin cfg5.W) :
    X5 m c (Proc.devRef .tc (Pipeline.arrRef spec5 w)) = (dat5 (atTc (E5 m)) c).arrAt w cfg5.N := by
  unfold X5; exact Pipeline.withArrays_arr spec5 launch5.win.arr_inj c _ _ w
theorem X5_of_ne (c : Dev nD) (b : Ref sig .tc) (hb : ∀ w, Pipeline.arrRef spec5 w ≠ b) :
    X5 m c (Proc.devRef .tc b) = E5 m c (Proc.devRef .tc b) := by
  unfold X5; exact Pipeline.withArrays_of_ne spec5 c _ _ b hb
theorem hF5 (c : Dev nD) (w : Fin cfg5.W) : (dat5 (atTc (E5 m)) c).arrAt w cfg5.N = atTc (X5 m) c (Pipeline.arrRef spec5 w) :=
  (X5_arr m c w).symm
theorem hrest5 (c : Dev nD) : ∀ b, b ∉ Finset.univ.image (Pipeline.arrRef spec5) → atTc (X5 m) c b = atTc (E5 m) c b :=
  fun b hb => X5_of_ne m c b fun w e => hb (Finset.mem_image.mpr ⟨w, Finset.mem_univ _, e⟩)

end Run

/-! # The items of the forward pass as segments of one run -/

section Segments

variable (m : (ℓ : Loc nD τ sig) → Buf (Elt F) ℓ)

/-- No pipeline has a prefetched table. -/
abbrev adm : (p : Fin 6) → (pcfgs (F := F) p).Adm := fun p => (cfgs p).toPCfg_adm

/-- Every pipeline's proof data, each at the contents its pipeline is entered with. -/
def pdats : (p : Fin 6) → (c : Dev nD) → Dat τ (Elt F) Unit ℕ (UR sig nD τ) ℕ (Pipeline.pin (pcfgs (F := F)) adm p) c
  | ⟨0, _⟩ => fun c => dat0 (atTc (E0 m)) c
  | ⟨1, _⟩ => fun c => dat1 (atTc (E1 m)) c
  | ⟨2, _⟩ => fun c => dat2 (atTc (E2 m)) c
  | ⟨3, _⟩ => fun c => dat3 (atTc (E3 m)) c
  | ⟨4, _⟩ => fun c => dat4 (atTc (E4 m)) c
  | ⟨5, _⟩ => fun c => dat5 (atTc (E5 m)) c

abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state, and its dues, none. -/
abbrev R (c : Dev nD) : sProp 𝕄 := iprop((∃ r, prngReg c r) ∗ ∃ W, owes (c : Thread nD τ) (0 : CellTallies nD τ sig Unit) W)

/-- A host stretch as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Pipeline 0 over the thread state "every unscoped buffer at the entry contents": its arrays are split out of the unscoped
    buffers at entry and put back at the exit contents; the generator register passes through the pipeline's invariant;
    nothing is owed and the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (E0 m)) c).loose
  hwaits := Pipeline.hwaits_of_owed_zero _ _ _ _ L lv 0 fun _ _ => rfl
  pre c := iprop(StableHlo.held (c : Thread nD τ) (Pipeline.ucRefs τ sig) (E0 m c) ∗ R c)
  post c := iprop(StableHlo.held (c : Thread nD τ) (Pipeline.ucRefs τ sig) (X0 m c) ∗ R c)
  X c := iprop(∃ r, prngReg c r)
  Y c := iprop(∃ r, prngReg c r)
  Z c := Pipeline.unscopedRest (Ix := Unit) (Name := ℕ) (U := UR sig nD τ) (Lvl := ℕ) spec0 c (atTc (E0 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (E0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (E0 m) c) (atTc (X0 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 over the thread state "every unscoped buffer at the entry contents": its arrays are split out of the unscoped
    buffers at entry and put back at the exit contents; the generator register passes through the pipeline's invariant;
    nothing is owed and the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (E2 m)) c).loose
  hwaits := Pipeline.hwaits_of_owed_zero _ _ _ _ L lv 2 fun _ _ => rfl
  pre c := iprop(StableHlo.held (c : Thread nD τ) (Pipeline.ucRefs τ sig) (E2 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec2 c (atTc (E2 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (E2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (E2 m) c) (atTc (X2 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 3 over the thread state "every unscoped buffer at the entry contents": its arrays are split out of the unscoped
    buffers at entry and put back at the exit contents; the generator register passes through the pipeline's invariant;
    nothing is owed and the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (E3 m)) c).loose
  hwaits := Pipeline.hwaits_of_owed_zero _ _ _ _ L lv 3 fun _ _ => rfl
  pre c := iprop(StableHlo.held (c : Thread nD τ) (Pipeline.ucRefs τ sig) (E3 m c) ∗ R c)
  post c := iprop(StableHlo.held (c : Thread nD τ) (Pipeline.ucRefs τ sig) (X3 m c) ∗ R c)
  X c := iprop(∃ r, prngReg c r)
  Y c := iprop(∃ r, prngReg c r)
  Z c := Pipeline.unscopedRest (Ix := Unit) (Name := ℕ) (U := UR sig nD τ) (Lvl := ℕ) spec3 c (atTc (E3 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (E3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (E3 m) c) (atTc (X3 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 4 over the thread state "every unscoped buffer at the entry contents": its arrays are split out of the unscoped
    buffers at entry and put back at the exit contents; the generator register passes through the pipeline's invariant;
    nothing is owed and the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atTc (E4 m)) c).loose
  hwaits := Pipeline.hwaits_of_owed_zero _ _ _ _ L lv 4 fun _ _ => rfl
  pre c := iprop(StableHlo.held (c : Thread nD τ) (Pipeline.ucRefs τ sig) (E4 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec4 c (atTc (E4 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (E4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (E4 m) c) (atTc (X4 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 5 over the thread state "every unscoped buffer at the entry contents": its arrays are split out of the unscoped
    buffers at entry and put back at the exit contents; the generator register passes through the pipeline's invariant;
    nothing is owed and the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atTc (E5 m)) c).loose
  hwaits := Pipeline.hwaits_of_owed_zero _ _ _ _ L lv 5 fun _ _ => rfl
  pre c := iprop(StableHlo.held (c : Thread nD τ) (Pipeline.ucRefs τ sig) (E5 m c) ∗ R c)
  post c := iprop(StableHlo.held (c : Thread nD τ) (Pipeline.ucRefs τ sig) (X5 m c) ∗ R c)
  X c := iprop(∃ r, prngReg c r)
  Y c := iprop(∃ r, prngReg c r)
  Z c := Pipeline.unscopedRest (Ix := Unit) (Name := ℕ) (U := UR sig nD τ) (Lvl := ℕ) spec5 c (atTc (E5 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (E5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (E5 m) c) (atTc (X5 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Segments

end Cert.Kernel.Pipe

end
-- ==== Proof.K_SharedArray.lean ====
/-
  Pipeline 1 reads one array through two of its input windows. The array's full share is dealt to the two windows as
  its two halves; every other window's array is held whole. These lemmas pass between the buffers behind the windows'
  arrays, each held once at the full share, and the pipeline's per-window holdings.
-/
import proofs.«134498_j40424232190561_2_alg».proof.Proof.Gen.Kernel.Launch
import Idealize.ShloMosaic.Lib.Pipeline.RegionsLoop

set_option maxRecDepth 16384

noncomputable section

namespace Cert.Kernel.Pipe

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind pipeline 1's six windows are five: windows 1 and 2 read the same array. -/
theorem image_arrRef1 : Finset.univ.image (Pipeline.arrRef spec1)
    = ([main_v48, main_v35, main_v50, main_v53, main_v54] : List (Ref sig .tc)).toFinset := by decide

section Shares

variable (c : Dev nD) (d : Pipeline.Dat τ (Elt F) Unit ℕ (UR sig nD τ) ℕ cfg1 c)

/-- Window 0 is an input: it is held at its own share. -/
theorem share1_0 : d.share 0 = d.q 0 := by
  unfold Pipeline.Dat.share; rw [if_neg (by decide)]
/-- Window 1 is an input. -/
theorem share1_1 : d.share 1 = d.q 1 := by
  unfold Pipeline.Dat.share; rw [if_neg (by decide)]
/-- Window 2 is an input. -/
theorem share1_2 : d.share 2 = d.q 2 := by
  unfold Pipeline.Dat.share; rw [if_neg (by decide)]
/-- Window 3 is an input. -/
theorem share1_3 : d.share 3 = d.q 3 := by
  unfold Pipeline.Dat.share; rw [if_neg (by decide)]
/-- Window 4 is an input. -/
theorem share1_4 : d.share 4 = d.q 4 := by
  unfold Pipeline.Dat.share; rw [if_neg (by decide)]
/-- Window 5 is the output: it is held at the full share. -/
theorem share1_5 : d.share 5 = fullShare := by
  unfold Pipeline.Dat.share; rw [if_pos (by decide)]

/-- A window's array is a whole buffer, so the window's holding of it at contents read off a valuation of the
    buffers is the plain points-to of the buffer behind it. -/
theorem arr1 (V : (b : Ref sig .tc) → Buf (Elt F) ((c : Thread nD τ).loc b))
    (A : (w : Fin cfg1.W) → Buf (Elt F) ((cfg1.win w).arr.view.loc (c : Thread nD τ)))
    (hA : ∀ w, A w = V (Pipeline.arrRef spec1 w)) (w : Fin cfg1.W) (q : PosShare TreeShare) :
    ((cfg1.win w).arr.view.loc (c : Thread nD τ) ↦[(cfg1.win w).arr.view.set]{q} A w : sProp 𝕄)
      = ((c : Thread nD τ).loc (Pipeline.arrRef spec1 w) ↦{q} V (Pipeline.arrRef spec1 w)) := by
  rw [(arr_whole1 w).set_eq_univ, hA]

end Shares

section Shared

variable (c : Dev nD)

/-- The buffers behind the windows' arrays, one by one. -/
theorem arrBufs1_eq (V : (b : Ref sig .tc) → Buf (Elt F) ((c : Thread nD τ).loc b)) :
    (Pipeline.arrBufs spec1 c V : sProp 𝕄)
      = iprop((((c : Thread nD τ).loc main_v48) ↦{fullShare} V main_v48) ∗ (((c : Thread nD τ).loc main_v35) ↦{fullShare} V main_v35)
        ∗ (((c : Thread nD τ).loc main_v50) ↦{fullShare} V main_v50) ∗ (((c : Thread nD τ).loc main_v53) ↦{fullShare} V main_v53)
        ∗ (((c : Thread nD τ).loc main_v54) ↦{fullShare} V main_v54)) := by
  unfold Pipeline.arrBufs
  rw [bigSep_eq_bigSepL_of_eq _ image_arrRef1 (by decide)]
  rfl

variable (d : Pipeline.Dat τ (Elt F) Unit ℕ (UR sig nD τ) ℕ cfg1 c)
  (hq1 : d.q 1 = fullShare.left) (hq2 : d.q 2 = fullShare.right) (hq : ∀ w, w ≠ 1 → w ≠ 2 → d.q w = fullShare)
include hq1 hq2 hq

/-- The pipeline's holdings of its windows' arrays at contents read off a valuation `V` of the buffers, one by one:
    the array windows 1 and 2 both read is held twice, at the two halves of the full share; every other array once,
    at the full share. -/
theorem arrays1_eq (V : (b : Ref sig .tc) → Buf (Elt F) ((c : Thread nD τ).loc b))
    (A : (w : Fin cfg1.W) → Buf (Elt F) ((cfg1.win w).arr.view.loc (c : Thread nD τ)))
    (hA : ∀ w, A w = V (Pipeline.arrRef spec1 w)) :
    (d.arrays A : sProp 𝕄)
      = iprop((((c : Thread nD τ).loc main_v48) ↦{fullShare} V main_v48) ∗ (((c : Thread nD τ).loc main_v35) ↦{fullShare.left} V main_v35)
        ∗ (((c : Thread nD τ).loc main_v35) ↦{fullShare.right} V main_v35)
        ∗ (((c : Thread nD τ).loc main_v50) ↦{fullShare} V main_v50) ∗ (((c : Thread nD τ).loc main_v53) ↦{fullShare} V main_v53)
        ∗ (((c : Thread nD τ).loc main_v54) ↦{fullShare} V main_v54)) := by
  unfold Pipeline.Dat.arrays
  conv_lhs =>
    rw [bigSep_W1,
      arr1 c V A hA 0, arr1 c V A hA 1, arr1 c V A hA 2, arr1 c V A hA 3, arr1 c V A hA 4, arr1 c V A hA 5,
      share1_0, share1_1, share1_2, share1_3, share1_4, share1_5, hq1, hq2,
      hq 0 (by decide) (by decide), hq 3 (by decide) (by decide), hq 4 (by decide) (by decide)]

/-- ENTRY, the arrays' part: the five buffers behind the windows' arrays, each whole at the full share at contents
    `V`, make the pipeline's holdings at entry — the array windows 1 and 2 both read has its full share split into
    its two halves, one for each window; every other buffer goes to its window as it is. -/
theorem arrays_of_arrBufs1
    (V : (b : Ref sig .tc) → Buf (Elt F) ((c : Thread nD τ).loc b))
    (A : (w : Fin cfg1.W) → Buf (Elt F) ((cfg1.win w).arr.view.loc (c : Thread nD τ)))
    (hA : ∀ w, A w = V (Pipeline.arrRef spec1 w)) :
    (Pipeline.arrBufs spec1 c V : sProp 𝕄) ⊢ d.arrays A := by
  rw [arrBufs1_eq c V, arrays1_eq c d hq1 hq2 hq V A hA]
  iintro ⟨H48, H35, H50, H53, H54⟩
  ihave H35 := (pointsTo_share (PosShare.mem_left_op_right fullShare)).1 $$ H35
  icases H35 with ⟨H35l, H35r⟩
  isplitl [H48]; · iexact H48
  isplitl [H35l]; · iexact H35l
  isplitl [H35r]; · iexact H35r
  isplitl [H50]; · iexact H50
  isplitl [H53]; · iexact H53
  iexact H54

/-- EXIT, the arrays' part, first half: the pipeline's holdings at contents read off `V` are the five buffers behind
    the arrays at `V` — the two halves of the shared array, both at `V`'s contents of it, rejoined. -/
theorem arrBufs_of_arrays1
    (V : (b : Ref sig .tc) → Buf (Elt F) ((c : Thread nD τ).loc b))
    (A : (w : Fin cfg1.W) → Buf (Elt F) ((cfg1.win w).arr.view.loc (c : Thread nD τ)))
    (hA : ∀ w, A w = V (Pipeline.arrRef spec1 w)) :
    d.arrays A ⊢ (Pipeline.arrBufs spec1 c V : sProp 𝕄) := by
  rw [arrBufs1_eq c V, arrays1_eq c d hq1 hq2 hq V A hA]
  iintro ⟨H48, H35l, H35r, H50, H53, H54⟩
  isplitl [H48]; · iexact H48
  isplitl [H35l H35r]
  · iapply (pointsTo_share (PosShare.mem_left_op_right fullShare)).2
    isplitl [H35l]; · iexact H35l
    iexact H35r
  isplitl [H50]; · iexact H50
  isplitl [H53]; · iexact H53
  iexact H54

/-- EXIT, the arrays' part: the pipeline's holdings at contents `A` and the unscoped rest at `V` are the core's
    unscoped buffers at any valuation `V'` that has the arrays at `A` and agrees with `V` off them. -/
theorem unscopedBufs_of_arrays1
    (V V' : (b : Ref sig .tc) → Buf (Elt F) ((c : Thread nD τ).loc b))
    (A : (w : Fin cfg1.W) → Buf (Elt F) ((cfg1.win w).arr.view.loc (c : Thread nD τ)))
    (hA : ∀ w, A w = V' (Pipeline.arrRef spec1 w))
    (hrest : ∀ b, b ∉ Finset.univ.image (Pipeline.arrRef spec1) → V' b = V b) :
    iprop(d.arrays A ∗ Pipeline.unscopedRest spec1 c V) ⊢ (unscopedBufs c V' : sProp 𝕄) := by
  rw [show (unscopedBufs c V' : sProp 𝕄) = iprop(Pipeline.arrBufs spec1 c V' ∗ Pipeline.unscopedRest spec1 c V')
    from Pipeline.unscopedBufs_split₀ cfgs 1 winFacts₀1.arr_unscoped c V']
  refine sep_mono (arrBufs_of_arrays1 c d hq1 hq2 hq V' A hA) (Entails.of_eq ?_)
  unfold Pipeline.unscopedRest
  exact bigSep_congr fun b hb => by rw [hrest b (Finset.mem_sdiff.mp hb).2]

/-- ENTRY: the core's unscoped buffers at contents `V` are the pipeline's holdings at contents read off `V` and the
    unscoped rest. -/
theorem arrays_of_unscopedBufs1
    (V : (b : Ref sig .tc) → Buf (Elt F) ((c : Thread nD τ).loc b))
    (A : (w : Fin cfg1.W) → Buf (Elt F) ((cfg1.win w).arr.view.loc (c : Thread nD τ)))
    (hA : ∀ w, A w = V (Pipeline.arrRef spec1 w)) :
    (unscopedBufs c V : sProp 𝕄) ⊢ iprop(d.arrays A ∗ Pipeline.unscopedRest spec1 c V) := by
  rw [show (unscopedBufs c V : sProp 𝕄) = iprop(Pipeline.arrBufs spec1 c V ∗ Pipeline.unscopedRest spec1 c V)
    from Pipeline.unscopedBufs_split₀ cfgs 1 winFacts₀1.arr_unscoped c V]
  exact sep_mono (arrays_of_arrBufs1 c d hq1 hq2 hq V A hA) .rfl

end Shared

end Cert.Kernel.Pipe
end
-- ==== Proof.K_Reg1.lean ====
/-
  Pipeline 1 as a segment of the run. Its second and third input windows read ONE array — in the first layer the running state
  is still the initial state —, so that array's ownership is split between the two windows on the way in and rejoined on the way out.
-/
import proofs.«134498_j40424232190561_2_alg».proof.Proof.Gen.Kernel.Launch
import proofs.«134498_j40424232190561_2_alg».proof.Proof.Gen.Kernel.Skeleton
import proofs.«134498_j40424232190561_2_alg».proof.Proof.Gen.Kernel.Points
import proofs.«134498_j40424232190561_2_alg».proof.Proof.K_Run
import proofs.«134498_j40424232190561_2_alg».proof.Proof.K_SharedArray
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shared

variable (m : (ℓ : Loc nD τ sig) → Buf (Elt F) ℓ)

theorem q1_1 (c : Dev nD) : (dat1 (atTc (E1 m)) c).q 1 = fullShare.left := rfl
theorem q1_2 (c : Dev nD) : (dat1 (atTc (E1 m)) c).q 2 = fullShare.right := rfl
theorem q1_rest (c : Dev nD) : ∀ w : Fin cfg1.W, w ≠ 1 → w ≠ 2 → (dat1 (atTc (E1 m)) c).q w = fullShare := by
  intro w h1 h2
  match w with
  | ⟨0, _⟩ => rfl
  | ⟨1, _⟩ => exact absurd rfl h1
  | ⟨2, _⟩ => exact absurd rfl h2
  | ⟨3, _⟩ => rfl
  | ⟨4, _⟩ => rfl
  | ⟨5, _⟩ => rfl

/-- Every array of pipeline 1 holds at the exit what the pipeline leaves: the five inputs as entered, the output the fold of
    its write-backs. -/
theorem hF1 (c : Dev nD) (w : Fin cfg1.W) : (dat1 (atTc (E1 m)) c).arrAt w cfg1.N = atTc (X1 m) c (Pipeline.arrRef spec1 w) := by
  by_cases hw : (cfg1.win w).isOut = false
  · have hne : Pipeline.arrRef spec1 w ≠ main_v54 := by revert hw; revert w; decide
    exact (((dat1 (atTc (E1 m)) c).arrAt_in w hw _).trans (A_eq1 (atTc (E1 m)) c w)).trans (X1_of_ne m c _ hne).symm
  · have h5 : w = 5 := by revert hw; revert w; decide
    subst h5
    exact (X1_out m c).symm

theorem hrest1 (c : Dev nD) : ∀ b, b ∉ Finset.univ.image (Pipeline.arrRef spec1) → atTc (X1 m) c b = atTc (E1 m) c b :=
  fun b hb => X1_of_ne m c b fun e => hb (Finset.mem_image.mpr ⟨5, Finset.mem_univ _, e.symm⟩)

set_option backward.isDefEq.respectTransparency.types false in
/-- Pipeline 1 as a segment: as the others, except that the array its second and third windows both read is split between
    them at entry, half a share each, and rejoined at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (atTc (E1 m)) c).loose
  hwaits := Pipeline.hwaits_of_owed_zero _ _ _ _ L lv 1 fun _ _ => rfl
  pre c := iprop(StableHlo.held (c : Thread nD τ) (Pipeline.ucRefs τ sig) (E1 m c) ∗ R c)
  post c := iprop(StableHlo.held (c : Thread nD τ) (Pipeline.ucRefs τ sig) (X1 m c) ∗ R c)
  X c := iprop(∃ r, prngReg c r)
  Y c := iprop(∃ r, prngReg c r)
  Z c := Pipeline.unscopedRest (Ix := Unit) (Name := ℕ) (U := UR sig nD τ) (Lvl := ℕ) spec1 c (atTc (E1 m) c)
  hentry c := by
    rw [Pipeline.ownSems0_none]
    have hsplit := arrays_of_unscopedBufs1 (F := F) c (pdats m 1 c) (q1_1 m c) (q1_2 m c) (q1_rest m c) (atTc (E1 m) c)
      ((pdats m 1 c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (F := F) c (pdats m 1 c) (q1_1 m c) (q1_2 m c) (q1_rest m c)
      (atTc (E1 m) c) (atTc (X1 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Shared

end Cert.Kernel.Pipe

end
-- ==== Proof.K_Keep.lean ====
/-
  What the forward pass leaves alone: a pipeline changes its output array only, and a buffer that no host stretch writes and no
  pipeline outputs — every argument array — ends holding its launch contents.
-/
import proofs.«134498_j40424232190561_2_alg».proof.Proof.Gen.Kernel.Launch
import proofs.«134498_j40424232190561_2_alg».proof.Proof.Gen.Kernel.Skeleton
import proofs.«134498_j40424232190561_2_alg».proof.Proof.Gen.Kernel.Points
import proofs.«134498_j40424232190561_2_alg».proof.Proof.K_Run
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Keep

variable (m : (ℓ : Loc nD τ sig) → Buf (Elt F) ℓ)

/-- Pipeline 0 changes its output array only. -/
theorem X0_keep (c : Dev nD) (b : Ref sig .tc) (hb : b ≠ main_v35) : X0 m c (Proc.devRef .tc b) = E0 m c (Proc.devRef .tc b) := by
  by_cases h : ∃ w, Pipeline.arrRef spec0 w = b
  · obtain ⟨w, rfl⟩ := h
    rw [X0_arr]
    have hw : (cfg0.win w).isOut = false := by
      revert hb; revert w; decide
    exact ((dat0 (atTc (E0 m)) c).arrAt_in w hw _).trans (A_eq0 (atTc (E0 m)) c w)
  · exact X0_of_ne m c b (fun w e => h ⟨w, e⟩)

/-- Pipeline 2 changes its output array only. -/
theorem X2_keep (c : Dev nD) (b : Ref sig .tc) (hb : b ≠ main_v73) : X2 m c (Proc.devRef .tc b) = E2 m c (Proc.devRef .tc b) := by
  by_cases h : ∃ w, Pipeline.arrRef spec2 w = b
  · obtain ⟨w, rfl⟩ := h
    rw [X2_arr]
    have hw : (cfg2.win w).isOut = false := by
      revert hb; revert w; decide
    exact ((dat2 (atTc (E2 m)) c).arrAt_in w hw _).trans (A_eq2 (atTc (E2 m)) c w)
  · exact X2_of_ne m c b (fun w e => h ⟨w, e⟩)

/-- Pipeline 3 changes its output array only. -/
theorem X3_keep (c : Dev nD) (b : Ref sig .tc) (hb : b ≠ main_v92) : X3 m c (Proc.devRef .tc b) = E3 m c (Proc.devRef .tc b) := by
  by_cases h : ∃ w, Pipeline.arrRef spec3 w = b
  · obtain ⟨w, rfl⟩ := h
    rw [X3_arr]
    have hw : (cfg3.win w).isOut = false := by
      revert hb; revert w; decide
    exact ((dat3 (atTc (E3 m)) c).arrAt_in w hw _).trans (A_eq3 (atTc (E3 m)) c w)
  · exact X3_of_ne m c b (fun w e => h ⟨w, e⟩)

/-- Pipeline 4 changes its output array only. -/
theorem X4_keep (c : Dev nD) (b : Ref sig .tc) (hb : b ≠ main_v111) : X4 m c (Proc.devRef .tc b) = E4 m c (Proc.devRef .tc b) := by
  by_cases h : ∃ w, Pipeline.arrRef spec4 w = b
  · obtain ⟨w, rfl⟩ := h
    rw [X4_arr]
    have hw : (cfg4.win w).isOut = false := by
      revert hb; revert w; decide
    exact ((dat4 (atTc (E4 m)) c).arrAt_in w hw _).trans (A_eq4 (atTc (E4 m)) c w)
  · exact X4_of_ne m c b (fun w e => h ⟨w, e⟩)

/-- Pipeline 5 changes its output array only. -/
theorem X5_keep (c : Dev nD) (b : Ref sig .tc) (hb : b ≠ main_v113) : X5 m c (Proc.devRef .tc b) = E5 m c (Proc.devRef .tc b) := by
  by_cases h : ∃ w, Pipeline.arrRef spec5 w = b
  · obtain ⟨w, rfl⟩ := h
    rw [X5_arr]
    have hw : (cfg5.win w).isOut = false := by
      revert hb; revert w; decide
    exact ((dat5 (atTc (E5 m)) c).arrAt_in w hw _).trans (A_eq5 (atTc (E5 m)) c w)
  · exact X5_of_ne m c b (fun w e => h ⟨w, e⟩)

/-- A buffer no host stretch writes and no pipeline outputs ends as launched. -/
theorem kept (c : Dev nD) (b : Ref sig .tc)
    (h0 : b ∉ hostOps0_W) (h01 : b ∉ hostOps0_1_W) (h02 : b ∉ hostOps0_2_W) (h03 : b ∉ hostOps0_3_W) (h04 : b ∉ hostOps0_4_W)
    (h1 : b ∉ hostOps1_W) (h2 : b ∉ hostOps2_W) (h3 : b ∉ hostOps3_W) (h4 : b ∉ hostOps4_W) (h5 : b ∉ hostOps5_W)
    (o0 : b ≠ main_v35) (o1 : b ≠ main_v54) (o2 : b ≠ main_v73) (o3 : b ≠ main_v92) (o4 : b ≠ main_v111) (o5 : b ≠ main_v113) :
    X5 m c (Proc.devRef .tc b) = m ((c : Thread nD τ).loc b) :=
  (X5_keep m c b o5).trans <| (StableHlo.after_of_writes_sub hostOps5 _ hostOps5_writes h5).trans <|
  (X4_keep m c b o4).trans <| (StableHlo.after_of_writes_sub hostOps4 _ hostOps4_writes h4).trans <|
  (X3_keep m c b o3).trans <| (StableHlo.after_of_writes_sub hostOps3 _ hostOps3_writes h3).trans <|
  (X2_keep m c b o2).trans <| (StableHlo.after_of_writes_sub hostOps2 _ hostOps2_writes h2).trans <|
  (X1_of_ne m c b o1).trans <| (StableHlo.after_of_writes_sub hostOps1 _ hostOps1_writes h1).trans <|
  (X0_keep m c b o0).trans <| (Gen.V5_of m c b h04).trans <| (Gen.V4_of m c b h03).trans <| (Gen.V3_of m c b h02).trans <|
  (Gen.V2_of m c b h01).trans <| (Gen.V1_of m c b h0).trans rfl

end Keep

end Cert.Kernel.Pipe

end
-- ==== Proof.K_All.lean ====
/-
  The whole forward pass run from launch to return: its sixteen items in order, every weakly fair execution terminating with each
  unscoped buffer at the last contents of the fold.
-/
import proofs.«134498_j40424232190561_2_alg».proof.Proof.Gen.Kernel.Launch
import proofs.«134498_j40424232190561_2_alg».proof.Proof.Gen.Kernel.Skeleton
import proofs.«134498_j40424232190561_2_alg».proof.Proof.Gen.Kernel.Points
import proofs.«134498_j40424232190561_2_alg».proof.Proof.K_Reg1
import proofs.«134498_j40424232190561_2_alg».proof.Proof.K_Keep
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Pipe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Whole

variable (m : (ℓ : Loc nD τ sig) → Buf (Elt F) ℓ) (ρ : Dev nD → PrngReg)

/-- The forward pass as the list of its sixteen items. -/
abbrev segs : List (Pipeline.Seg (pcfgs (F := F)) adm (pdats m) () defs₀ 𝒱₀ L lv) :=
  [ .host (hseg hostOps0 hostOps0_sub hostOps0_fresh (fun c => Gen.V0 m c)),
    .host (hseg hostOps0_1 hostOps0_1_sub hostOps0_1_fresh (fun c => Gen.V1 m c)),
    .host (hseg hostOps0_2 hostOps0_2_sub hostOps0_2_fresh (fun c => Gen.V2 m c)),
    .host (hseg hostOps0_3 hostOps0_3_sub hostOps0_3_fresh (fun c => Gen.V3 m c)),
    .host (hseg hostOps0_4 hostOps0_4_sub hostOps0_4_fresh (fun c => Gen.V4 m c)),
    .region (reg0 m),
    .host (hseg hostOps1 hostOps1_sub hostOps1_fresh (X0 m)),
    .region (reg1 m),
    .host (hseg hostOps2 hostOps2_sub hostOps2_fresh (X1 m)),
    .region (reg2 m),
    .host (hseg hostOps3 hostOps3_sub hostOps3_fresh (X2 m)),
    .region (reg3 m),
    .host (hseg hostOps4 hostOps4_sub hostOps4_fresh (X3 m)),
    .region (reg4 m),
    .host (hseg hostOps5 hostOps5_sub hostOps5_fresh (X4 m)),
    .region (reg5 m) ]

set_option backward.isDefEq.respectTransparency.types false in
/-- THE RUN. From any memory with zero counters, every weakly fair execution of the forward pass on the TensorCores terminates,
    nothing faulting, and every unscoped buffer of every core ends at the last contents `X5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X5 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (X5 m c) ∗ ∃ r, prngReg c r))
    (hch := ⟨fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (X5 m c) ∗ R c) ⊢ _
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X5 m c b)
    (hfin := fun c s' => by
      iintro ⟨⟨Hh, -⟩, HSI⟩
      unfold StableHlo.held
      imodintro
      iapply (pointsTo_read_all (Pipeline.ucRefs τ sig) (fun b => (((c : Thread nD τ)).1, b)) (X5 m c) s')
      isplitl [Hh] <;> iassumption)
    (hQ := fun s h c => h c)

end Whole

end Cert.Kernel.Pipe

end
-- ==== Proof.KI_Region0.lean ====
/-
  Pipeline 0 of the forward pass (the input projection: relu(x·W_in + b_in) on a block of 5000 rows): what it leaves in its output block as a function of the
  input blocks, and that its body, handed the staged blocks, runs to its return leaving exactly that.
-/
import proofs.«134498_j40424232190561_2_alg».proof.Proof.Gen.KernelIdeal.Launch
import proofs.«134498_j40424232190561_2_alg».proof.Proof.Gen.KernelIdeal.Skeleton
import proofs.«134498_j40424232190561_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pipeline 0: the input projection: relu(x·W_in + b_in) on a block of 5000 rows, entered with the TensorCore's buffers at `V` -/

section Region0

variable (V : (c : Dev nD) → (b : Ref sig .tc) → Buf (Elt F) ((c : Thread nD τ).loc b))

/-- Window `w`'s block at grid point `t`, read off the window's array as the pipeline finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output block: its one store, of the payload of the whole input blocks, over the whole block. -/
def out0 (x0 : Vec F S5000x128 .f32) (x1 : Vec F S128x64 .f32) (x2 : Vec F S1x64 .f32) : Vec F S5000x64 .f32 :=
  View.canon [⟨(Rect.unit (s := S5000x64) ![0, 0] S5000x64.size inb_S5000x64_S5000x64_0_0), k0_pay1 (View.ld x0 (Rect.unit (s := S5000x128) ![0, 0] S5000x128.size inb_S5000x128_S5000x128_0_0)) (View.ld x1 (Rect.unit (s := S128x64) ![0, 0] S128x64.size inb_S128x64_S128x64_0_0)) (View.ld x2 (Rect.unit (s := S1x64) ![0, 0] S1x64.size inb_S1x64_S1x64_0_0))⟩]

/-- The one store covers the output block. -/
theorem cover0 (p : Vec F S5000x64 .f32) (y : S5000x64.Idx) :
    ∃ pc ∈ ([⟨(Rect.unit (s := S5000x64) ![0, 0] S5000x64.size inb_S5000x64_S5000x64_0_0), p⟩] : List (View.Piece (Elt F) S5000x64 .f32)), y ∈ pc.1.set :=
  View.cover_of_tiled [⟨(Rect.unit (s := S5000x64) ![0, 0] S5000x64.size inb_S5000x64_S5000x64_0_0), p⟩] S5000x64.size (by rfl) y

set_option maxHeartbeats 4000000 in
/-- The body, handed whole staging buffers — the inputs at `x0 …`, the output at anything —, returns them with the inputs as they were
    and the output at `out0` of the inputs. -/
theorem sound_kernel0 (c : Dev nD) (E : Set ℕ) (i : grid0.Coords) (a0 : Memref sig .tc .vmem S5000x128 .f32) (h0 : a0.IsWhole) (a1 : Memref sig .tc .vmem S128x64 .f32) (h1 : a1.IsWhole) (a2 : Memref sig .tc .vmem S1x64 .f32) (h2 : a2.IsWhole) (a3 : Memref sig .tc .vmem S5000x64 .f32) (h3 : a3.IsWhole)
    (x0 : Vec F S5000x128 .f32) (x1 : Vec F S128x64 .f32) (x2 : Vec F S1x64 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out0 x0 x1 x2)) -∗ K ⟨⟩))
      ⊢ wp frame (wpE (defs₀ (F := F)) Variants.none c none) E (cc0__input_proj_kernel i a0 h0 a1 h1 a2 h2 a3 h3) K := by
  simp only [cc0__input_proj_kernel_eq_skeleton]; unfold cc0__input_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The pipeline's proof data on core `c`: the arrays as found; after the body at point `t` every input block in place and the
    output block at `out0` of the input blocks; nothing kept between points, nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => out0 (blk0 V c 0 t) (blk0 V c 1 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = out0 (blk0 V c 0 t) (blk0 V c 1 t) (blk0 V c 2 t) := by dsimp only [dat0]
theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A_eq0]; try rfl) t d).trans
    (by unfold Dat.fetched Dat.blockOf blk0; rw [A_eq0]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A_eq0]; try rfl) t d).trans
    (by unfold Dat.fetched Dat.blockOf blk0; rw [A_eq0]; try rfl)
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [A_eq0]; try rfl) t d).trans
    (by unfold Dat.fetched Dat.blockOf blk0; rw [A_eq0]; try rfl)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Pipe

end
-- ==== Proof.KI_Region1.lean ====
/-
  Pipeline 1 of the forward pass (one propagation layer on a block of 5000 rows): what it leaves in its output block as a function of the
  input blocks, and that its body, handed the staged blocks, runs to its return leaving exactly that.
-/
import proofs.«134498_j40424232190561_2_alg».proof.Proof.Gen.KernelIdeal.Launch
import proofs.«134498_j40424232190561_2_alg».proof.Proof.Gen.KernelIdeal.Skeleton
import proofs.«134498_j40424232190561_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pipeline 1: one propagation layer on a block of 5000 rows, entered with the TensorCore's buffers at `V` -/

section Region1

variable (V : (c : Dev nD) → (b : Ref sig .tc) → Buf (Elt F) ((c : Thread nD τ).loc b))

/-- Window `w`'s block at grid point `t`, read off the window's array as the pipeline finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output block: its one store, of the payload of the whole input blocks, over the whole block. -/
def out1 (x0 : Vec F S5000x64 .f32) (x1 : Vec F S5000x64 .f32) (x2 : Vec F S5000x64 .f32) (x3 : Vec F S64x64 .f32) (x4 : Vec F S1x64 .f32) : Vec F S5000x64 .f32 :=
  View.canon [⟨(Rect.unit (s := S5000x64) ![0, 0] S5000x64.size inb_S5000x64_S5000x64_0_0), k1_pay1 (View.ld x0 (Rect.unit (s := S5000x64) ![0, 0] S5000x64.size inb_S5000x64_S5000x64_0_0)) (View.ld x1 (Rect.unit (s := S5000x64) ![0, 0] S5000x64.size inb_S5000x64_S5000x64_0_0)) (View.ld x2 (Rect.unit (s := S5000x64) ![0, 0] S5000x64.size inb_S5000x64_S5000x64_0_0)) (View.ld x3 (Rect.unit (s := S64x64) ![0, 0] S64x64.size inb_S64x64_S64x64_0_0)) (View.ld x4 (Rect.unit (s := S1x64) ![0, 0] S1x64.size inb_S1x64_S1x64_0_0))⟩]

/-- The one store covers the output block. -/
theorem cover1 (p : Vec F S5000x64 .f32) (y : S5000x64.Idx) :
    ∃ pc ∈ ([⟨(Rect.unit (s := S5000x64) ![0, 0] S5000x64.size inb_S5000x64_S5000x64_0_0), p⟩] : List (View.Piece (Elt F) S5000x64 .f32)), y ∈ pc.1.set :=
  View.cover_of_tiled [⟨(Rect.unit (s := S5000x64) ![0, 0] S5000x64.size inb_S5000x64_S5000x64_0_0), p⟩] S5000x64.size (by rfl) y

set_option maxHeartbeats 4000000 in
/-- The body, handed whole staging buffers — the inputs at `x0 …`, the output at anything —, returns them with the inputs as they were
    and the output at `out1` of the inputs. -/
theorem sound_kernel1 (c : Dev nD) (E : Set ℕ) (i : grid1.Coords) (a0 : Memref sig .tc .vmem S5000x64 .f32) (h0 : a0.IsWhole) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S5000x64 .f32) (h5 : a5.IsWhole)
    (x0 : Vec F S5000x64 .f32) (x1 : Vec F S5000x64 .f32) (x2 : Vec F S5000x64 .f32) (x3 : Vec F S64x64 .f32) (x4 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out1 x0 x1 x2 x3 x4)) -∗ K ⟨⟩))
      ⊢ wp frame (wpE (defs₀ (F := F)) Variants.none c none) E (cc1__gcn_layer_kernel i a0 h0 a1 h1 a2 h2 a3 h3 a4 h4 a5 h5) K := by
  simp only [cc1__gcn_layer_kernel_eq_skeleton]; unfold cc1__gcn_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

/-- The pipeline's proof data on core `c`: the arrays as found; after the body at point `t` every input block in place and the
    output block at `out1` of the input blocks; nothing kept between points, nothing owed; the array two input windows read is held half by each. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => out1 (blk1 V c 0 t) (blk1 V c 1 t) (blk1 V c 2 t) (blk1 V c 3 t) (blk1 V c 4 t)
  Φ _ := Pipeline.ΦA spec1 c
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = out1 (blk1 V c 0 t) (blk1 V c 1 t) (blk1 V c 2 t) (blk1 V c 3 t) (blk1 V c 4 t) := by dsimp only [dat1]
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A_eq1]; try rfl) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [A_eq1]; try rfl) t d).trans
    (by unfold Dat.fetched Dat.blockOf blk1; rw [A_eq1]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [A_eq1]; try rfl) t d).trans
    (by unfold Dat.fetched Dat.blockOf blk1; rw [A_eq1]; try rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [A_eq1]; try rfl) t d).trans
    (by unfold Dat.fetched Dat.blockOf blk1; rw [A_eq1]; try rfl)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Pipe

end
-- ==== Proof.KI_Region2.lean ====
/-
  Pipeline 2 of the forward pass (one propagation layer on a block of 5000 rows): what it leaves in its output block as a function of the
  input blocks, and that its body, handed the staged blocks, runs to its return leaving exactly that.
-/
import proofs.«134498_j40424232190561_2_alg».proof.Proof.Gen.KernelIdeal.Launch
import proofs.«134498_j40424232190561_2_alg».proof.Proof.Gen.KernelIdeal.Skeleton
import proofs.«134498_j40424232190561_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pipeline 2: one propagation layer on a block of 5000 rows, entered with the TensorCore's buffers at `V` -/

section Region2

variable (V : (c : Dev nD) → (b : Ref sig .tc) → Buf (Elt F) ((c : Thread nD τ).loc b))

/-- Window `w`'s block at grid point `t`, read off the window's array as the pipeline finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body leaves in the output block: its one store, of the payload of the whole input blocks, over the whole block. -/
def out2 (x0 : Vec F S5000x64 .f32) (x1 : Vec F S5000x64 .f32) (x2 : Vec F S5000x64 .f32) (x3 : Vec F S64x64 .f32) (x4 : Vec F S1x64 .f32) : Vec F S5000x64 .f32 :=
  View.canon [⟨(Rect.unit (s := S5000x64) ![0, 0] S5000x64.size inb_S5000x64_S5000x64_0_0), k2_pay1 (View.ld x0 (Rect.unit (s := S5000x64) ![0, 0] S5000x64.size inb_S5000x64_S5000x64_0_0)) (View.ld x1 (Rect.unit (s := S5000x64) ![0, 0] S5000x64.size inb_S5000x64_S5000x64_0_0)) (View.ld x2 (Rect.unit (s := S5000x64) ![0, 0] S5000x64.size inb_S5000x64_S5000x64_0_0)) (View.ld x3 (Rect.unit (s := S64x64) ![0, 0] S64x64.size inb_S64x64_S64x64_0_0)) (View.ld x4 (Rect.unit (s := S1x64) ![0, 0] S1x64.size inb_S1x64_S1x64_0_0))⟩]

/-- The one store covers the output block. -/
theorem cover2 (p : Vec F S5000x64 .f32) (y : S5000x64.Idx) :
    ∃ pc ∈ ([⟨(Rect.unit (s := S5000x64) ![0, 0] S5000x64.size inb_S5000x64_S5000x64_0_0), p⟩] : List (View.Piece (Elt F) S5000x64 .f32)), y ∈ pc.1.set :=
  View.cover_of_tiled [⟨(Rect.unit (s := S5000x64) ![0, 0] S5000x64.size inb_S5000x64_S5000x64_0_0), p⟩] S5000x64.size (by rfl) y

set_option maxHeartbeats 4000000 in
/-- The body, handed whole staging buffers — the inputs at `x0 …`, the output at anything —, returns them with the inputs as they were
    and the output at `out2` of the inputs. -/
theorem sound_kernel2 (c : Dev nD) (E : Set ℕ) (i : grid2.Coords) (a0 : Memref sig .tc .vmem S5000x64 .f32) (h0 : a0.IsWhole) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S5000x64 .f32) (h5 : a5.IsWhole)
    (x0 : Vec F S5000x64 .f32) (x1 : Vec F S5000x64 .f32) (x2 : Vec F S5000x64 .f32) (x3 : Vec F S64x64 .f32) (x4 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out2 x0 x1 x2 x3 x4)) -∗ K ⟨⟩))
      ⊢ wp frame (wpE (defs₀ (F := F)) Variants.none c none) E (cc2__gcn_layer_kernel i a0 h0 a1 h1 a2 h2 a3 h3 a4 h4 a5 h5) K := by
  simp only [cc2__gcn_layer_kernel_eq_skeleton]; unfold cc2__gcn_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2 _)

/-- The pipeline's proof data on core `c`: the arrays as found; after the body at point `t` every input block in place and the
    output block at `out2` of the input blocks; nothing kept between points, nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => out2 (blk2 V c 0 t) (blk2 V c 1 t) (blk2 V c 2 t) (blk2 V c 3 t) (blk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = out2 (blk2 V c 0 t) (blk2 V c 1 t) (blk2 V c 2 t) (blk2 V c 3 t) (blk2 V c 4 t) := by dsimp only [dat2]
theorem before2_0 (c : Dev nD) (t : Fin cfg2.N) (d) : (dat2 V c).before 0 t d = blk2 V c 0 t :=
  ((dat2 V c).before_in_eq_fetched 0 rfl (fun _ => rfl) (fun _ _ _ => rfl) (fun t => by rw [after2_0]; unfold Dat.blockOf blk2; rw [A_eq2]; try rfl) t d).trans
    (by unfold Dat.fetched Dat.blockOf blk2; rw [A_eq2]; try rfl)
theorem before2_1 (c : Dev nD) (t : Fin cfg2.N) (d) : (dat2 V c).before 1 t d = blk2 V c 1 t :=
  ((dat2 V c).before_in_eq_fetched 1 rfl (fun _ => rfl) (fun _ _ _ => rfl) (fun t => by rw [after2_1]; unfold Dat.blockOf blk2; rw [A_eq2]; try rfl) t d).trans
    (by unfold Dat.fetched Dat.blockOf blk2; rw [A_eq2]; try rfl)
theorem before2_2 (c : Dev nD) (t : Fin cfg2.N) (d) : (dat2 V c).before 2 t d = blk2 V c 2 t :=
  ((dat2 V c).before_in_eq_fetched 2 rfl (fun _ => rfl) (fun _ _ _ => rfl) (fun t => by rw [after2_2]; unfold Dat.blockOf blk2; rw [A_eq2]; try rfl) t d).trans
    (by unfold Dat.fetched Dat.blockOf blk2; rw [A_eq2]; try rfl)
theorem before2_3 (c : Dev nD) (t : Fin cfg2.N) (d) : (dat2 V c).before 3 t d = blk2 V c 3 t :=
  ((dat2 V c).before_in_eq_fetched 3 rfl (fun _ => rfl) (fun _ _ _ => rfl) (fun t => by rw [after2_3]; unfold Dat.blockOf blk2; rw [A_eq2]; try rfl) t d).trans
    (by unfold Dat.fetched Dat.blockOf blk2; rw [A_eq2]; try rfl)
theorem before2_4 (c : Dev nD) (t : Fin cfg2.N) (d) : (dat2 V c).before 4 t d = blk2 V c 4 t :=
  ((dat2 V c).before_in_eq_fetched 4 rfl (fun _ => rfl) (fun _ _ _ => rfl) (fun t => by rw [after2_4]; unfold Dat.blockOf blk2; rw [A_eq2]; try rfl) t d).trans
    (by unfold Dat.fetched Dat.blockOf blk2; rw [A_eq2]; try rfl)

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (blk2 V c 0 t) (blk2 V c 1 t) (blk2 V c 2 t) (blk2 V c 3 t) (blk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Pipe

end
-- ==== Proof.KI_Region3.lean ====
/-
  Pipeline 3 of the forward pass (one propagation layer on a block of 5000 rows): what it leaves in its output block as a function of the
  input blocks, and that its body, handed the staged blocks, runs to its return leaving exactly that.
-/
import proofs.«134498_j40424232190561_2_alg».proof.Proof.Gen.KernelIdeal.Launch
import proofs.«134498_j40424232190561_2_alg».proof.Proof.Gen.KernelIdeal.Skeleton
import proofs.«134498_j40424232190561_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pipeline 3: one propagation layer on a block of 5000 rows, entered with the TensorCore's buffers at `V` -/

section Region3

variable (V : (c : Dev nD) → (b : Ref sig .tc) → Buf (Elt F) ((c : Thread nD τ).loc b))

/-- Window `w`'s block at grid point `t`, read off the window's array as the pipeline finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the body leaves in the output block: its one store, of the payload of the whole input blocks, over the whole block. -/
def out3 (x0 : Vec F S5000x64 .f32) (x1 : Vec F S5000x64 .f32) (x2 : Vec F S5000x64 .f32) (x3 : Vec F S64x64 .f32) (x4 : Vec F S1x64 .f32) : Vec F S5000x64 .f32 :=
  View.canon [⟨(Rect.unit (s := S5000x64) ![0, 0] S5000x64.size inb_S5000x64_S5000x64_0_0), k3_pay1 (View.ld x0 (Rect.unit (s := S5000x64) ![0, 0] S5000x64.size inb_S5000x64_S5000x64_0_0)) (View.ld x1 (Rect.unit (s := S5000x64) ![0, 0] S5000x64.size inb_S5000x64_S5000x64_0_0)) (View.ld x2 (Rect.unit (s := S5000x64) ![0, 0] S5000x64.size inb_S5000x64_S5000x64_0_0)) (View.ld x3 (Rect.unit (s := S64x64) ![0, 0] S64x64.size inb_S64x64_S64x64_0_0)) (View.ld x4 (Rect.unit (s := S1x64) ![0, 0] S1x64.size inb_S1x64_S1x64_0_0))⟩]

/-- The one store covers the output block. -/
theorem cover3 (p : Vec F S5000x64 .f32) (y : S5000x64.Idx) :
    ∃ pc ∈ ([⟨(Rect.unit (s := S5000x64) ![0, 0] S5000x64.size inb_S5000x64_S5000x64_0_0), p⟩] : List (View.Piece (Elt F) S5000x64 .f32)), y ∈ pc.1.set :=
  View.cover_of_tiled [⟨(Rect.unit (s := S5000x64) ![0, 0] S5000x64.size inb_S5000x64_S5000x64_0_0), p⟩] S5000x64.size (by rfl) y

set_option maxHeartbeats 4000000 in
/-- The body, handed whole staging buffers — the inputs at `x0 …`, the output at anything —, returns them with the inputs as they were
    and the output at `out3` of the inputs. -/
theorem sound_kernel3 (c : Dev nD) (E : Set ℕ) (i : grid3.Coords) (a0 : Memref sig .tc .vmem S5000x64 .f32) (h0 : a0.IsWhole) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S5000x64 .f32) (h5 : a5.IsWhole)
    (x0 : Vec F S5000x64 .f32) (x1 : Vec F S5000x64 .f32) (x2 : Vec F S5000x64 .f32) (x3 : Vec F S64x64 .f32) (x4 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out3 x0 x1 x2 x3 x4)) -∗ K ⟨⟩))
      ⊢ wp frame (wpE (defs₀ (F := F)) Variants.none c none) E (cc3__gcn_layer_kernel i a0 h0 a1 h1 a2 h2 a3 h3 a4 h4 a5 h5) K := by
  simp only [cc3__gcn_layer_kernel_eq_skeleton]; unfold cc3__gcn_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3 _)

/-- The pipeline's proof data on core `c`: the arrays as found; after the body at point `t` every input block in place and the
    output block at `out3` of the input blocks; nothing kept between points, nothing owed. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => out3 (blk3 V c 0 t) (blk3 V c 1 t) (blk3 V c 2 t) (blk3 V c 3 t) (blk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = blk3 V c 3 t := by dsimp only [dat3]
theorem after3_4 (c : Dev nD) (t : Fin cfg3.N) : (dat3 V c).after 4 t = blk3 V c 4 t := by dsimp only [dat3]
theorem after3_5 (c : Dev nD) (t : Fin cfg3.N) : (dat3 V c).after 5 t = out3 (blk3 V c 0 t) (blk3 V c 1 t) (blk3 V c 2 t) (blk3 V c 3 t) (blk3 V c 4 t) := by dsimp only [dat3]
theorem before3_0 (c : Dev nD) (t : Fin cfg3.N) (d) : (dat3 V c).before 0 t d = blk3 V c 0 t :=
  ((dat3 V c).before_in_eq_fetched 0 rfl (fun _ => rfl) (fun _ _ _ => rfl) (fun t => by rw [after3_0]; unfold Dat.blockOf blk3; rw [A_eq3]; try rfl) t d).trans
    (by unfold Dat.fetched Dat.blockOf blk3; rw [A_eq3]; try rfl)
theorem before3_1 (c : Dev nD) (t : Fin cfg3.N) (d) : (dat3 V c).before 1 t d = blk3 V c 1 t :=
  ((dat3 V c).before_in_eq_fetched 1 rfl (fun _ => rfl) (fun _ _ _ => rfl) (fun t => by rw [after3_1]; unfold Dat.blockOf blk3; rw [A_eq3]; try rfl) t d).trans
    (by unfold Dat.fetched Dat.blockOf blk3; rw [A_eq3]; try rfl)
theorem before3_2 (c : Dev nD) (t : Fin cfg3.N) (d) : (dat3 V c).before 2 t d = blk3 V c 2 t :=
  ((dat3 V c).before_in_eq_fetched 2 rfl (fun _ => rfl) (fun _ _ _ => rfl) (fun t => by rw [after3_2]; unfold Dat.blockOf blk3; rw [A_eq3]; try rfl) t d).trans
    (by unfold Dat.fetched Dat.blockOf blk3; rw [A_eq3]; try rfl)
theorem before3_3 (c : Dev nD) (t : Fin cfg3.N) (d) : (dat3 V c).before 3 t d = blk3 V c 3 t :=
  ((dat3 V c).before_in_eq_fetched 3 rfl (fun _ => rfl) (fun _ _ _ => rfl) (fun t => by rw [after3_3]; unfold Dat.blockOf blk3; rw [A_eq3]; try rfl) t d).trans
    (by unfold Dat.fetched Dat.blockOf blk3; rw [A_eq3]; try rfl)
theorem before3_4 (c : Dev nD) (t : Fin cfg3.N) (d) : (dat3 V c).before 4 t d = blk3 V c 4 t :=
  ((dat3 V c).before_in_eq_fetched 4 rfl (fun _ => rfl) (fun _ _ _ => rfl) (fun t => by rw [after3_4]; unfold Dat.blockOf blk3; rw [A_eq3]; try rfl) t d).trans
    (by unfold Dat.fetched Dat.blockOf blk3; rw [A_eq3]; try rfl)

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (blk3 V c 0 t) (blk3 V c 1 t) (blk3 V c 2 t) (blk3 V c 3 t) (blk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Pipe

end
-- ==== Proof.KI_Region4.lean ====
/-
  Pipeline 4 of the forward pass (one propagation layer on a block of 5000 rows): what it leaves in its output block as a function of the
  input blocks, and that its body, handed the staged blocks, runs to its return leaving exactly that.
-/
import proofs.«134498_j40424232190561_2_alg».proof.Proof.Gen.KernelIdeal.Launch
import proofs.«134498_j40424232190561_2_alg».proof.Proof.Gen.KernelIdeal.Skeleton
import proofs.«134498_j40424232190561_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pipeline 4: one propagation layer on a block of 5000 rows, entered with the TensorCore's buffers at `V` -/

section Region4

variable (V : (c : Dev nD) → (b : Ref sig .tc) → Buf (Elt F) ((c : Thread nD τ).loc b))

/-- Window `w`'s block at grid point `t`, read off the window's array as the pipeline finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the body leaves in the output block: its one store, of the payload of the whole input blocks, over the whole block. -/
def out4 (x0 : Vec F S5000x64 .f32) (x1 : Vec F S5000x64 .f32) (x2 : Vec F S5000x64 .f32) (x3 : Vec F S64x64 .f32) (x4 : Vec F S1x64 .f32) : Vec F S5000x64 .f32 :=
  View.canon [⟨(Rect.unit (s := S5000x64) ![0, 0] S5000x64.size inb_S5000x64_S5000x64_0_0), k4_pay1 (View.ld x0 (Rect.unit (s := S5000x64) ![0, 0] S5000x64.size inb_S5000x64_S5000x64_0_0)) (View.ld x1 (Rect.unit (s := S5000x64) ![0, 0] S5000x64.size inb_S5000x64_S5000x64_0_0)) (View.ld x2 (Rect.unit (s := S5000x64) ![0, 0] S5000x64.size inb_S5000x64_S5000x64_0_0)) (View.ld x3 (Rect.unit (s := S64x64) ![0, 0] S64x64.size inb_S64x64_S64x64_0_0)) (View.ld x4 (Rect.unit (s := S1x64) ![0, 0] S1x64.size inb_S1x64_S1x64_0_0))⟩]

/-- The one store covers the output block. -/
theorem cover4 (p : Vec F S5000x64 .f32) (y : S5000x64.Idx) :
    ∃ pc ∈ ([⟨(Rect.unit (s := S5000x64) ![0, 0] S5000x64.size inb_S5000x64_S5000x64_0_0), p⟩] : List (View.Piece (Elt F) S5000x64 .f32)), y ∈ pc.1.set :=
  View.cover_of_tiled [⟨(Rect.unit (s := S5000x64) ![0, 0] S5000x64.size inb_S5000x64_S5000x64_0_0), p⟩] S5000x64.size (by rfl) y

set_option maxHeartbeats 4000000 in
/-- The body, handed whole staging buffers — the inputs at `x0 …`, the output at anything —, returns them with the inputs as they were
    and the output at `out4` of the inputs. -/
theorem sound_kernel4 (c : Dev nD) (E : Set ℕ) (i : grid4.Coords) (a0 : Memref sig .tc .vmem S5000x64 .f32) (h0 : a0.IsWhole) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S5000x64 .f32) (h5 : a5.IsWhole)
    (x0 : Vec F S5000x64 .f32) (x1 : Vec F S5000x64 .f32) (x2 : Vec F S5000x64 .f32) (x3 : Vec F S64x64 .f32) (x4 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out4 x0 x1 x2 x3 x4)) -∗ K ⟨⟩))
      ⊢ wp frame (wpE (defs₀ (F := F)) Variants.none c none) E (cc4__gcn_layer_kernel i a0 h0 a1 h1 a2 h2 a3 h3 a4 h4 a5 h5) K := by
  simp only [cc4__gcn_layer_kernel_eq_skeleton]; unfold cc4__gcn_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4 _)

/-- The pipeline's proof data on core `c`: the arrays as found; after the body at point `t` every input block in place and the
    output block at `out4` of the input blocks; nothing kept between points, nothing owed. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => blk4 V c 3 t
    | ⟨4, _⟩ => blk4 V c 4 t
    | ⟨5, _⟩ => out4 (blk4 V c 0 t) (blk4 V c 1 t) (blk4 V c 2 t) (blk4 V c 3 t) (blk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = blk4 V c 0 t := by dsimp only [dat4]
theorem after4_1 (c : Dev nD) (t : Fin cfg4.N) : (dat4 V c).after 1 t = blk4 V c 1 t := by dsimp only [dat4]
theorem after4_2 (c : Dev nD) (t : Fin cfg4.N) : (dat4 V c).after 2 t = blk4 V c 2 t := by dsimp only [dat4]
theorem after4_3 (c : Dev nD) (t : Fin cfg4.N) : (dat4 V c).after 3 t = blk4 V c 3 t := by dsimp only [dat4]
theorem after4_4 (c : Dev nD) (t : Fin cfg4.N) : (dat4 V c).after 4 t = blk4 V c 4 t := by dsimp only [dat4]
theorem after4_5 (c : Dev nD) (t : Fin cfg4.N) : (dat4 V c).after 5 t = out4 (blk4 V c 0 t) (blk4 V c 1 t) (blk4 V c 2 t) (blk4 V c 3 t) (blk4 V c 4 t) := by dsimp only [dat4]
theorem before4_0 (c : Dev nD) (t : Fin cfg4.N) (d) : (dat4 V c).before 0 t d = blk4 V c 0 t :=
  ((dat4 V c).before_in_eq_fetched 0 rfl (fun _ => rfl) (fun _ _ _ => rfl) (fun t => by rw [after4_0]; unfold Dat.blockOf blk4; rw [A_eq4]; try rfl) t d).trans
    (by unfold Dat.fetched Dat.blockOf blk4; rw [A_eq4]; try rfl)
theorem before4_1 (c : Dev nD) (t : Fin cfg4.N) (d) : (dat4 V c).before 1 t d = blk4 V c 1 t :=
  ((dat4 V c).before_in_eq_fetched 1 rfl (fun _ => rfl) (fun _ _ _ => rfl) (fun t => by rw [after4_1]; unfold Dat.blockOf blk4; rw [A_eq4]; try rfl) t d).trans
    (by unfold Dat.fetched Dat.blockOf blk4; rw [A_eq4]; try rfl)
theorem before4_2 (c : Dev nD) (t : Fin cfg4.N) (d) : (dat4 V c).before 2 t d = blk4 V c 2 t :=
  ((dat4 V c).before_in_eq_fetched 2 rfl (fun _ => rfl) (fun _ _ _ => rfl) (fun t => by rw [after4_2]; unfold Dat.blockOf blk4; rw [A_eq4]; try rfl) t d).trans
    (by unfold Dat.fetched Dat.blockOf blk4; rw [A_eq4]; try rfl)
theorem before4_3 (c : Dev nD) (t : Fin cfg4.N) (d) : (dat4 V c).before 3 t d = blk4 V c 3 t :=
  ((dat4 V c).before_in_eq_fetched 3 rfl (fun _ => rfl) (fun _ _ _ => rfl) (fun t => by rw [after4_3]; unfold Dat.blockOf blk4; rw [A_eq4]; try rfl) t d).trans
    (by unfold Dat.fetched Dat.blockOf blk4; rw [A_eq4]; try rfl)
theorem before4_4 (c : Dev nD) (t : Fin cfg4.N) (d) : (dat4 V c).before 4 t d = blk4 V c 4 t :=
  ((dat4 V c).before_in_eq_fetched 4 rfl (fun _ => rfl) (fun _ _ _ => rfl) (fun t => by rw [after4_4]; unfold Dat.blockOf blk4; rw [A_eq4]; try rfl) t d).trans
    (by unfold Dat.fetched Dat.blockOf blk4; rw [A_eq4]; try rfl)

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (blk4 V c 0 t) (blk4 V c 1 t) (blk4 V c 2 t) (blk4 V c 3 t) (blk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every point. -/
theorem body_obligation4 (c : Dev nD) : BodyObligation (dat4 (F := F) V c) (defs₀ (F := F)) Variants.none () Set.univ := fun t => by
  rw [bigSep_W4, bigSep_W4]
  exact sound_body4 V c t

end Region4

end Cert.KernelIdeal.Pipe

end
-- ==== Proof.KI_Region5.lean ====
/-
  Pipeline 5 of the forward pass (the output projection x·W_out + b_out on a block of 5000 rows): what it leaves in its output block as a function of the
  input blocks, and that its body, handed the staged blocks, runs to its return leaving exactly that.
-/
import proofs.«134498_j40424232190561_2_alg».proof.Proof.Gen.KernelIdeal.Launch
import proofs.«134498_j40424232190561_2_alg».proof.Proof.Gen.KernelIdeal.Skeleton
import proofs.«134498_j40424232190561_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pipeline 5: the output projection x·W_out + b_out on a block of 5000 rows, entered with the TensorCore's buffers at `V` -/

section Region5

variable (V : (c : Dev nD) → (b : Ref sig .tc) → Buf (Elt F) ((c : Thread nD τ).loc b))

/-- Window `w`'s block at grid point `t`, read off the window's array as the pipeline finds it. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the body leaves in the output block: its one store, of the payload of the whole input blocks, over the whole block. -/
def out5 (x0 : Vec F S5000x64 .f32) (x1 : Vec F S64x40 .f32) (x2 : Vec F S1x40 .f32) : Vec F S5000x40 .f32 :=
  View.canon [⟨(Rect.unit (s := S5000x40) ![0, 0] S5000x40.size inb_S5000x40_S5000x40_0_0), k5_pay1 (View.ld x0 (Rect.unit (s := S5000x64) ![0, 0] S5000x64.size inb_S5000x64_S5000x64_0_0)) (View.ld x1 (Rect.unit (s := S64x40) ![0, 0] S64x40.size inb_S64x40_S64x40_0_0)) (View.ld x2 (Rect.unit (s := S1x40) ![0, 0] S1x40.size inb_S1x40_S1x40_0_0))⟩]

/-- The one store covers the output block. -/
theorem cover5 (p : Vec F S5000x40 .f32) (y : S5000x40.Idx) :
    ∃ pc ∈ ([⟨(Rect.unit (s := S5000x40) ![0, 0] S5000x40.size inb_S5000x40_S5000x40_0_0), p⟩] : List (View.Piece (Elt F) S5000x40 .f32)), y ∈ pc.1.set :=
  View.cover_of_tiled [⟨(Rect.unit (s := S5000x40) ![0, 0] S5000x40.size inb_S5000x40_S5000x40_0_0), p⟩] S5000x40.size (by rfl) y

set_option maxHeartbeats 4000000 in
/-- The body, handed whole staging buffers — the inputs at `x0 …`, the output at anything —, returns them with the inputs as they were
    and the output at `out5` of the inputs. -/
theorem sound_kernel5 (c : Dev nD) (E : Set ℕ) (i : grid5.Coords) (a0 : Memref sig .tc .vmem S5000x64 .f32) (h0 : a0.IsWhole) (a1 : Memref sig .tc .vmem S64x40 .f32) (h1 : a1.IsWhole) (a2 : Memref sig .tc .vmem S1x40 .f32) (h2 : a2.IsWhole) (a3 : Memref sig .tc .vmem S5000x40 .f32) (h3 : a3.IsWhole)
    (x0 : Vec F S5000x64 .f32) (x1 : Vec F S64x40 .f32) (x2 : Vec F S1x40 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out5 x0 x1 x2)) -∗ K ⟨⟩))
      ⊢ wp frame (wpE (defs₀ (F := F)) Variants.none c none) E (cc5__output_proj_kernel i a0 h0 a1 h1 a2 h2 a3 h3) K := by
  simp only [cc5__output_proj_kernel_eq_skeleton]; unfold cc5__output_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5 _)

/-- The pipeline's proof data on core `c`: the arrays as found; after the body at point `t` every input block in place and the
    output block at `out5` of the input blocks; nothing kept between points, nothing owed. -/
def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => out5 (blk5 V c 0 t) (blk5 V c 1 t) (blk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = blk5 V c 0 t := by dsimp only [dat5]
theorem after5_1 (c : Dev nD) (t : Fin cfg5.N) : (dat5 V c).after 1 t = blk5 V c 1 t := by dsimp only [dat5]
theorem after5_2 (c : Dev nD) (t : Fin cfg5.N) : (dat5 V c).after 2 t = blk5 V c 2 t := by dsimp only [dat5]
theorem after5_3 (c : Dev nD) (t : Fin cfg5.N) : (dat5 V c).after 3 t = out5 (blk5 V c 0 t) (blk5 V c 1 t) (blk5 V c 2 t) := by dsimp only [dat5]
theorem before5_0 (c : Dev nD) (t : Fin cfg5.N) (d) : (dat5 V c).before 0 t d = blk5 V c 0 t :=
  ((dat5 V c).before_in_eq_fetched 0 rfl (fun _ => rfl) (fun _ _ _ => rfl) (fun t => by rw [after5_0]; unfold Dat.blockOf blk5; rw [A_eq5]; try rfl) t d).trans
    (by unfold Dat.fetched Dat.blockOf blk5; rw [A_eq5]; try rfl)
theorem before5_1 (c : Dev nD) (t : Fin cfg5.N) (d) : (dat5 V c).before 1 t d = blk5 V c 1 t :=
  ((dat5 V c).before_in_eq_fetched 1 rfl (fun _ => rfl) (fun _ _ _ => rfl) (fun t => by rw [after5_1]; unfold Dat.blockOf blk5; rw [A_eq5]; try rfl) t d).trans
    (by unfold Dat.fetched Dat.blockOf blk5; rw [A_eq5]; try rfl)
theorem before5_2 (c : Dev nD) (t : Fin cfg5.N) (d) : (dat5 V c).before 2 t d = blk5 V c 2 t :=
  ((dat5 V c).before_in_eq_fetched 2 rfl (fun _ => rfl) (fun _ _ _ => rfl) (fun t => by rw [after5_2]; unfold Dat.blockOf blk5; rw [A_eq5]; try rfl) t d).trans
    (by unfold Dat.fetched Dat.blockOf blk5; rw [A_eq5]; try rfl)

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (blk5 V c 0 t) (blk5 V c 1 t) (blk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem body_obligation5 (c : Dev nD) : BodyObligation (dat5 (F := F) V c) (defs₀ (F := F)) Variants.none () Set.univ := fun t => by
  rw [bigSep_W5, bigSep_W5]
  exact sound_body5 V c t

end Region5

end Cert.KernelIdeal.Pipe

end
-- ==== Proof.KI_Run.lean ====
/-
  The forward pass as ONE run: the contents of the TensorCore's buffers between its items (five host stretches, then six
  pipelines each preceded by a host stretch), every pipeline's proof data at the contents it is entered with, and each
  pipeline with distinct arrays as a segment of the run.
-/
import proofs.«134498_j40424232190561_2_alg».proof.Proof.Gen.KernelIdeal.Launch
import proofs.«134498_j40424232190561_2_alg».proof.Proof.Gen.KernelIdeal.Skeleton
import proofs.«134498_j40424232190561_2_alg».proof.Proof.Gen.KernelIdeal.Points
import proofs.«134498_j40424232190561_2_alg».proof.Proof.KI_Region0
import proofs.«134498_j40424232190561_2_alg».proof.Proof.KI_Region1
import proofs.«134498_j40424232190561_2_alg».proof.Proof.KI_Region2
import proofs.«134498_j40424232190561_2_alg».proof.Proof.KI_Region3
import proofs.«134498_j40424232190561_2_alg».proof.Proof.KI_Region4
import proofs.«134498_j40424232190561_2_alg».proof.Proof.KI_Region5
import proofs.«134498_j40424232190561_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole run: the buffers' contents between the items of the forward pass

  `E K` is what the TensorCore's buffers hold when pipeline `K` is entered, `X K` what they hold when it is left: the host
  stretch before it applied to what the pipeline before left; a pipeline changes its output array only, to the fold of its
  write-backs. -/

section Run

variable (m : (ℓ : Loc nD τ sig) → Buf (Elt F) ℓ)

/-- A valuation read at the TensorCore's references. -/
abbrev atTc (W : Dev nD → Valuation τ sig (Elt F)) : (c : Dev nD) → (b : Ref sig .tc) → Buf (Elt F) ((c : Thread nD τ).loc b) :=
  fun c b => W c b

/-- Entering pipeline 0: the launch memory after the five host stretches that build the edge lists, the degrees and the
    normalisation weights, and re-lay the input bias as a row. -/
abbrev E0 : Dev nD → Valuation τ sig (Elt F) := fun c => Gen.V5 m c
/-- Leaving pipeline 0: its arrays at what the pipeline leaves, every other buffer as entered. -/
def X0 (c : Dev nD) : Valuation τ sig (Elt F) :=
  Pipeline.withArrays spec0 c (E0 m c) fun w => (dat0 (atTc (E0 m)) c).arrAt w cfg0.N
theorem X0_arr (c : Dev nD) (w : Fin cfg0.W) :
    X0 m c (Proc.devRef .tc (Pipeline.arrRef spec0 w)) = (dat0 (atTc (E0 m)) c).arrAt w cfg0.N := by
  unfold X0; exact Pipeline.withArrays_arr spec0 launch0.win.arr_inj c _ _ w
theorem X0_of_ne (c : Dev nD) (b : Ref sig .tc) (hb : ∀ w, Pipeline.arrRef spec0 w ≠ b) :
    X0 m c (Proc.devRef .tc b) = E0 m c (Proc.devRef .tc b) := by
  unfold X0; exact Pipeline.withArrays_of_ne spec0 c _ _ b hb
theorem hF0 (c : Dev nD) (w : Fin cfg0.W) : (dat0 (atTc (E0 m)) c).arrAt w cfg0.N = atTc (X0 m) c (Pipeline.arrRef spec0 w) :=
  (X0_arr m c w).symm
theorem hrest0 (c : Dev nD) : ∀ b, b ∉ Finset.univ.image (Pipeline.arrRef spec0) → atTc (X0 m) c b = atTc (E0 m) c b :=
  fun b hb => X0_of_ne m c b fun w e => hb (Finset.mem_image.mpr ⟨w, Finset.mem_univ _, e⟩)
/-- Entering pipeline 1: host stretch 1 (the gather, the weighting and the scatter-add of one propagation, the layer's weight
    and bias slices) applied to what pipeline 0 left. -/
abbrev E1 : Dev nD → Valuation τ sig (Elt F) := fun c => StableHlo.after hostOps1 (X0 m c)
/-- Leaving pipeline 1, two of whose input windows read ONE array (the first layer's state is also the initial state): only the
    output array changes, to the fold of the write-backs. -/
def X1 (c : Dev nD) : Valuation τ sig (Elt F) :=
  Function.update (E1 m c) (Proc.devRef .tc main_v54) ((dat1 (atTc (E1 m)) c).arrAt 5 cfg1.N)
theorem X1_out (c : Dev nD) : X1 m c (Proc.devRef .tc main_v54) = (dat1 (atTc (E1 m)) c).arrAt 5 cfg1.N := by
  unfold X1; exact Function.update_self ..
theorem X1_of_ne (c : Dev nD) (b : Ref sig .tc) (hb : b ≠ main_v54) :
    X1 m c (Proc.devRef .tc b) = E1 m c (Proc.devRef .tc b) := by
  unfold X1; exact Function.update_of_ne (StableHlo.devRef_ne_of_ne hb) ..
/-- Entering pipeline 2: host stretch 2 (the gather, the weighting and the scatter-add of one propagation, the layer's weight
    and bias slices) applied to what pipeline 1 left. -/
abbrev E2 : Dev nD → Valuation τ sig (Elt F) := fun c => StableHlo.after hostOps2 (X1 m c)
/-- Leaving pipeline 2: its arrays at what the pipeline leaves, every other buffer as entered. -/
def X2 (c : Dev nD) : Valuation τ sig (Elt F) :=
  Pipeline.withArrays spec2 c (E2 m c) fun w => (dat2 (atTc (E2 m)) c).arrAt w cfg2.N
theorem X2_arr (c : Dev nD) (w : Fin cfg2.W) :
    X2 m c (Proc.devRef .tc (Pipeline.arrRef spec2 w)) = (dat2 (atTc (E2 m)) c).arrAt w cfg2.N := by
  unfold X2; exact Pipeline.withArrays_arr spec2 launch2.win.arr_inj c _ _ w
theorem X2_of_ne (c : Dev nD) (b : Ref sig .tc) (hb : ∀ w, Pipeline.arrRef spec2 w ≠ b) :
    X2 m c (Proc.devRef .tc b) = E2 m c (Proc.devRef .tc b) := by
  unfold X2; exact Pipeline.withArrays_of_ne spec2 c _ _ b hb
theorem hF2 (c : Dev nD) (w : Fin cfg2.W) : (dat2 (atTc (E2 m)) c).arrAt w cfg2.N = atTc (X2 m) c (Pipeline.arrRef spec2 w) :=
  (X2_arr m c w).symm
theorem hrest2 (c : Dev nD) : ∀ b, b ∉ Finset.univ.image (Pipeline.arrRef spec2) → atTc (X2 m) c b = atTc (E2 m) c b :=
  fun b hb => X2_of_ne m c b fun w e => hb (Finset.mem_image.mpr ⟨w, Finset.mem_univ _, e⟩)
/-- Entering pipeline 3: host stretch 3 (the gather, the weighting and the scatter-add of one propagation, the layer's weight
    and bias slices) applied to what pipeline 2 left. -/
abbrev E3 : Dev nD → Valuation τ sig (Elt F) := fun c => StableHlo.after hostOps3 (X2 m c)
/-- Leaving pipeline 3: its arrays at what the pipeline leaves, every other buffer as entered. -/
def X3 (c : Dev nD) : Valuation τ sig (Elt F) :=
  Pipeline.withArrays spec3 c (E3 m c) fun w => (dat3 (atTc (E3 m)) c).arrAt w cfg3.N
theorem X3_arr (c : Dev nD) (w : Fin cfg3.W) :
    X3 m c (Proc.devRef .tc (Pipeline.arrRef spec3 w)) = (dat3 (atTc (E3 m)) c).arrAt w cfg3.N := by
  unfold X3; exact Pipeline.withArrays_arr spec3 launch3.win.arr_inj c _ _ w
theorem X3_of_ne (c : Dev nD) (b : Ref sig .tc) (hb : ∀ w, Pipeline.arrRef spec3 w ≠ b) :
    X3 m c (Proc.devRef .tc b) = E3 m c (Proc.devRef .tc b) := by
  unfold X3; exact Pipeline.withArrays_of_ne spec3 c _ _ b hb
theorem hF3 (c : Dev nD) (w : Fin cfg3.W) : (dat3 (atTc (E3 m)) c).arrAt w cfg3.N = atTc (X3 m) c (Pipeline.arrRef spec3 w) :=
  (X3_arr m c w).symm
theorem hrest3 (c : Dev nD) : ∀ b, b ∉ Finset.univ.image (Pipeline.arrRef spec3) → atTc (X3 m) c b = atTc (E3 m) c b :=
  fun b hb => X3_of_ne m c b fun w e => hb (Finset.mem_image.mpr ⟨w, Finset.mem_univ _, e⟩)
/-- Entering pipeline 4: host stretch 4 (the gather, the weighting and the scatter-add of one propagation, the layer's weight
    and bias slices) applied to what pipeline 3 left. -/
abbrev E4 : Dev nD → Valuation τ sig (Elt F) := fun c => StableHlo.after hostOps4 (X3 m c)
/-- Leaving pipeline 4: its arrays at what the pipeline leaves, every other buffer as entered. -/
def X4 (c : Dev nD) : Valuation τ sig (Elt F) :=
  Pipeline.withArrays spec4 c (E4 m c) fun w => (dat4 (atTc (E4 m)) c).arrAt w cfg4.N
theorem X4_arr (c : Dev nD) (w : Fin cfg4.W) :
    X4 m c (Proc.devRef .tc (Pipeline.arrRef spec4 w)) = (dat4 (atTc (E4 m)) c).arrAt w cfg4.N := by
  unfold X4; exact Pipeline.withArrays_arr spec4 launch4.win.arr_inj c _ _ w
theorem X4_of_ne (c : Dev nD) (b : Ref sig .tc) (hb : ∀ w, Pipeline.arrRef spec4 w ≠ b) :
    X4 m c (Proc.devRef .tc b) = E4 m c (Proc.devRef .tc b) := by
  unfold X4; exact Pipeline.withArrays_of_ne spec4 c _ _ b hb
theorem hF4 (c : Dev nD) (w : Fin cfg4.W) : (dat4 (atTc (E4 m)) c).arrAt w cfg4.N = atTc (X4 m) c (Pipeline.arrRef spec4 w) :=
  (X4_arr m c w).symm
theorem hrest4 (c : Dev nD) : ∀ b, b ∉ Finset.univ.image (Pipeline.arrRef spec4) → atTc (X4 m) c b = atTc (E4 m) c b :=
  fun b hb => X4_of_ne m c b fun w e => hb (Finset.mem_image.mpr ⟨w, Finset.mem_univ _, e⟩)
/-- Entering pipeline 5: host stretch 5 (the gather, the weighting and the scatter-add of one propagation, the layer's weight
    and bias slices — here only the output bias re-laid as a row) applied to what pipeline 4 left. -/
abbrev E5 : Dev nD → Valuation τ sig (Elt F) := fun c => StableHlo.after hostOps5 (X4 m c)
/-- Leaving pipeline 5: its arrays at what the pipeline leaves, every other buffer as entered. -/
def X5 (c : Dev nD) : Valuation τ sig (Elt F) :=
  Pipeline.withArrays spec5 c (E5 m c) fun w => (dat5 (atTc (E5 m)) c).arrAt w cfg5.N
theorem X5_arr (c : Dev nD) (w : Fin cfg5.W) :
    X5 m c (Proc.devRef .tc (Pipeline.arrRef spec5 w)) = (dat5 (atTc (E5 m)) c).arrAt w cfg5.N := by
  unfold X5; exact Pipeline.withArrays_arr spec5 launch5.win.arr_inj c _ _ w
theorem X5_of_ne (c : Dev nD) (b : Ref sig .tc) (hb : ∀ w, Pipeline.arrRef spec5 w ≠ b) :
    X5 m c (Proc.devRef .tc b) = E5 m c (Proc.devRef .tc b) := by
  unfold X5; exact Pipeline.withArrays_of_ne spec5 c _ _ b hb
theorem hF5 (c : Dev nD) (w : Fin cfg5.W) : (dat5 (atTc (E5 m)) c).arrAt w cfg5.N = atTc (X5 m) c (Pipeline.arrRef spec5 w) :=
  (X5_arr m c w).symm
theorem hrest5 (c : Dev nD) : ∀ b, b ∉ Finset.univ.image (Pipeline.arrRef spec5) → atTc (X5 m) c b = atTc (E5 m) c b :=
  fun b hb => X5_of_ne m c b fun w e => hb (Finset.mem_image.mpr ⟨w, Finset.mem_univ _, e⟩)

end Run

/-! # The items of the forward pass as segments of one run -/

section Segments

variable (m : (ℓ : Loc nD τ sig) → Buf (Elt F) ℓ)

/-- No pipeline has a prefetched table. -/
abbrev adm : (p : Fin 6) → (pcfgs (F := F) p).Adm := fun p => (cfgs p).toPCfg_adm

/-- Every pipeline's proof data, each at the contents its pipeline is entered with. -/
def pdats : (p : Fin 6) → (c : Dev nD) → Dat τ (Elt F) Unit ℕ (UR sig nD τ) ℕ (Pipeline.pin (pcfgs (F := F)) adm p) c
  | ⟨0, _⟩ => fun c => dat0 (atTc (E0 m)) c
  | ⟨1, _⟩ => fun c => dat1 (atTc (E1 m)) c
  | ⟨2, _⟩ => fun c => dat2 (atTc (E2 m)) c
  | ⟨3, _⟩ => fun c => dat3 (atTc (E3 m)) c
  | ⟨4, _⟩ => fun c => dat4 (atTc (E4 m)) c
  | ⟨5, _⟩ => fun c => dat5 (atTc (E5 m)) c

abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state, and its dues, none. -/
abbrev R (c : Dev nD) : sProp 𝕄 := iprop((∃ r, prngReg c r) ∗ ∃ W, owes (c : Thread nD τ) (0 : CellTallies nD τ sig Unit) W)

/-- A host stretch as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Pipeline 0 over the thread state "every unscoped buffer at the entry contents": its arrays are split out of the unscoped
    buffers at entry and put back at the exit contents; the generator register passes through the pipeline's invariant;
    nothing is owed and the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (E0 m)) c).loose
  hwaits := Pipeline.hwaits_of_owed_zero _ _ _ _ L lv 0 fun _ _ => rfl
  pre c := iprop(StableHlo.held (c : Thread nD τ) (Pipeline.ucRefs τ sig) (E0 m c) ∗ R c)
  post c := iprop(StableHlo.held (c : Thread nD τ) (Pipeline.ucRefs τ sig) (X0 m c) ∗ R c)
  X c := iprop(∃ r, prngReg c r)
  Y c := iprop(∃ r, prngReg c r)
  Z c := Pipeline.unscopedRest (Ix := Unit) (Name := ℕ) (U := UR sig nD τ) (Lvl := ℕ) spec0 c (atTc (E0 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (E0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (E0 m) c) (atTc (X0 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 over the thread state "every unscoped buffer at the entry contents": its arrays are split out of the unscoped
    buffers at entry and put back at the exit contents; the generator register passes through the pipeline's invariant;
    nothing is owed and the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (E2 m)) c).loose
  hwaits := Pipeline.hwaits_of_owed_zero _ _ _ _ L lv 2 fun _ _ => rfl
  pre c := iprop(StableHlo.held (c : Thread nD τ) (Pipeline.ucRefs τ sig) (E2 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec2 c (atTc (E2 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (E2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (E2 m) c) (atTc (X2 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 3 over the thread state "every unscoped buffer at the entry contents": its arrays are split out of the unscoped
    buffers at entry and put back at the exit contents; the generator register passes through the pipeline's invariant;
    nothing is owed and the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (E3 m)) c).loose
  hwaits := Pipeline.hwaits_of_owed_zero _ _ _ _ L lv 3 fun _ _ => rfl
  pre c := iprop(StableHlo.held (c : Thread nD τ) (Pipeline.ucRefs τ sig) (E3 m c) ∗ R c)
  post c := iprop(StableHlo.held (c : Thread nD τ) (Pipeline.ucRefs τ sig) (X3 m c) ∗ R c)
  X c := iprop(∃ r, prngReg c r)
  Y c := iprop(∃ r, prngReg c r)
  Z c := Pipeline.unscopedRest (Ix := Unit) (Name := ℕ) (U := UR sig nD τ) (Lvl := ℕ) spec3 c (atTc (E3 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (E3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (E3 m) c) (atTc (X3 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 4 over the thread state "every unscoped buffer at the entry contents": its arrays are split out of the unscoped
    buffers at entry and put back at the exit contents; the generator register passes through the pipeline's invariant;
    nothing is owed and the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atTc (E4 m)) c).loose
  hwaits := Pipeline.hwaits_of_owed_zero _ _ _ _ L lv 4 fun _ _ => rfl
  pre c := iprop(StableHlo.held (c : Thread nD τ) (Pipeline.ucRefs τ sig) (E4 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec4 c (atTc (E4 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (E4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (E4 m) c) (atTc (X4 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 5 over the thread state "every unscoped buffer at the entry contents": its arrays are split out of the unscoped
    buffers at entry and put back at the exit contents; the generator register passes through the pipeline's invariant;
    nothing is owed and the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atTc (E5 m)) c).loose
  hwaits := Pipeline.hwaits_of_owed_zero _ _ _ _ L lv 5 fun _ _ => rfl
  pre c := iprop(StableHlo.held (c : Thread nD τ) (Pipeline.ucRefs τ sig) (E5 m c) ∗ R c)
  post c := iprop(StableHlo.held (c : Thread nD τ) (Pipeline.ucRefs τ sig) (X5 m c) ∗ R c)
  X c := iprop(∃ r, prngReg c r)
  Y c := iprop(∃ r, prngReg c r)
  Z c := Pipeline.unscopedRest (Ix := Unit) (Name := ℕ) (U := UR sig nD τ) (Lvl := ℕ) spec5 c (atTc (E5 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (E5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (E5 m) c) (atTc (X5 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Segments

end Cert.KernelIdeal.Pipe

end
-- ==== Proof.KI_SharedArray.lean ====
/-
  Pipeline 1 reads one array through two of its input windows. The array's full share is dealt to the two windows as
  its two halves; every other window's array is held whole. These lemmas pass between the buffers behind the windows'
  arrays, each held once at the full share, and the pipeline's per-window holdings.
-/
import proofs.«134498_j40424232190561_2_alg».proof.Proof.Gen.KernelIdeal.Launch
import Idealize.ShloMosaic.Lib.Pipeline.RegionsLoop

set_option maxRecDepth 16384

noncomputable section

namespace Cert.KernelIdeal.Pipe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers behind pipeline 1's six windows are five: windows 1 and 2 read the same array. -/
theorem image_arrRef1 : Finset.univ.image (Pipeline.arrRef spec1)
    = ([main_v48, main_v35, main_v50, main_v53, main_v54] : List (Ref sig .tc)).toFinset := by decide

section Shares

variable (c : Dev nD) (d : Pipeline.Dat τ (Elt F) Unit ℕ (UR sig nD τ) ℕ cfg1 c)

/-- Window 0 is an input: it is held at its own share. -/
theorem share1_0 : d.share 0 = d.q 0 := by
  unfold Pipeline.Dat.share; rw [if_neg (by decide)]
/-- Window 1 is an input. -/
theorem share1_1 : d.share 1 = d.q 1 := by
  unfold Pipeline.Dat.share; rw [if_neg (by decide)]
/-- Window 2 is an input. -/
theorem share1_2 : d.share 2 = d.q 2 := by
  unfold Pipeline.Dat.share; rw [if_neg (by decide)]
/-- Window 3 is an input. -/
theorem share1_3 : d.share 3 = d.q 3 := by
  unfold Pipeline.Dat.share; rw [if_neg (by decide)]
/-- Window 4 is an input. -/
theorem share1_4 : d.share 4 = d.q 4 := by
  unfold Pipeline.Dat.share; rw [if_neg (by decide)]
/-- Window 5 is the output: it is held at the full share. -/
theorem share1_5 : d.share 5 = fullShare := by
  unfold Pipeline.Dat.share; rw [if_pos (by decide)]

/-- A window's array is a whole buffer, so the window's holding of it at contents read off a valuation of the
    buffers is the plain points-to of the buffer behind it. -/
theorem arr1 (V : (b : Ref sig .tc) → Buf (Elt F) ((c : Thread nD τ).loc b))
    (A : (w : Fin cfg1.W) → Buf (Elt F) ((cfg1.win w).arr.view.loc (c : Thread nD τ)))
    (hA : ∀ w, A w = V (Pipeline.arrRef spec1 w)) (w : Fin cfg1.W) (q : PosShare TreeShare) :
    ((cfg1.win w).arr.view.loc (c : Thread nD τ) ↦[(cfg1.win w).arr.view.set]{q} A w : sProp 𝕄)
      = ((c : Thread nD τ).loc (Pipeline.arrRef spec1 w) ↦{q} V (Pipeline.arrRef spec1 w)) := by
  rw [(arr_whole1 w).set_eq_univ, hA]

end Shares

section Shared

variable (c : Dev nD)

/-- The buffers behind the windows' arrays, one by one. -/
theorem arrBufs1_eq (V : (b : Ref sig .tc) → Buf (Elt F) ((c : Thread nD τ).loc b)) :
    (Pipeline.arrBufs spec1 c V : sProp 𝕄)
      = iprop((((c : Thread nD τ).loc main_v48) ↦{fullShare} V main_v48) ∗ (((c : Thread nD τ).loc main_v35) ↦{fullShare} V main_v35)
        ∗ (((c : Thread nD τ).loc main_v50) ↦{fullShare} V main_v50) ∗ (((c : Thread nD τ).loc main_v53) ↦{fullShare} V main_v53)
        ∗ (((c : Thread nD τ).loc main_v54) ↦{fullShare} V main_v54)) := by
  unfold Pipeline.arrBufs
  rw [bigSep_eq_bigSepL_of_eq _ image_arrRef1 (by decide)]
  rfl

variable (d : Pipeline.Dat τ (Elt F) Unit ℕ (UR sig nD τ) ℕ cfg1 c)
  (hq1 : d.q 1 = fullShare.left) (hq2 : d.q 2 = fullShare.right) (hq : ∀ w, w ≠ 1 → w ≠ 2 → d.q w = fullShare)
include hq1 hq2 hq

/-- The pipeline's holdings of its windows' arrays at contents read off a valuation `V` of the buffers, one by one:
    the array windows 1 and 2 both read is held twice, at the two halves of the full share; every other array once,
    at the full share. -/
theorem arrays1_eq (V : (b : Ref sig .tc) → Buf (Elt F) ((c : Thread nD τ).loc b))
    (A : (w : Fin cfg1.W) → Buf (Elt F) ((cfg1.win w).arr.view.loc (c : Thread nD τ)))
    (hA : ∀ w, A w = V (Pipeline.arrRef spec1 w)) :
    (d.arrays A : sProp 𝕄)
      = iprop((((c : Thread nD τ).loc main_v48) ↦{fullShare} V main_v48) ∗ (((c : Thread nD τ).loc main_v35) ↦{fullShare.left} V main_v35)
        ∗ (((c : Thread nD τ).loc main_v35) ↦{fullShare.right} V main_v35)
        ∗ (((c : Thread nD τ).loc main_v50) ↦{fullShare} V main_v50) ∗ (((c : Thread nD τ).loc main_v53) ↦{fullShare} V main_v53)
        ∗ (((c : Thread nD τ).loc main_v54) ↦{fullShare} V main_v54)) := by
  unfold Pipeline.Dat.arrays
  conv_lhs =>
    rw [bigSep_W1,
      arr1 c V A hA 0, arr1 c V A hA 1, arr1 c V A hA 2, arr1 c V A hA 3, arr1 c V A hA 4, arr1 c V A hA 5,
      share1_0, share1_1, share1_2, share1_3, share1_4, share1_5, hq1, hq2,
      hq 0 (by decide) (by decide), hq 3 (by decide) (by decide), hq 4 (by decide) (by decide)]

/-- ENTRY, the arrays' part: the five buffers behind the windows' arrays, each whole at the full share at contents
    `V`, make the pipeline's holdings at entry — the array windows 1 and 2 both read has its full share split into
    its two halves, one for each window; every other buffer goes to its window as it is. -/
theorem arrays_of_arrBufs1
    (V : (b : Ref sig .tc) → Buf (Elt F) ((c : Thread nD τ).loc b))
    (A : (w : Fin cfg1.W) → Buf (Elt F) ((cfg1.win w).arr.view.loc (c : Thread nD τ)))
    (hA : ∀ w, A w = V (Pipeline.arrRef spec1 w)) :
    (Pipeline.arrBufs spec1 c V : sProp 𝕄) ⊢ d.arrays A := by
  rw [arrBufs1_eq c V, arrays1_eq c d hq1 hq2 hq V A hA]
  iintro ⟨H48, H35, H50, H53, H54⟩
  ihave H35 := (pointsTo_share (PosShare.mem_left_op_right fullShare)).1 $$ H35
  icases H35 with ⟨H35l, H35r⟩
  isplitl [H48]; · iexact H48
  isplitl [H35l]; · iexact H35l
  isplitl [H35r]; · iexact H35r
  isplitl [H50]; · iexact H50
  isplitl [H53]; · iexact H53
  iexact H54

/-- EXIT, the arrays' part, first half: the pipeline's holdings at contents read off `V` are the five buffers behind
    the arrays at `V` — the two halves of the shared array, both at `V`'s contents of it, rejoined. -/
theorem arrBufs_of_arrays1
    (V : (b : Ref sig .tc) → Buf (Elt F) ((c : Thread nD τ).loc b))
    (A : (w : Fin cfg1.W) → Buf (Elt F) ((cfg1.win w).arr.view.loc (c : Thread nD τ)))
    (hA : ∀ w, A w = V (Pipeline.arrRef spec1 w)) :
    d.arrays A ⊢ (Pipeline.arrBufs spec1 c V : sProp 𝕄) := by
  rw [arrBufs1_eq c V, arrays1_eq c d hq1 hq2 hq V A hA]
  iintro ⟨H48, H35l, H35r, H50, H53, H54⟩
  isplitl [H48]; · iexact H48
  isplitl [H35l H35r]
  · iapply (pointsTo_share (PosShare.mem_left_op_right fullShare)).2
    isplitl [H35l]; · iexact H35l
    iexact H35r
  isplitl [H50]; · iexact H50
  isplitl [H53]; · iexact H53
  iexact H54

/-- EXIT, the arrays' part: the pipeline's holdings at contents `A` and the unscoped rest at `V` are the core's
    unscoped buffers at any valuation `V'` that has the arrays at `A` and agrees with `V` off them. -/
theorem unscopedBufs_of_arrays1
    (V V' : (b : Ref sig .tc) → Buf (Elt F) ((c : Thread nD τ).loc b))
    (A : (w : Fin cfg1.W) → Buf (Elt F) ((cfg1.win w).arr.view.loc (c : Thread nD τ)))
    (hA : ∀ w, A w = V' (Pipeline.arrRef spec1 w))
    (hrest : ∀ b, b ∉ Finset.univ.image (Pipeline.arrRef spec1) → V' b = V b) :
    iprop(d.arrays A ∗ Pipeline.unscopedRest spec1 c V) ⊢ (unscopedBufs c V' : sProp 𝕄) := by
  rw [show (unscopedBufs c V' : sProp 𝕄) = iprop(Pipeline.arrBufs spec1 c V' ∗ Pipeline.unscopedRest spec1 c V')
    from Pipeline.unscopedBufs_split₀ cfgs 1 winFacts₀1.arr_unscoped c V']
  refine sep_mono (arrBufs_of_arrays1 c d hq1 hq2 hq V' A hA) (Entails.of_eq ?_)
  unfold Pipeline.unscopedRest
  exact bigSep_congr fun b hb => by rw [hrest b (Finset.mem_sdiff.mp hb).2]

/-- ENTRY: the core's unscoped buffers at contents `V` are the pipeline's holdings at contents read off `V` and the
    unscoped rest. -/
theorem arrays_of_unscopedBufs1
    (V : (b : Ref sig .tc) → Buf (Elt F) ((c : Thread nD τ).loc b))
    (A : (w : Fin cfg1.W) → Buf (Elt F) ((cfg1.win w).arr.view.loc (c : Thread nD τ)))
    (hA : ∀ w, A w = V (Pipeline.arrRef spec1 w)) :
    (unscopedBufs c V : sProp 𝕄) ⊢ iprop(d.arrays A ∗ Pipeline.unscopedRest spec1 c V) := by
  rw [show (unscopedBufs c V : sProp 𝕄) = iprop(Pipeline.arrBufs spec1 c V ∗ Pipeline.unscopedRest spec1 c V)
    from Pipeline.unscopedBufs_split₀ cfgs 1 winFacts₀1.arr_unscoped c V]
  exact sep_mono (arrays_of_arrBufs1 c d hq1 hq2 hq V A hA) .rfl

end Shared

end Cert.KernelIdeal.Pipe
end
-- ==== Proof.KI_Reg1.lean ====
/-
  Pipeline 1 as a segment of the run. Its second and third input windows read ONE array — in the first layer the running state
  is still the initial state —, so that array's ownership is split between the two windows on the way in and rejoined on the way out.
-/
import proofs.«134498_j40424232190561_2_alg».proof.Proof.Gen.KernelIdeal.Launch
import proofs.«134498_j40424232190561_2_alg».proof.Proof.Gen.KernelIdeal.Skeleton
import proofs.«134498_j40424232190561_2_alg».proof.Proof.Gen.KernelIdeal.Points
import proofs.«134498_j40424232190561_2_alg».proof.Proof.KI_Run
import proofs.«134498_j40424232190561_2_alg».proof.Proof.KI_SharedArray
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shared

variable (m : (ℓ : Loc nD τ sig) → Buf (Elt F) ℓ)

theorem q1_1 (c : Dev nD) : (dat1 (atTc (E1 m)) c).q 1 = fullShare.left := rfl
theorem q1_2 (c : Dev nD) : (dat1 (atTc (E1 m)) c).q 2 = fullShare.right := rfl
theorem q1_rest (c : Dev nD) : ∀ w : Fin cfg1.W, w ≠ 1 → w ≠ 2 → (dat1 (atTc (E1 m)) c).q w = fullShare := by
  intro w h1 h2
  match w with
  | ⟨0, _⟩ => rfl
  | ⟨1, _⟩ => exact absurd rfl h1
  | ⟨2, _⟩ => exact absurd rfl h2
  | ⟨3, _⟩ => rfl
  | ⟨4, _⟩ => rfl
  | ⟨5, _⟩ => rfl

/-- Every array of pipeline 1 holds at the exit what the pipeline leaves: the five inputs as entered, the output the fold of
    its write-backs. -/
theorem hF1 (c : Dev nD) (w : Fin cfg1.W) : (dat1 (atTc (E1 m)) c).arrAt w cfg1.N = atTc (X1 m) c (Pipeline.arrRef spec1 w) := by
  by_cases hw : (cfg1.win w).isOut = false
  · have hne : Pipeline.arrRef spec1 w ≠ main_v54 := by revert hw; revert w; decide
    exact (((dat1 (atTc (E1 m)) c).arrAt_in w hw _).trans (A_eq1 (atTc (E1 m)) c w)).trans (X1_of_ne m c _ hne).symm
  · have h5 : w = 5 := by revert hw; revert w; decide
    subst h5
    exact (X1_out m c).symm

theorem hrest1 (c : Dev nD) : ∀ b, b ∉ Finset.univ.image (Pipeline.arrRef spec1) → atTc (X1 m) c b = atTc (E1 m) c b :=
  fun b hb => X1_of_ne m c b fun e => hb (Finset.mem_image.mpr ⟨5, Finset.mem_univ _, e.symm⟩)

set_option backward.isDefEq.respectTransparency.types false in
/-- Pipeline 1 as a segment: as the others, except that the array its second and third windows both read is split between
    them at entry, half a share each, and rejoined at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (atTc (E1 m)) c).loose
  hwaits := Pipeline.hwaits_of_owed_zero _ _ _ _ L lv 1 fun _ _ => rfl
  pre c := iprop(StableHlo.held (c : Thread nD τ) (Pipeline.ucRefs τ sig) (E1 m c) ∗ R c)
  post c := iprop(StableHlo.held (c : Thread nD τ) (Pipeline.ucRefs τ sig) (X1 m c) ∗ R c)
  X c := iprop(∃ r, prngReg c r)
  Y c := iprop(∃ r, prngReg c r)
  Z c := Pipeline.unscopedRest (Ix := Unit) (Name := ℕ) (U := UR sig nD τ) (Lvl := ℕ) spec1 c (atTc (E1 m) c)
  hentry c := by
    rw [Pipeline.ownSems0_none]
    have hsplit := arrays_of_unscopedBufs1 (F := F) c (pdats m 1 c) (q1_1 m c) (q1_2 m c) (q1_rest m c) (atTc (E1 m) c)
      ((pdats m 1 c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (F := F) c (pdats m 1 c) (q1_1 m c) (q1_2 m c) (q1_rest m c)
      (atTc (E1 m) c) (atTc (X1 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Shared

end Cert.KernelIdeal.Pipe

end
-- ==== Proof.KI_Keep.lean ====
/-
  What the forward pass leaves alone: a pipeline changes its output array only, and a buffer that no host stretch writes and no
  pipeline outputs — every argument array — ends holding its launch contents.
-/
import proofs.«134498_j40424232190561_2_alg».proof.Proof.Gen.KernelIdeal.Launch
import proofs.«134498_j40424232190561_2_alg».proof.Proof.Gen.KernelIdeal.Skeleton
import proofs.«134498_j40424232190561_2_alg».proof.Proof.Gen.KernelIdeal.Points
import proofs.«134498_j40424232190561_2_alg».proof.Proof.KI_Run
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Keep

variable (m : (ℓ : Loc nD τ sig) → Buf (Elt F) ℓ)

/-- Pipeline 0 changes its output array only. -/
theorem X0_keep (c : Dev nD) (b : Ref sig .tc) (hb : b ≠ main_v35) : X0 m c (Proc.devRef .tc b) = E0 m c (Proc.devRef .tc b) := by
  by_cases h : ∃ w, Pipeline.arrRef spec0 w = b
  · obtain ⟨w, rfl⟩ := h
    rw [X0_arr]
    have hw : (cfg0.win w).isOut = false := by
      revert hb; revert w; decide
    exact ((dat0 (atTc (E0 m)) c).arrAt_in w hw _).trans (A_eq0 (atTc (E0 m)) c w)
  · exact X0_of_ne m c b (fun w e => h ⟨w, e⟩)

/-- Pipeline 2 changes its output array only. -/
theorem X2_keep (c : Dev nD) (b : Ref sig .tc) (hb : b ≠ main_v73) : X2 m c (Proc.devRef .tc b) = E2 m c (Proc.devRef .tc b) := by
  by_cases h : ∃ w, Pipeline.arrRef spec2 w = b
  · obtain ⟨w, rfl⟩ := h
    rw [X2_arr]
    have hw : (cfg2.win w).isOut = false := by
      revert hb; revert w; decide
    exact ((dat2 (atTc (E2 m)) c).arrAt_in w hw _).trans (A_eq2 (atTc (E2 m)) c w)
  · exact X2_of_ne m c b (fun w e => h ⟨w, e⟩)

/-- Pipeline 3 changes its output array only. -/
theorem X3_keep (c : Dev nD) (b : Ref sig .tc) (hb : b ≠ main_v92) : X3 m c (Proc.devRef .tc b) = E3 m c (Proc.devRef .tc b) := by
  by_cases h : ∃ w, Pipeline.arrRef spec3 w = b
  · obtain ⟨w, rfl⟩ := h
    rw [X3_arr]
    have hw : (cfg3.win w).isOut = false := by
      revert hb; revert w; decide
    exact ((dat3 (atTc (E3 m)) c).arrAt_in w hw _).trans (A_eq3 (atTc (E3 m)) c w)
  · exact X3_of_ne m c b (fun w e => h ⟨w, e⟩)

/-- Pipeline 4 changes its output array only. -/
theorem X4_keep (c : Dev nD) (b : Ref sig .tc) (hb : b ≠ main_v111) : X4 m c (Proc.devRef .tc b) = E4 m c (Proc.devRef .tc b) := by
  by_cases h : ∃ w, Pipeline.arrRef spec4 w = b
  · obtain ⟨w, rfl⟩ := h
    rw [X4_arr]
    have hw : (cfg4.win w).isOut = false := by
      revert hb; revert w; decide
    exact ((dat4 (atTc (E4 m)) c).arrAt_in w hw _).trans (A_eq4 (atTc (E4 m)) c w)
  · exact X4_of_ne m c b (fun w e => h ⟨w, e⟩)

/-- Pipeline 5 changes its output array only. -/
theorem X5_keep (c : Dev nD) (b : Ref sig .tc) (hb : b ≠ main_v113) : X5 m c (Proc.devRef .tc b) = E5 m c (Proc.devRef .tc b) := by
  by_cases h : ∃ w, Pipeline.arrRef spec5 w = b
  · obtain ⟨w, rfl⟩ := h
    rw [X5_arr]
    have hw : (cfg5.win w).isOut = false := by
      revert hb; revert w; decide
    exact ((dat5 (atTc (E5 m)) c).arrAt_in w hw _).trans (A_eq5 (atTc (E5 m)) c w)
  · exact X5_of_ne m c b (fun w e => h ⟨w, e⟩)

/-- A buffer no host stretch writes and no pipeline outputs ends as launched. -/
theorem kept (c : Dev nD) (b : Ref sig .tc)
    (h0 : b ∉ hostOps0_W) (h01 : b ∉ hostOps0_1_W) (h02 : b ∉ hostOps0_2_W) (h03 : b ∉ hostOps0_3_W) (h04 : b ∉ hostOps0_4_W)
    (h1 : b ∉ hostOps1_W) (h2 : b ∉ hostOps2_W) (h3 : b ∉ hostOps3_W) (h4 : b ∉ hostOps4_W) (h5 : b ∉ hostOps5_W)
    (o0 : b ≠ main_v35) (o1 : b ≠ main_v54) (o2 : b ≠ main_v73) (o3 : b ≠ main_v92) (o4 : b ≠ main_v111) (o5 : b ≠ main_v113) :
    X5 m c (Proc.devRef .tc b) = m ((c : Thread nD τ).loc b) :=
  (X5_keep m c b o5).trans <| (StableHlo.after_of_writes_sub hostOps5 _ hostOps5_writes h5).trans <|
  (X4_keep m c b o4).trans <| (StableHlo.after_of_writes_sub hostOps4 _ hostOps4_writes h4).trans <|
  (X3_keep m c b o3).trans <| (StableHlo.after_of_writes_sub hostOps3 _ hostOps3_writes h3).trans <|
  (X2_keep m c b o2).trans <| (StableHlo.after_of_writes_sub hostOps2 _ hostOps2_writes h2).trans <|
  (X1_of_ne m c b o1).trans <| (StableHlo.after_of_writes_sub hostOps1 _ hostOps1_writes h1).trans <|
  (X0_keep m c b o0).trans <| (Gen.V5_of m c b h04).trans <| (Gen.V4_of m c b h03).trans <| (Gen.V3_of m c b h02).trans <|
  (Gen.V2_of m c b h01).trans <| (Gen.V1_of m c b h0).trans rfl

end Keep

end Cert.KernelIdeal.Pipe

end
-- ==== Proof.KI_All.lean ====
/-
  The whole forward pass run from launch to return: its sixteen items in order, every weakly fair execution terminating with each
  unscoped buffer at the last contents of the fold.
-/
import proofs.«134498_j40424232190561_2_alg».proof.Proof.Gen.KernelIdeal.Launch
import proofs.«134498_j40424232190561_2_alg».proof.Proof.Gen.KernelIdeal.Skeleton
import proofs.«134498_j40424232190561_2_alg».proof.Proof.Gen.KernelIdeal.Points
import proofs.«134498_j40424232190561_2_alg».proof.Proof.KI_Reg1
import proofs.«134498_j40424232190561_2_alg».proof.Proof.KI_Keep
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Whole

variable (m : (ℓ : Loc nD τ sig) → Buf (Elt F) ℓ) (ρ : Dev nD → PrngReg)

/-- The forward pass as the list of its sixteen items. -/
abbrev segs : List (Pipeline.Seg (pcfgs (F := F)) adm (pdats m) () defs₀ 𝒱₀ L lv) :=
  [ .host (hseg hostOps0 hostOps0_sub hostOps0_fresh (fun c => Gen.V0 m c)),
    .host (hseg hostOps0_1 hostOps0_1_sub hostOps0_1_fresh (fun c => Gen.V1 m c)),
    .host (hseg hostOps0_2 hostOps0_2_sub hostOps0_2_fresh (fun c => Gen.V2 m c)),
    .host (hseg hostOps0_3 hostOps0_3_sub hostOps0_3_fresh (fun c => Gen.V3 m c)),
    .host (hseg hostOps0_4 hostOps0_4_sub hostOps0_4_fresh (fun c => Gen.V4 m c)),
    .region (reg0 m),
    .host (hseg hostOps1 hostOps1_sub hostOps1_fresh (X0 m)),
    .region (reg1 m),
    .host (hseg hostOps2 hostOps2_sub hostOps2_fresh (X1 m)),
    .region (reg2 m),
    .host (hseg hostOps3 hostOps3_sub hostOps3_fresh (X2 m)),
    .region (reg3 m),
    .host (hseg hostOps4 hostOps4_sub hostOps4_fresh (X3 m)),
    .region (reg4 m),
    .host (hseg hostOps5 hostOps5_sub hostOps5_fresh (X4 m)),
    .region (reg5 m) ]

set_option backward.isDefEq.respectTransparency.types false in
/-- THE RUN. From any memory with zero counters, every weakly fair execution of the forward pass on the TensorCores terminates,
    nothing faulting, and every unscoped buffer of every core ends at the last contents `X5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X5 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (X5 m c) ∗ ∃ r, prngReg c r))
    (hch := ⟨fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (X5 m c) ∗ R c) ⊢ _
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X5 m c b)
    (hfin := fun c s' => by
      iintro ⟨⟨Hh, -⟩, HSI⟩
      unfold StableHlo.held
      imodintro
      iapply (pointsTo_read_all (Pipeline.ucRefs τ sig) (fun b => (((c : Thread nD τ)).1, b)) (X5 m c) s')
      isplitl [Hh] <;> iassumption)
    (hQ := fun s h c => h c)

end Whole

end Cert.KernelIdeal.Pipe

end
-- ==== Proof.LibMatmulRows.lean ====
/-
  A matrix product into a zero accumulator, read at one row and one column.

  For an `M × K` matrix `l` and a `K × N` matrix `r` contracted along the one shared axis, the entry of
  `l · r` at row `p` and column `j` is `∑ k, l[p,k] · r[k,j]`.  At the exact values the product unit's result
  is the accumulator plus the sum over the contraction index of the operands' products; the accumulator is
  the zero word, and the contraction index — a one-axis multi-index — is identified with its one
  coordinate `k : Fin K`.  The dimension numbers enter only through four coordinate facts (which axis of
  each operand is the output's and which is the contracted one), so the lemma serves every plain
  row-by-column product whatever the name of its dimension record.
-/
import Idealize.ShloMosaic.PureOps.Ideal.Laws
import Idealize.ShloMosaic.Lib.ValueIdx

noncomputable section

open scoped BigOperators

namespace Cert.LibMatmulRows

open Idealize.ShloMosaic Idealize.ShloMosaic.ValueIdx

/-- `(l · r)[p, j] = ∑ k, l[p,k] · r[k,j]` for a product into the zero accumulator whose left operand index at
    output `i` and contraction position `q` is `(i 0, q)` and whose right operand index is `(q, i 1)`. -/
theorem matmul_zero_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    matmul D prec l r (constant (F := Ideal) ⟨2, ![M, N]⟩ .f32 0x00000000#32) (ix2 p j)
      = ∑ k : Fin K, l (ix2 p k) * r (ix2 k j) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibMatmulRows

end
-- ==== Proof.BlockRows.lean ====
/-
  The three row-block computations of the network, each read at one entry of its block.

  A block is 5000 rows of the node table.  At the exact values a change of float format is the identity, the
  product unit's result into the zero accumulator is the plain sum over the contraction index, and every other
  operation acts entry by entry; so an entry of a block's result is a closed expression in the entries of the
  block's operands:

  * the input projection: row `p` of the features times column `j` of the weights, plus the bias, clamped below at
    the zero word;
  * a layer: the mix `c₈·agg + c₁·x + c₁·x₀` of row `p` (the two literal words `c₈`, `c₁` kept as words, never
    evaluated) times column `j` of the weights, minus the bias, clamped below at the zero word, plus the bias;
  * the output projection: row `p` times column `j` of the weights, plus the bias.

  The bias operand is a one-row block; it is read at row `0`.
-/
import proofs.«134498_j40424232190561_2_alg».proof.Proof.Gen.KernelIdeal.Skeleton
import proofs.«134498_j40424232190561_2_alg».proof.Proof.LibMatmulRows
import Idealize.ShloMosaic.Lib.ValueLayout

noncomputable section

open scoped BigOperators

namespace Cert.KernelIdeal.BlockRows

open Idealize.ShloMosaic Idealize.ShloMosaic.ValueIdx Cert.KernelIdeal

/-! ## The three products read at a row and a column -/

/-- The input projection's product: a 5000 × 128 block by the 128 × 64 weights. -/
theorem inDot_apply {φ₁ φ₂ : FTy} (l : FVec Ideal S5000x128 φ₁) (r : FVec Ideal S128x64 φ₂) (p : Fin 5000) (j : Fin 64) :
    matmul dot_S5000x128_S128x64_S5000x64_1_0_0_1_n_n none l r (constant (F := Ideal) S5000x64 .f32 0x00000000#32) (ix2 p j)
      = ∑ k : Fin 128, l (ix2 p k) * r (ix2 k j) :=
  Cert.LibMatmulRows.matmul_zero_apply dot_S5000x128_S128x64_S5000x64_1_0_0_1_n_n rfl rfl
    (fun i q => by
      unfold DotDims.lhsIdx
      rw [dif_neg (show ¬(0 : Fin S5000x128.rank) ∈ dot_S5000x128_S128x64_S5000x64_1_0_0_1_n_n.lhsBatch by decide),
        dif_pos (show (0 : Fin S5000x128.rank) ∈ dot_S5000x128_S128x64_S5000x64_1_0_0_1_n_n.lhsNonContracting by decide)]
      rfl)
    (fun i q => dot_S5000x128_S128x64_S5000x64_1_0_0_1_n_n.lhsIdx_val_of_single rfl i q)
    (fun i q => dot_S5000x128_S128x64_S5000x64_1_0_0_1_n_n.rhsIdx_val_of_single rfl i q)
    (fun i q => by
      unfold DotDims.rhsIdx
      rw [dif_neg (show ¬(1 : Fin S128x64.rank) ∈ dot_S5000x128_S128x64_S5000x64_1_0_0_1_n_n.rhsBatch by decide),
        dif_pos (show (1 : Fin S128x64.rank) ∈ dot_S5000x128_S128x64_S5000x64_1_0_0_1_n_n.rhsNonContracting by decide)]
      rfl)
    none l r p j

/-- A layer's product: a 5000 × 64 block by the 64 × 64 weights. -/
theorem layerDot_apply {φ₁ φ₂ : FTy} (l : FVec Ideal S5000x64 φ₁) (r : FVec Ideal S64x64 φ₂) (p : Fin 5000) (j : Fin 64) :
    matmul dot_S5000x64_S64x64_S5000x64_1_0_0_1_n_n none l r (constant (F := Ideal) S5000x64 .f32 0x00000000#32) (ix2 p j)
      = ∑ k : Fin 64, l (ix2 p k) * r (ix2 k j) :=
  Cert.LibMatmulRows.matmul_zero_apply dot_S5000x64_S64x64_S5000x64_1_0_0_1_n_n rfl rfl
    (fun i q => by
      unfold DotDims.lhsIdx
      rw [dif_neg (show ¬(0 : Fin S5000x64.rank) ∈ dot_S5000x64_S64x64_S5000x64_1_0_0_1_n_n.lhsBatch by decide),
        dif_pos (show (0 : Fin S5000x64.rank) ∈ dot_S5000x64_S64x64_S5000x64_1_0_0_1_n_n.lhsNonContracting by decide)]
      rfl)
    (fun i q => dot_S5000x64_S64x64_S5000x64_1_0_0_1_n_n.lhsIdx_val_of_single rfl i q)
    (fun i q => dot_S5000x64_S64x64_S5000x64_1_0_0_1_n_n.rhsIdx_val_of_single rfl i q)
    (fun i q => by
      unfold DotDims.rhsIdx
      rw [dif_neg (show ¬(1 : Fin S64x64.rank) ∈ dot_S5000x64_S64x64_S5000x64_1_0_0_1_n_n.rhsBatch by decide),
        dif_pos (show (1 : Fin S64x64.rank) ∈ dot_S5000x64_S64x64_S5000x64_1_0_0_1_n_n.rhsNonContracting by decide)]
      rfl)
    none l r p j

/-- The output projection's product: a 5000 × 64 block by the 64 × 40 weights. -/
theorem outDot_apply {φ₁ φ₂ : FTy} (l : FVec Ideal S5000x64 φ₁) (r : FVec Ideal S64x40 φ₂) (p : Fin 5000) (j : Fin 40) :
    matmul dot_S5000x64_S64x40_S5000x40_1_0_0_1_n_n none l r (constant (F := Ideal) S5000x40 .f32 0x00000000#32) (ix2 p j)
      = ∑ k : Fin 64, l (ix2 p k) * r (ix2 k j) :=
  Cert.LibMatmulRows.matmul_zero_apply dot_S5000x64_S64x40_S5000x40_1_0_0_1_n_n rfl rfl
    (fun i q => by
      unfold DotDims.lhsIdx
      rw [dif_neg (show ¬(0 : Fin S5000x64.rank) ∈ dot_S5000x64_S64x40_S5000x40_1_0_0_1_n_n.lhsBatch by decide),
        dif_pos (show (0 : Fin S5000x64.rank) ∈ dot_S5000x64_S64x40_S5000x40_1_0_0_1_n_n.lhsNonContracting by decide)]
      rfl)
    (fun i q => dot_S5000x64_S64x40_S5000x40_1_0_0_1_n_n.lhsIdx_val_of_single rfl i q)
    (fun i q => dot_S5000x64_S64x40_S5000x40_1_0_0_1_n_n.rhsIdx_val_of_single rfl i q)
    (fun i q => by
      unfold DotDims.rhsIdx
      rw [dif_neg (show ¬(1 : Fin S64x40.rank) ∈ dot_S5000x64_S64x40_S5000x40_1_0_0_1_n_n.rhsBatch by decide),
        dif_pos (show (1 : Fin S64x40.rank) ∈ dot_S5000x64_S64x40_S5000x40_1_0_0_1_n_n.rhsNonContracting by decide)]
      rfl)
    none l r p j

/-! ## The input projection -/

/-- Entry `(p, j)` of the input projection of a block: `max (∑ k, x[p,k]·W[k,j] + b[0,j]) 0`. -/
theorem inBlock_apply (v0 : Vec Ideal S5000x128 .f32) (v2 : Vec Ideal S128x64 .f32) (v5 : Vec Ideal S1x64 .f32)
    (p : Fin 5000) (j : Fin 64) :
    Gen.k0_pay1 (F := Ideal) v0 v2 v5 (ix2 p j)
      = max ((∑ k : Fin 128, v0 (ix2 p k) * v2 (ix2 k j)) + v5 (ix2 (0 : Fin 1) j)) (Ideal.ofBits .f32 0x00000000#32) := by
  unfold Gen.k0_pay1
  simp only [shapeCast_self]
  rw [maximumf_apply, addf_apply, inDot_apply, broadcastTo_1b_ab_apply]
  simp only [truncf_apply, broadcast_apply, Ideal.ofBits_def]

/-! ## A layer -/

/-- Entry `(p, j)` of the first layer's block: `max (∑ k, (c₈·agg[p,k] + c₁·x[p,k] + c₁·x₀[p,k])·W[k,j] − b[0,j]) 0 + b[0,j]`. -/
theorem layerBlock1_apply (v0 v4 v9 : Vec Ideal S5000x64 .f32) (v15 : Vec Ideal S64x64 .f32) (v19 : Vec Ideal S1x64 .f32)
    (p : Fin 5000) (j : Fin 64) :
    Gen.k1_pay1 (F := Ideal) v0 v4 v9 v15 v19 (ix2 p j)
      = max ((∑ k : Fin 64, ((Ideal.ofBits .f32 0x3F4CCCCD#32 * v0 (ix2 p k) + Ideal.ofBits .f32 0x3DCCCCCD#32 * v4 (ix2 p k))
          + Ideal.ofBits .f32 0x3DCCCCCD#32 * v9 (ix2 p k)) * v15 (ix2 k j)) - v19 (ix2 (0 : Fin 1) j))
        (Ideal.ofBits .f32 0x00000000#32) + v19 (ix2 (0 : Fin 1) j) := by
  unfold Gen.k1_pay1
  simp only [shapeCast_self]
  rw [addf_apply, maximumf_apply, subf_apply, layerDot_apply, broadcastTo_1b_ab_apply]
  simp only [truncf_apply, addf_apply, mulf_apply, broadcast_apply, Ideal.ofBits_def]

/-- The same entry for the second layer's block (the same computation on its own operands). -/
theorem layerBlock2_apply (v0 v4 v9 : Vec Ideal S5000x64 .f32) (v15 : Vec Ideal S64x64 .f32) (v19 : Vec Ideal S1x64 .f32)
    (p : Fin 5000) (j : Fin 64) :
    Gen.k2_pay1 (F := Ideal) v0 v4 v9 v15 v19 (ix2 p j)
      = max ((∑ k : Fin 64, ((Ideal.ofBits .f32 0x3F4CCCCD#32 * v0 (ix2 p k) + Ideal.ofBits .f32 0x3DCCCCCD#32 * v4 (ix2 p k))
          + Ideal.ofBits .f32 0x3DCCCCCD#32 * v9 (ix2 p k)) * v15 (ix2 k j)) - v19 (ix2 (0 : Fin 1) j))
        (Ideal.ofBits .f32 0x00000000#32) + v19 (ix2 (0 : Fin 1) j) := by
  unfold Gen.k2_pay1
  simp only [shapeCast_self]
  rw [addf_apply, maximumf_apply, subf_apply, layerDot_apply, broadcastTo_1b_ab_apply]
  simp only [truncf_apply, addf_apply, mulf_apply, broadcast_apply, Ideal.ofBits_def]

/-- The same entry for the third layer's block. -/
theorem layerBlock3_apply (v0 v4 v9 : Vec Ideal S5000x64 .f32) (v15 : Vec Ideal S64x64 .f32) (v19 : Vec Ideal S1x64 .f32)
    (p : Fin 5000) (j : Fin 64) :
    Gen.k3_pay1 (F := Ideal) v0 v4 v9 v15 v19 (ix2 p j)
      = max ((∑ k : Fin 64, ((Ideal.ofBits .f32 0x3F4CCCCD#32 * v0 (ix2 p k) + Ideal.ofBits .f32 0x3DCCCCCD#32 * v4 (ix2 p k))
          + Ideal.ofBits .f32 0x3DCCCCCD#32 * v9 (ix2 p k)) * v15 (ix2 k j)) - v19 (ix2 (0 : Fin 1) j))
        (Ideal.ofBits .f32 0x00000000#32) + v19 (ix2 (0 : Fin 1) j) := by
  unfold Gen.k3_pay1
  simp only [shapeCast_self]
  rw [addf_apply, maximumf_apply, subf_apply, layerDot_apply, broadcastTo_1b_ab_apply]
  simp only [truncf_apply, addf_apply, mulf_apply, broadcast_apply, Ideal.ofBits_def]

/-- The same entry for the fourth layer's block. -/
theorem layerBlock4_apply (v0 v4 v9 : Vec Ideal S5000x64 .f32) (v15 : Vec Ideal S64x64 .f32) (v19 : Vec Ideal S1x64 .f32)
    (p : Fin 5000) (j : Fin 64) :
    Gen.k4_pay1 (F := Ideal) v0 v4 v9 v15 v19 (ix2 p j)
      = max ((∑ k : Fin 64, ((Ideal.ofBits .f32 0x3F4CCCCD#32 * v0 (ix2 p k) + Ideal.ofBits .f32 0x3DCCCCCD#32 * v4 (ix2 p k))
          + Ideal.ofBits .f32 0x3DCCCCCD#32 * v9 (ix2 p k)) * v15 (ix2 k j)) - v19 (ix2 (0 : Fin 1) j))
        (Ideal.ofBits .f32 0x00000000#32) + v19 (ix2 (0 : Fin 1) j) := by
  unfold Gen.k4_pay1
  simp only [shapeCast_self]
  rw [addf_apply, maximumf_apply, subf_apply, layerDot_apply, broadcastTo_1b_ab_apply]
  simp only [truncf_apply, addf_apply, mulf_apply, broadcast_apply, Ideal.ofBits_def]

/-! ## The output projection -/

/-- Entry `(p, j)` of the output projection of a block: `∑ k, x[p,k]·W[k,j] + b[0,j]`. -/
theorem outBlock_apply (v0 : Vec Ideal S5000x64 .f32) (v3 : Vec Ideal S64x40 .f32) (v6 : Vec Ideal S1x40 .f32)
    (p : Fin 5000) (j : Fin 40) :
    Gen.k5_pay1 (F := Ideal) v0 v3 v6 (ix2 p j)
      = (∑ k : Fin 64, v0 (ix2 p k) * v3 (ix2 k j)) + v6 (ix2 (0 : Fin 1) j) := by
  unfold Gen.k5_pay1
  simp only [shapeCast_self]
  rw [addf_apply, outDot_apply, broadcastTo_1b_ab_apply]
  simp only [truncf_apply]

end Cert.KernelIdeal.BlockRows

end
-- ==== Proof.KI_Final0.lean ====
/-
  Pipeline 0's output array after the run, at the exact values: every row r of it is max(x[r,·]·W + b, 0), the rows
  delivered in twenty blocks of 5000 that tile the array.
-/
import proofs.«134498_j40424232190561_2_alg».proof.Proof.Gen.KernelIdeal.Launch
import proofs.«134498_j40424232190561_2_alg».proof.Proof.Gen.KernelIdeal.Skeleton
import proofs.«134498_j40424232190561_2_alg».proof.Proof.Gen.KernelIdeal.Points
import proofs.«134498_j40424232190561_2_alg».proof.Proof.KI_Region0
import proofs.«134498_j40424232190561_2_alg».proof.Proof.BlockRows
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

section Final0

variable (V : (c : Dev nD) → (b : Ref sig .tc) → Buf (Elt Ideal) ((c : Thread nD τ).loc b))

theorem zero2 : (![0, 0] : Fin 2 → Nat) = fun _ => 0 := funext fun a => by fin_cases a <;> rfl

/-- Row by row: entry (r, j) of the input projection of x by the weight W and the bias row b, cut below at zero. -/
def inRows (X : S100000x128.Idx → Elt Ideal .f32) (W : S128x64.Idx → Elt Ideal .f32) (b : S1x64.Idx → Elt Ideal .f32) :
    S100000x64.Idx → Elt Ideal .f32 := fun i =>
  max ((∑ k : Fin 128, X (ix2 (i 0) k) * W (ix2 k (i 1))) + b (ix2 (0 : Fin 1) (i 1))) (Ideal.ofBits .f32 0x00000000#32)

/-- The index maps over the grid: the row-block of x and of the output is the grid point's, on their one column-block; the weight
    and the bias are their one block at every point. -/
theorem idx0 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- An entry of the block payload is the entry of the rows, when the blocks' entries it reads are the arrays' entries of that row. -/
theorem rows_of_blocks0 (X : S100000x128.Idx → Elt Ideal .f32) (W : S128x64.Idx → Elt Ideal .f32) (b : S1x64.Idx → Elt Ideal .f32)
    (x0 : Vec Ideal S5000x128 .f32) (x1 : Vec Ideal S128x64 .f32) (x2 : Vec Ideal S1x64 .f32) (r : Fin 100000) (p : Fin 5000) (q : Fin 64)
    (h0 : ∀ k : Fin 128, x0 (ix2 p k) = X (ix2 r k)) (h1 : ∀ k : Fin 128, x1 (ix2 k q) = W (ix2 k q))
    (h2 : x2 (ix2 (0 : Fin 1) q) = b (ix2 (0 : Fin 1) q)) :
    Gen.k0_pay1 (F := Ideal) x0 x1 x2 (ix2 p q) = inRows X W b (ix2 r q) := by
  rw [BlockRows.inBlock_apply]
  unfold inRows
  simp only [h0, h1, h2]

/-- What grid point `t` writes back is block `t` of the rows. -/
theorem flushed0 (c : Dev nD) (t : Fin cfg0.N) :
    (dat0 V c).flushed 3 t = ((cfg0.win 3).blk t).view.read (Elt Ideal) (inRows (V c main_arg0) (V c main_arg2) (V c main_v34)) := by
  show (cfg0.win 3).cut (grid0.coords t) ((dat0 V c).after 3 t) = _
  rw [after0_3]
  unfold out0
  rw [View.canon_unit_zero zero2]
  simp only [View.ld_unit_zero (S := S5000x128) zero2, View.ld_unit_zero (S := S128x64) zero2, View.ld_unit_zero (S := S1x64) zero2]
  obtain ⟨e0, e1, e2, e3, e4, e5, e6, e7⟩ := idx0 t
  funext j
  obtain ⟨p, q, rfl⟩ : ∃ (p : Fin 5000) (q : Fin 64), j = ix2 p q := ⟨j 0, j 1, eq_ix2 j⟩
  have hq : (((cfg0.win 3).blk t).view.emb (ix2 p q)) 1 = q :=
    Fin.ext (by show win0_3.index t (1 : Fin 2) * 64 + 1 * q.val = q.val; omega)
  have hemb : ((cfg0.win 3).blk t).view.emb (ix2 p q) = ix2 ((((cfg0.win 3).blk t).view.emb (ix2 p q)) 0) q :=
    (eq_ix2 _).trans (congrArg (fun z => ix2 ((((cfg0.win 3).blk t).view.emb (ix2 p q)) 0) z) hq)
  have h0 : ∀ k : Fin 128, ((cfg0.win 0).blk t).view.emb (ix2 p k) = ix2 ((((cfg0.win 3).blk t).view.emb (ix2 p q)) 0) k := fun k => by
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have h1 : ∀ k : Fin 128, ((cfg0.win 1).blk t).view.emb (ix2 k q) = ix2 k q := fun k => by
    funext a; apply Fin.ext
    match a with
    | ⟨0, _⟩ => show win0_1.index t (0 : Fin 2) * 128 + 1 * k.val = k.val; omega
    | ⟨1, _⟩ => show win0_1.index t (1 : Fin 2) * 64 + 1 * q.val = q.val; omega
  have h2 : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 64 + 1 * q.val = q.val; omega
  show _ = inRows (V c main_arg0) (V c main_arg2) (V c main_v34) (((cfg0.win 3).blk t).view.emb (ix2 p q))
  rw [hemb]
  exact rows_of_blocks0 _ _ _ _ _ _ _ p q (fun k => congrArg (V c main_arg0) (h0 k)) (fun k => congrArg (V c main_arg2) (h1 k))
    (congrArg (V c main_v34) h2)

/-- An index of the output array is in point `t`'s block iff its row is among the block's 5000. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v35).slice (win0_3.rect t)).set ↔ _
  rw [View.set_slice_whole, Rect.mem_set_unit]
  exact Iff.rfl

/-- The twenty blocks tile the array: row r lies in block r / 5000. -/
theorem tiles0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  refine ⟨⟨(i 0).val / 5000, by rw [show cfg0.N = 20 from N_0]; omega⟩, flush0_3 _, ?_⟩
  rw [mem_blk0]
  obtain ⟨-, -, -, -, -, -, e6, e7⟩ := idx0 ⟨(i 0).val / 5000, by rw [show cfg0.N = 20 from N_0]; omega⟩
  intro a
  match a with
  | ⟨0, _⟩ => show win0_3.index _ (0 : Fin 2) * 5000 ≤ (i 0).val ∧ (i 0).val < win0_3.index _ (0 : Fin 2) * 5000 + 5000; rw [e6]; show (i 0).val / 5000 * 5000 ≤ _ ∧ _ < (i 0).val / 5000 * 5000 + 5000; omega
  | ⟨1, _⟩ => show win0_3.index _ (1 : Fin 2) * 64 ≤ (i 1).val ∧ (i 1).val < win0_3.index _ (1 : Fin 2) * 64 + 64; rw [e7]; omega

/-- THE OUTPUT ARRAY of pipeline 0 after its last point: the rows of the projection. -/
theorem final0 (c : Dev nD) : (dat0 V c).arrAt 3 cfg0.N = inRows (V c main_arg0) (V c main_arg2) (V c main_v34) :=
  (dat0 V c).arrAt_eq_of_cover 3 _ (fun t _ => flushed0 V c t) tiles0

end Final0

end Cert.KernelIdeal.Pipe

end
-- ==== Proof.KI_Final1.lean ====
/-
  Pipeline 1's output array after the run, at the exact values: every row r of it is the first propagation layer of row r of
  its three row operands, max((0.8·agg + 0.1·x + 0.1·x₀)[r,·]·W − b, 0) + b with the two coefficients kept as their literal words, the
  rows delivered in twenty blocks of 5000 that tile the array.
-/
import proofs.«134498_j40424232190561_2_alg».proof.Proof.Gen.KernelIdeal.Launch
import proofs.«134498_j40424232190561_2_alg».proof.Proof.Gen.KernelIdeal.Skeleton
import proofs.«134498_j40424232190561_2_alg».proof.Proof.Gen.KernelIdeal.Points
import proofs.«134498_j40424232190561_2_alg».proof.Proof.KI_Region1
import proofs.«134498_j40424232190561_2_alg».proof.Proof.BlockRows
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

section Final1

variable (V : (c : Dev nD) → (b : Ref sig .tc) → Buf (Elt Ideal) ((c : Thread nD τ).loc b))

private theorem origin2 : (![0, 0] : Fin 2 → Nat) = fun _ => 0 := funext fun a => by fin_cases a <;> rfl

/-- Row by row: entry (r, j) of one propagation layer — the mix `c₈·agg + c₁·x + c₁·x₀` of row r (the two literal words kept as
    words) times column j of the weight W, minus the bias row's entry, cut below at zero, plus the bias row's entry. -/
def layerRows (agg x x0 : S100000x64.Idx → Elt Ideal .f32) (W : S64x64.Idx → Elt Ideal .f32) (b : S1x64.Idx → Elt Ideal .f32) :
    S100000x64.Idx → Elt Ideal .f32 := fun i =>
  max ((∑ k : Fin 64, ((Ideal.ofBits .f32 0x3F4CCCCD#32 * agg (ix2 (i 0) k) + Ideal.ofBits .f32 0x3DCCCCCD#32 * x (ix2 (i 0) k))
      + Ideal.ofBits .f32 0x3DCCCCCD#32 * x0 (ix2 (i 0) k)) * W (ix2 k (i 1))) - b (ix2 (0 : Fin 1) (i 1)))
    (Ideal.ofBits .f32 0x00000000#32) + b (ix2 (0 : Fin 1) (i 1))

/-- An entry of layer 1's block payload is the entry of the rows, when the blocks' entries it reads are the arrays' entries of that row. -/
theorem rows_of_blocks1 (agg x x0 : S100000x64.Idx → Elt Ideal .f32) (W : S64x64.Idx → Elt Ideal .f32) (b : S1x64.Idx → Elt Ideal .f32)
    (y0 y1 y2 : Vec Ideal S5000x64 .f32) (y3 : Vec Ideal S64x64 .f32) (y4 : Vec Ideal S1x64 .f32) (r : Fin 100000) (p : Fin 5000) (q : Fin 64)
    (h0 : ∀ k : Fin 64, y0 (ix2 p k) = agg (ix2 r k)) (h1 : ∀ k : Fin 64, y1 (ix2 p k) = x (ix2 r k))
    (h2 : ∀ k : Fin 64, y2 (ix2 p k) = x0 (ix2 r k)) (h3 : ∀ k : Fin 64, y3 (ix2 k q) = W (ix2 k q))
    (h4 : y4 (ix2 (0 : Fin 1) q) = b (ix2 (0 : Fin 1) q)) :
    Gen.k1_pay1 (F := Ideal) y0 y1 y2 y3 y4 (ix2 p q) = layerRows agg x x0 W b (ix2 r q) := by
  rw [BlockRows.layerBlock1_apply]
  unfold layerRows
  simp only [h0, h1, h2, h3, h4]

/-- An entry of layer 2's block payload is the entry of the rows, when the blocks' entries it reads are the arrays' entries of that row. -/
theorem rows_of_blocks2 (agg x x0 : S100000x64.Idx → Elt Ideal .f32) (W : S64x64.Idx → Elt Ideal .f32) (b : S1x64.Idx → Elt Ideal .f32)
    (y0 y1 y2 : Vec Ideal S5000x64 .f32) (y3 : Vec Ideal S64x64 .f32) (y4 : Vec Ideal S1x64 .f32) (r : Fin 100000) (p : Fin 5000) (q : Fin 64)
    (h0 : ∀ k : Fin 64, y0 (ix2 p k) = agg (ix2 r k)) (h1 : ∀ k : Fin 64, y1 (ix2 p k) = x (ix2 r k))
    (h2 : ∀ k : Fin 64, y2 (ix2 p k) = x0 (ix2 r k)) (h3 : ∀ k : Fin 64, y3 (ix2 k q) = W (ix2 k q))
    (h4 : y4 (ix2 (0 : Fin 1) q) = b (ix2 (0 : Fin 1) q)) :
    Gen.k2_pay1 (F := Ideal) y0 y1 y2 y3 y4 (ix2 p q) = layerRows agg x x0 W b (ix2 r q) := by
  rw [BlockRows.layerBlock2_apply]
  unfold layerRows
  simp only [h0, h1, h2, h3, h4]

/-- An entry of layer 3's block payload is the entry of the rows, when the blocks' entries it reads are the arrays' entries of that row. -/
theorem rows_of_blocks3 (agg x x0 : S100000x64.Idx → Elt Ideal .f32) (W : S64x64.Idx → Elt Ideal .f32) (b : S1x64.Idx → Elt Ideal .f32)
    (y0 y1 y2 : Vec Ideal S5000x64 .f32) (y3 : Vec Ideal S64x64 .f32) (y4 : Vec Ideal S1x64 .f32) (r : Fin 100000) (p : Fin 5000) (q : Fin 64)
    (h0 : ∀ k : Fin 64, y0 (ix2 p k) = agg (ix2 r k)) (h1 : ∀ k : Fin 64, y1 (ix2 p k) = x (ix2 r k))
    (h2 : ∀ k : Fin 64, y2 (ix2 p k) = x0 (ix2 r k)) (h3 : ∀ k : Fin 64, y3 (ix2 k q) = W (ix2 k q))
    (h4 : y4 (ix2 (0 : Fin 1) q) = b (ix2 (0 : Fin 1) q)) :
    Gen.k3_pay1 (F := Ideal) y0 y1 y2 y3 y4 (ix2 p q) = layerRows agg x x0 W b (ix2 r q) := by
  rw [BlockRows.layerBlock3_apply]
  unfold layerRows
  simp only [h0, h1, h2, h3, h4]

/-- An entry of layer 4's block payload is the entry of the rows, when the blocks' entries it reads are the arrays' entries of that row. -/
theorem rows_of_blocks4 (agg x x0 : S100000x64.Idx → Elt Ideal .f32) (W : S64x64.Idx → Elt Ideal .f32) (b : S1x64.Idx → Elt Ideal .f32)
    (y0 y1 y2 : Vec Ideal S5000x64 .f32) (y3 : Vec Ideal S64x64 .f32) (y4 : Vec Ideal S1x64 .f32) (r : Fin 100000) (p : Fin 5000) (q : Fin 64)
    (h0 : ∀ k : Fin 64, y0 (ix2 p k) = agg (ix2 r k)) (h1 : ∀ k : Fin 64, y1 (ix2 p k) = x (ix2 r k))
    (h2 : ∀ k : Fin 64, y2 (ix2 p k) = x0 (ix2 r k)) (h3 : ∀ k : Fin 64, y3 (ix2 k q) = W (ix2 k q))
    (h4 : y4 (ix2 (0 : Fin 1) q) = b (ix2 (0 : Fin 1) q)) :
    Gen.k4_pay1 (F := Ideal) y0 y1 y2 y3 y4 (ix2 p q) = layerRows agg x x0 W b (ix2 r q) := by
  rw [BlockRows.layerBlock4_apply]
  unfold layerRows
  simp only [h0, h1, h2, h3, h4]

/-- The index maps over the grid: the row-block of the three row operands and of the output is the grid point's, on their one
    column-block; the weight and the bias row are their one block at every point. -/
theorem idx1 : ∀ t : Fin cfg1.N, win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What grid point `t` writes back is block `t` of the rows. -/
theorem flushed1 (c : Dev nD) (t : Fin cfg1.N) :
    (dat1 V c).flushed 5 t = ((cfg1.win 5).blk t).view.read (Elt Ideal) (layerRows (V c main_v48) (V c main_v35) (V c main_v35) (V c main_v50) (V c main_v53)) := by
  show (cfg1.win 5).cut (grid1.coords t) ((dat1 V c).after 5 t) = _
  rw [after1_5]
  unfold out1
  rw [View.canon_unit_zero origin2]
  simp only [View.ld_unit_zero (S := S5000x64) origin2, View.ld_unit_zero (S := S64x64) origin2, View.ld_unit_zero (S := S1x64) origin2]
  obtain ⟨e0, e1, e2, e3, e4, e5, e6, e7, e8, e9, e10, e11⟩ := idx1 t
  funext j
  obtain ⟨p, q, rfl⟩ : ∃ (p : Fin 5000) (q : Fin 64), j = ix2 p q := ⟨j 0, j 1, eq_ix2 j⟩
  have hq : (((cfg1.win 5).blk t).view.emb (ix2 p q)) 1 = q :=
    Fin.ext (by show win1_5.index t (1 : Fin 2) * 64 + 1 * q.val = q.val; omega)
  have hemb : ((cfg1.win 5).blk t).view.emb (ix2 p q) = ix2 ((((cfg1.win 5).blk t).view.emb (ix2 p q)) 0) q :=
    (eq_ix2 _).trans (congrArg (fun z => ix2 ((((cfg1.win 5).blk t).view.emb (ix2 p q)) 0) z) hq)
  have h0 : ∀ k : Fin 64, ((cfg1.win 0).blk t).view.emb (ix2 p k) = ix2 ((((cfg1.win 5).blk t).view.emb (ix2 p q)) 0) k := fun k => by
    funext a; apply Fin.ext
    match a with
    | ⟨0, _⟩ => show win1_0.index t (0 : Fin 2) * 5000 + 1 * p.val = win1_5.index t (0 : Fin 2) * 5000 + 1 * p.val; omega
    | ⟨1, _⟩ => show win1_0.index t (1 : Fin 2) * 64 + 1 * k.val = k.val; omega
  have h1 : ∀ k : Fin 64, ((cfg1.win 1).blk t).view.emb (ix2 p k) = ix2 ((((cfg1.win 5).blk t).view.emb (ix2 p q)) 0) k := fun k => by
    funext a; apply Fin.ext
    match a with
    | ⟨0, _⟩ => show win1_1.index t (0 : Fin 2) * 5000 + 1 * p.val = win1_5.index t (0 : Fin 2) * 5000 + 1 * p.val; omega
    | ⟨1, _⟩ => show win1_1.index t (1 : Fin 2) * 64 + 1 * k.val = k.val; omega
  have h2 : ∀ k : Fin 64, ((cfg1.win 2).blk t).view.emb (ix2 p k) = ix2 ((((cfg1.win 5).blk t).view.emb (ix2 p q)) 0) k := fun k => by
    funext a; apply Fin.ext
    match a with
    | ⟨0, _⟩ => show win1_2.index t (0 : Fin 2) * 5000 + 1 * p.val = win1_5.index t (0 : Fin 2) * 5000 + 1 * p.val; omega
    | ⟨1, _⟩ => show win1_2.index t (1 : Fin 2) * 64 + 1 * k.val = k.val; omega
  have h3 : ∀ k : Fin 64, ((cfg1.win 3).blk t).view.emb (ix2 k q) = ix2 k q := fun k => by
    funext a; apply Fin.ext
    match a with
    | ⟨0, _⟩ => show win1_3.index t (0 : Fin 2) * 64 + 1 * k.val = k.val; omega
    | ⟨1, _⟩ => show win1_3.index t (1 : Fin 2) * 64 + 1 * q.val = q.val; omega
  have h4 : ((cfg1.win 4).blk t).view.emb (ix2 (0 : Fin 1) q) = ix2 (0 : Fin 1) q := by
    funext a; apply Fin.ext
    match a with
    | ⟨0, _⟩ => show win1_4.index t (0 : Fin 2) * 1 + 1 * 0 = 0; omega
    | ⟨1, _⟩ => show win1_4.index t (1 : Fin 2) * 64 + 1 * q.val = q.val; omega
  show _ = layerRows (V c main_v48) (V c main_v35) (V c main_v35) (V c main_v50) (V c main_v53) (((cfg1.win 5).blk t).view.emb (ix2 p q))
  rw [hemb]
  exact rows_of_blocks1 _ _ _ _ _ _ _ _ _ _ _ p q (fun k => congrArg (V c main_v48) (h0 k)) (fun k => congrArg (V c main_v35) (h1 k))
    (fun k => congrArg (V c main_v35) (h2 k)) (fun k => congrArg (V c main_v50) (h3 k)) (congrArg (V c main_v53) h4)

/-- An index of the output array is in point `t`'s block iff its row is among the block's 5000. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v54).slice (win1_5.rect t)).set ↔ _
  rw [View.set_slice_whole, Rect.mem_set_unit]
  exact Iff.rfl

/-- The twenty blocks tile the array: row r lies in block r / 5000. -/
theorem tiles1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  refine ⟨⟨(i 0).val / 5000, by rw [show cfg1.N = 20 from N_1]; omega⟩, flush1_5 _, ?_⟩
  rw [mem_blk1]
  obtain ⟨-, -, -, -, -, -, -, -, -, -, e10, e11⟩ := idx1 ⟨(i 0).val / 5000, by rw [show cfg1.N = 20 from N_1]; omega⟩
  intro a
  match a with
  | ⟨0, _⟩ => show win1_5.index _ (0 : Fin 2) * 5000 ≤ (i 0).val ∧ (i 0).val < win1_5.index _ (0 : Fin 2) * 5000 + 5000; rw [e10]; show (i 0).val / 5000 * 5000 ≤ _ ∧ _ < (i 0).val / 5000 * 5000 + 5000; omega
  | ⟨1, _⟩ => show win1_5.index _ (1 : Fin 2) * 64 ≤ (i 1).val ∧ (i 1).val < win1_5.index _ (1 : Fin 2) * 64 + 64; rw [e11]; omega

/-- THE OUTPUT ARRAY of pipeline 1 after its last point: the rows of the layer. -/
theorem final1 (c : Dev nD) : (dat1 V c).arrAt 5 cfg1.N = layerRows (V c main_v48) (V c main_v35) (V c main_v35) (V c main_v50) (V c main_v53) :=
  (dat1 V c).arrAt_eq_of_cover 5 _ (fun t _ => flushed1 V c t) tiles1

end Final1

end Cert.KernelIdeal.Pipe

end
-- ==== Proof.KI_Final5.lean ====
/-
  Pipeline 5's output array after the run, at the exact values: every row r of it is x[r,·]·W + b, the output projection of row r, the rows
  delivered in twenty blocks of 5000 that tile the array.
-/
import proofs.«134498_j40424232190561_2_alg».proof.Proof.Gen.KernelIdeal.Launch
import proofs.«134498_j40424232190561_2_alg».proof.Proof.Gen.KernelIdeal.Skeleton
import proofs.«134498_j40424232190561_2_alg».proof.Proof.Gen.KernelIdeal.Points
import proofs.«134498_j40424232190561_2_alg».proof.Proof.KI_Region5
import proofs.«134498_j40424232190561_2_alg».proof.Proof.BlockRows
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

section Final5

variable (V : (c : Dev nD) → (b : Ref sig .tc) → Buf (Elt Ideal) ((c : Thread nD τ).loc b))

private theorem origin2 : (![0, 0] : Fin 2 → Nat) = fun _ => 0 := funext fun a => by fin_cases a <;> rfl

/-- Row by row: entry (r, j) of the output projection of x by the weight W and the bias row b. -/
def outRows (X : S100000x64.Idx → Elt Ideal .f32) (W : S64x40.Idx → Elt Ideal .f32) (b : S1x40.Idx → Elt Ideal .f32) :
    S100000x40.Idx → Elt Ideal .f32 := fun i =>
  (∑ k : Fin 64, X (ix2 (i 0) k) * W (ix2 k (i 1))) + b (ix2 (0 : Fin 1) (i 1))

/-- The index maps over the grid: the row-block of x and of the output is the grid point's, on their one column-block; the weight
    and the bias row are their one block at every point. -/
theorem idx5 : ∀ t : Fin cfg5.N, win5_0.index t (0 : Fin 2) = win5_3.index t (0 : Fin 2) ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- An entry of the block payload is the entry of the rows, when the blocks' entries it reads are the arrays' entries of that row. -/
theorem rows_of_blocks5 (X : S100000x64.Idx → Elt Ideal .f32) (W : S64x40.Idx → Elt Ideal .f32) (b : S1x40.Idx → Elt Ideal .f32)
    (x0 : Vec Ideal S5000x64 .f32) (x1 : Vec Ideal S64x40 .f32) (x2 : Vec Ideal S1x40 .f32) (r : Fin 100000) (p : Fin 5000) (q : Fin 40)
    (h0 : ∀ k : Fin 64, x0 (ix2 p k) = X (ix2 r k)) (h1 : ∀ k : Fin 64, x1 (ix2 k q) = W (ix2 k q))
    (h2 : x2 (ix2 (0 : Fin 1) q) = b (ix2 (0 : Fin 1) q)) :
    Gen.k5_pay1 (F := Ideal) x0 x1 x2 (ix2 p q) = outRows X W b (ix2 r q) := by
  rw [BlockRows.outBlock_apply]
  unfold outRows
  simp only [h0, h1, h2]

/-- What grid point `t` writes back is block `t` of the rows. -/
theorem flushed5 (c : Dev nD) (t : Fin cfg5.N) :
    (dat5 V c).flushed 3 t = ((cfg5.win 3).blk t).view.read (Elt Ideal) (outRows (V c main_v111) (V c main_arg6) (V c main_v112)) := by
  show (cfg5.win 3).cut (grid5.coords t) ((dat5 V c).after 3 t) = _
  rw [after5_3]
  unfold out5
  rw [View.canon_unit_zero origin2]
  simp only [View.ld_unit_zero (S := S5000x64) origin2, View.ld_unit_zero (S := S64x40) origin2, View.ld_unit_zero (S := S1x40) origin2]
  obtain ⟨e0, e1, e2, e3, e4, e5, e6, e7⟩ := idx5 t
  funext j
  obtain ⟨p, q, rfl⟩ : ∃ (p : Fin 5000) (q : Fin 40), j = ix2 p q := ⟨j 0, j 1, eq_ix2 j⟩
  have hq : (((cfg5.win 3).blk t).view.emb (ix2 p q)) 1 = q :=
    Fin.ext (by show win5_3.index t (1 : Fin 2) * 40 + 1 * q.val = q.val; omega)
  have hemb : ((cfg5.win 3).blk t).view.emb (ix2 p q) = ix2 ((((cfg5.win 3).blk t).view.emb (ix2 p q)) 0) q :=
    (eq_ix2 _).trans (congrArg (fun z => ix2 ((((cfg5.win 3).blk t).view.emb (ix2 p q)) 0) z) hq)
  have h0 : ∀ k : Fin 64, ((cfg5.win 0).blk t).view.emb (ix2 p k) = ix2 ((((cfg5.win 3).blk t).view.emb (ix2 p q)) 0) k := fun k => by
    funext a; apply Fin.ext
    match a with
    | ⟨0, _⟩ => show win5_0.index t (0 : Fin 2) * 5000 + 1 * p.val = win5_3.index t (0 : Fin 2) * 5000 + 1 * p.val; omega
    | ⟨1, _⟩ => show win5_0.index t (1 : Fin 2) * 64 + 1 * k.val = k.val; omega
  have h1 : ∀ k : Fin 64, ((cfg5.win 1).blk t).view.emb (ix2 k q) = ix2 k q := fun k => by
    funext a; apply Fin.ext
    match a with
    | ⟨0, _⟩ => show win5_1.index t (0 : Fin 2) * 64 + 1 * k.val = k.val; omega
    | ⟨1, _⟩ => show win5_1.index t (1 : Fin 2) * 40 + 1 * q.val = q.val; omega
  have h2 : ((cfg5.win 2).blk t).view.emb (ix2 (0 : Fin 1) q) = ix2 (0 : Fin 1) q := by
    funext a; apply Fin.ext
    match a with
    | ⟨0, _⟩ => show win5_2.index t (0 : Fin 2) * 1 + 1 * 0 = 0; omega
    | ⟨1, _⟩ => show win5_2.index t (1 : Fin 2) * 40 + 1 * q.val = q.val; omega
  show _ = outRows (V c main_v111) (V c main_arg6) (V c main_v112) (((cfg5.win 3).blk t).view.emb (ix2 p q))
  rw [hemb]
  exact rows_of_blocks5 _ _ _ _ _ _ _ p q (fun k => congrArg (V c main_v111) (h0 k)) (fun k => congrArg (V c main_arg6) (h1 k))
    (congrArg (V c main_v112) h2)

/-- An index of the output array is in point `t`'s block iff its row is among the block's 5000. -/
theorem mem_blk5 (t : Fin cfg5.N) (i : S100000x40.Idx) :
    i ∈ ((cfg5.win 3).blk t).view.set ↔ ∀ a : Fin 2, win5_3.index t a * S5000x40.size a ≤ (i a).val ∧ (i a).val < win5_3.index t a * S5000x40.size a + S5000x40.size a := by
  show i ∈ ((View.whole main_v113).slice (win5_3.rect t)).set ↔ _
  rw [View.set_slice_whole, Rect.mem_set_unit]
  exact Iff.rfl

/-- The twenty blocks tile the array: row r lies in block r / 5000. -/
theorem tiles5 (i : S100000x40.Idx) : ∃ t : Fin cfg5.N, (cfg5.win 3).flush t = true ∧ i ∈ ((cfg5.win 3).blk t).view.set := by
  have hi0 : (i 0).val < 100000 := (i 0).isLt
  have hi1 : (i 1).val < 40 := (i 1).isLt
  refine ⟨⟨(i 0).val / 5000, by rw [show cfg5.N = 20 from N_5]; omega⟩, flush5_3 _, ?_⟩
  rw [mem_blk5]
  obtain ⟨-, -, -, -, -, -, e6, e7⟩ := idx5 ⟨(i 0).val / 5000, by rw [show cfg5.N = 20 from N_5]; omega⟩
  intro a
  match a with
  | ⟨0, _⟩ => show win5_3.index _ (0 : Fin 2) * 5000 ≤ (i 0).val ∧ (i 0).val < win5_3.index _ (0 : Fin 2) * 5000 + 5000; rw [e6]; show (i 0).val / 5000 * 5000 ≤ _ ∧ _ < (i 0).val / 5000 * 5000 + 5000; omega
  | ⟨1, _⟩ => show win5_3.index _ (1 : Fin 2) * 40 ≤ (i 1).val ∧ (i 1).val < win5_3.index _ (1 : Fin 2) * 40 + 40; rw [e7]; omega

/-- THE OUTPUT ARRAY of pipeline 5 after its last point: the rows of the output projection. -/
theorem final5 (c : Dev nD) : (dat5 V c).arrAt 3 cfg5.N = outRows (V c main_v111) (V c main_arg6) (V c main_v112) :=
  (dat5 V c).arrAt_eq_of_cover 3 _ (fun t _ => flushed5 V c t) tiles5

end Final5

end Cert.KernelIdeal.Pipe

end
-- ==== Proof.KI_Stages.lean ====
/-
  The kernel's forward pass at the exact values as a composition of named stages, each a function of the eight argument arrays:
  the edge lists with their self-loops, the normalisation weights, one propagation, the per-layer weight and bias slices, and the
  state after the input projection, after each of the four layers, and the result (the rows the pipelines deliver).
-/
import proofs.«134498_j40424232190561_2_alg».proof.Proof.Gen.KernelIdeal.Launch
import proofs.«134498_j40424232190561_2_alg».proof.Proof.Gen.KernelIdeal.Skeleton
import proofs.«134498_j40424232190561_2_alg».proof.Proof.Gen.KernelIdeal.Points
import proofs.«134498_j40424232190561_2_alg».proof.Proof.KI_Final0
import proofs.«134498_j40424232190561_2_alg».proof.Proof.KI_Final1
import proofs.«134498_j40424232190561_2_alg».proof.Proof.KI_Final5
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

section Stages

/-- The source node of every edge, the N self-loops appended. -/
def rowK (a1 : IVec S2x1600000 32) : IVec S1700000 32 := (concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0)
/-- The target node of every edge, the N self-loops appended. -/
def colK (a1 : IVec S2x1600000 32) : IVec S1700000 32 := (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0)
/-- The edge weights d(source)^(-1/2) · d(target)^(-1/2), d the in-degree counted with the self-loop; the power is taken of the degree where it
    is positive and of one elsewhere, and discarded there. -/
def nrmK (a1 : IVec S2x1600000 32) : FVec Ideal S1700000 .f32 := (mulf (Host.gather gather_S100000_S1700000x1_S1700000_n_0_n_n_0_1_1 (select (cmpf (F := Ideal) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (colK a1)) (broadcastInDim S1700000 ![] bcast_S_S1700000 (constant S_ .f32 0x3F800000#32))) (broadcastInDim S100000 ![] bcast_S_S100000 (constant S_ .f32 0x00000000#32))) (Host.powf (select (cmpf (F := Ideal) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (colK a1)) (broadcastInDim S1700000 ![] bcast_S_S1700000 (constant S_ .f32 0x3F800000#32))) (broadcastInDim S100000 ![] bcast_S_S100000 (constant S_ .f32 0x00000000#32))) (Host.scatterAdd scatter_S100000_S1700000x1_S1700000_n_0_0_1 (broadcastInDim S100000 ![] bcast_S_S100000 (constant S_ .f32 0x00000000#32)) (broadcastInDim S1700000x1 ![0] bcast_S1700000_S1700000x1_0 (colK a1)) (broadcastInDim S1700000 ![] bcast_S_S1700000 (constant S_ .f32 0x3F800000#32))) (broadcastInDim S100000 ![] bcast_S_S100000 (id (constant S_ .f32 0x3F800000#32)))) (broadcastInDim S100000 ![] bcast_S_S100000 (constant S_ .f32 0xBF000000#32))) (broadcastInDim S100000 ![] bcast_S_S100000 (id (constant S_ .f32 0x00000000#32)))) (broadcastInDim S1700000x1 ![0] bcast_S1700000_S1700000x1_0 (select (cmpi .slt (rowK a1) (broadcastInDim S1700000 ![] bcast_S_S1700000 (constantI S_ 32 0#32))) (addi (rowK a1) (broadcastInDim S1700000 ![] bcast_S_S1700000 (constantI S_ 32 100000#32))) (rowK a1)))) (Host.gather gather_S100000_S1700000x1_S1700000_n_0_n_n_0_1_1 (select (cmpf (F := Ideal) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (colK a1)) (broadcastInDim S1700000 ![] bcast_S_S1700000 (constant S_ .f32 0x3F800000#32))) (broadcastInDim S100000 ![] bcast_S_S100000 (constant S_ .f32 0x00000000#32))) (Host.powf (select (cmpf (F := Ideal) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (colK a1)) (broadcastInDim S1700000 ![] bcast_S_S1700000 (constant S_ .f32 0x3F800000#32))) (broadcastInDim S100000 ![] bcast_S_S100000 (constant S_ .f32 0x00000000#32))) (Host.scatterAdd scatter_S100000_S1700000x1_S1700000_n_0_0_1 (broadcastInDim S100000 ![] bcast_S_S100000 (constant S_ .f32 0x00000000#32)) (broadcastInDim S1700000x1 ![0] bcast_S1700000_S1700000x1_0 (colK a1)) (broadcastInDim S1700000 ![] bcast_S_S1700000 (constant S_ .f32 0x3F800000#32))) (broadcastInDim S100000 ![] bcast_S_S100000 (id (constant S_ .f32 0x3F800000#32)))) (broadcastInDim S100000 ![] bcast_S_S100000 (constant S_ .f32 0xBF000000#32))) (broadcastInDim S100000 ![] bcast_S_S100000 (id (constant S_ .f32 0x00000000#32)))) (broadcastInDim S1700000x1 ![0] bcast_S1700000_S1700000x1_0 (select (cmpi .slt (colK a1) (broadcastInDim S1700000 ![] bcast_S_S1700000 (constantI S_ 32 0#32))) (addi (colK a1) (broadcastInDim S1700000 ![] bcast_S_S1700000 (constantI S_ 32 100000#32))) (colK a1)))))
/-- One propagation of the state `x`: row `col e` of the result accumulates `nrm e` times row `row e` of `x`. -/
def aggK (x : FVec Ideal S100000x64 .f32) (row col : IVec S1700000 32) (nrm : FVec Ideal S1700000 .f32) : FVec Ideal S100000x64 .f32 :=
  (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 col) (mulf (Host.gather gather_S100000x64_S1700000x1_S1700000x64_1_0_n_n_0_1_164 x (broadcastInDim S1700000x1 ![0] bcast_S1700000_S1700000x1_0 (select (cmpi .slt row (broadcastInDim S1700000 ![] bcast_S_S1700000 (constantI S_ 32 0#32))) (addi row (broadcastInDim S1700000 ![] bcast_S_S1700000 (constantI S_ 32 100000#32))) row))) (broadcastInDim S1700000x64 ![0, 1] bcast_S1700000x1_S1700000x64_0_1 (broadcastInDim S1700000x1 ![0] bcast_S1700000_S1700000x1_0 nrm))))
/-- Layer 1's weight matrix and bias vector. -/
def w0K (a4 : FVec Ideal S4x64x64 .f32) : FVec Ideal S64x64 .f32 := (shapeCast _ (extractStridedSlice S1x64x64 ![0, 0, 0] a4 slices_S4x64x64_S1x64x64_0_0_0) shapeCasts_S1x64x64_S64x64)
def b0K (a5 : FVec Ideal S4x64 .f32) : FVec Ideal S64 .f32 := (shapeCast _ (extractStridedSlice S1x64 ![0, 0] a5 slices_S4x64_S1x64_0_0) shapeCasts_S1x64_S64)
/-- Layer 2's weight matrix and bias vector. -/
def w1K (a4 : FVec Ideal S4x64x64 .f32) : FVec Ideal S64x64 .f32 := (shapeCast _ (extractStridedSlice S1x64x64 ![1, 0, 0] a4 slices_S4x64x64_S1x64x64_1_0_0) shapeCasts_S1x64x64_S64x64)
def b1K (a5 : FVec Ideal S4x64 .f32) : FVec Ideal S64 .f32 := (shapeCast _ (extractStridedSlice S1x64 ![1, 0] a5 slices_S4x64_S1x64_1_0) shapeCasts_S1x64_S64)
/-- Layer 3's weight matrix and bias vector. -/
def w2K (a4 : FVec Ideal S4x64x64 .f32) : FVec Ideal S64x64 .f32 := (shapeCast _ (extractStridedSlice S1x64x64 ![2, 0, 0] a4 slices_S4x64x64_S1x64x64_2_0_0) shapeCasts_S1x64x64_S64x64)
def b2K (a5 : FVec Ideal S4x64 .f32) : FVec Ideal S64 .f32 := (shapeCast _ (extractStridedSlice S1x64 ![2, 0] a5 slices_S4x64_S1x64_2_0) shapeCasts_S1x64_S64)
/-- Layer 4's weight matrix and bias vector. -/
def w3K (a4 : FVec Ideal S4x64x64 .f32) : FVec Ideal S64x64 .f32 := (shapeCast _ (extractStridedSlice S1x64x64 ![3, 0, 0] a4 slices_S4x64x64_S1x64x64_3_0_0) shapeCasts_S1x64x64_S64x64)
def b3K (a5 : FVec Ideal S4x64 .f32) : FVec Ideal S64 .f32 := (shapeCast _ (extractStridedSlice S1x64 ![3, 0] a5 slices_S4x64_S1x64_3_0) shapeCasts_S1x64_S64)

/-- Layer 1's bias re-laid as a row. -/
def r0K (a5 : FVec Ideal S4x64 .f32) : FVec Ideal S1x64 .f32 := (shapeCast _ (b0K a5) shapeCasts_S64_S1x64)
/-- Layer 2's bias re-laid as a row. -/
def r1K (a5 : FVec Ideal S4x64 .f32) : FVec Ideal S1x64 .f32 := (shapeCast _ (b1K a5) shapeCasts_S64_S1x64)
/-- Layer 3's bias re-laid as a row. -/
def r2K (a5 : FVec Ideal S4x64 .f32) : FVec Ideal S1x64 .f32 := (shapeCast _ (b2K a5) shapeCasts_S64_S1x64)
/-- Layer 4's bias re-laid as a row. -/
def r3K (a5 : FVec Ideal S4x64 .f32) : FVec Ideal S1x64 .f32 := (shapeCast _ (b3K a5) shapeCasts_S64_S1x64)
/-- The input and output biases re-laid as rows. -/
def rInK (a3 : FVec Ideal S64 .f32) : FVec Ideal S1x64 .f32 := (shapeCast _ a3 shapeCasts_S64_S1x64)
def rOutK (a7 : FVec Ideal S40 .f32) : FVec Ideal S1x40 .f32 := (shapeCast _ a7 shapeCasts_S40_S1x40)

/-- The state after the input projection, after each layer, and the result. -/
def x0K (a0 : FVec Ideal S100000x128 .f32) (a2 : FVec Ideal S128x64 .f32) (a3 : FVec Ideal S64 .f32) : FVec Ideal S100000x64 .f32 := inRows a0 a2 (rInK a3)
def x1K (a0 : FVec Ideal S100000x128 .f32) (a1 : IVec S2x1600000 32) (a2 : FVec Ideal S128x64 .f32) (a3 : FVec Ideal S64 .f32) (a4 : FVec Ideal S4x64x64 .f32) (a5 : FVec Ideal S4x64 .f32) : FVec Ideal S100000x64 .f32 :=
  layerRows (aggK (x0K a0 a2 a3) (rowK a1) (colK a1) (nrmK a1)) (x0K a0 a2 a3) (x0K a0 a2 a3) (w0K a4) (r0K a5)
def x2K (a0 : FVec Ideal S100000x128 .f32) (a1 : IVec S2x1600000 32) (a2 : FVec Ideal S128x64 .f32) (a3 : FVec Ideal S64 .f32) (a4 : FVec Ideal S4x64x64 .f32) (a5 : FVec Ideal S4x64 .f32) : FVec Ideal S100000x64 .f32 :=
  layerRows (aggK (x1K a0 a1 a2 a3 a4 a5) (rowK a1) (colK a1) (nrmK a1)) (x1K a0 a1 a2 a3 a4 a5) (x0K a0 a2 a3) (w1K a4) (r1K a5)
def x3K (a0 : FVec Ideal S100000x128 .f32) (a1 : IVec S2x1600000 32) (a2 : FVec Ideal S128x64 .f32) (a3 : FVec Ideal S64 .f32) (a4 : FVec Ideal S4x64x64 .f32) (a5 : FVec Ideal S4x64 .f32) : FVec Ideal S100000x64 .f32 :=
  layerRows (aggK (x2K a0 a1 a2 a3 a4 a5) (rowK a1) (colK a1) (nrmK a1)) (x2K a0 a1 a2 a3 a4 a5) (x0K a0 a2 a3) (w2K a4) (r2K a5)
def x4K (a0 : FVec Ideal S100000x128 .f32) (a1 : IVec S2x1600000 32) (a2 : FVec Ideal S128x64 .f32) (a3 : FVec Ideal S64 .f32) (a4 : FVec Ideal S4x64x64 .f32) (a5 : FVec Ideal S4x64 .f32) : FVec Ideal S100000x64 .f32 :=
  layerRows (aggK (x3K a0 a1 a2 a3 a4 a5) (rowK a1) (colK a1) (nrmK a1)) (x3K a0 a1 a2 a3 a4 a5) (x0K a0 a2 a3) (w3K a4) (r3K a5)
def yK (a0 : FVec Ideal S100000x128 .f32) (a1 : IVec S2x1600000 32) (a2 : FVec Ideal S128x64 .f32) (a3 : FVec Ideal S64 .f32) (a4 : FVec Ideal S4x64x64 .f32) (a5 : FVec Ideal S4x64 .f32) (a6 : FVec Ideal S64x40 .f32) (a7 : FVec Ideal S40 .f32) : FVec Ideal S100000x40 .f32 := outRows (x4K a0 a1 a2 a3 a4 a5) a6 (rOutK a7)

end Stages

end Cert.KernelIdeal.Pipe

end
-- ==== Proof.KI_Fwd0.lean ====
/-
  What the five host stretches before the first pipeline leave, at the exact values: the arguments untouched, the edge lists with
  their self-loops, the input bias re-laid as a row, and — stretch by stretch: the degrees, where they are positive, the guarded
  degree, its power, the inverse square roots, the products along the edges — the normalisation weights.
-/
import proofs.«134498_j40424232190561_2_alg».proof.Proof.Gen.KernelIdeal.Launch
import proofs.«134498_j40424232190561_2_alg».proof.Proof.Gen.KernelIdeal.Skeleton
import proofs.«134498_j40424232190561_2_alg».proof.Proof.Gen.KernelIdeal.Points
import proofs.«134498_j40424232190561_2_alg».proof.Proof.KI_Keep
import proofs.«134498_j40424232190561_2_alg».proof.Proof.KI_Stages
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

open Idealize.ShloMosaic.StableHlo

section Pieces

/-- The in-degree of every node, counted with its self-loop. -/
def degK (a1 : IVec S2x1600000 32) : FVec Ideal S100000 .f32 := (Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 (colK a1)) (broadcastInDim S1700000 ![] bcast_S_S1700000 (constant (F := Ideal) S_ .f32 0x3F800000#32)))
/-- Where the degree is positive (computed twice by the program, the same test). -/
def posK (a1 : IVec S2x1600000 32) : IVec S100000 1 := (cmpf (F := Ideal) .ogt (degK a1) (broadcastInDim S100000 ![] bcast_S_S100000 (constant (F := Ideal) S_ .f32 0x00000000#32)))
def posK' (a1 : IVec S2x1600000 32) : IVec S100000 1 := (cmpf (F := Ideal) .ogt (degK a1) (broadcastInDim S100000 ![] bcast_S_S100000 (constant (F := Ideal) S_ .f32 0x00000000#32)))
/-- The degree where positive, one elsewhere. -/
def safeK (a1 : IVec S2x1600000 32) : FVec Ideal S100000 .f32 := (select (posK a1) (degK a1) (broadcastInDim S100000 ![] bcast_S_S100000 (id (constant (F := Ideal) S_ .f32 0x3F800000#32))))
/-- Its power -1/2. -/
def powK (a1 : IVec S2x1600000 32) : FVec Ideal S100000 .f32 := (Host.powf (F := Ideal) (safeK a1) (broadcastInDim S100000 ![] bcast_S_S100000 (constant (F := Ideal) S_ .f32 0xBF000000#32)))
/-- The inverse square root of the degree where positive, zero elsewhere. -/
def disK (a1 : IVec S2x1600000 32) : FVec Ideal S100000 .f32 := (select (posK' a1) (powK a1) (broadcastInDim S100000 ![] bcast_S_S100000 (id (constant (F := Ideal) S_ .f32 0x00000000#32))))
/-- The normalisation weights are the products of the two ends' inverse square roots along every edge. -/
theorem nrmK_eq (a1 : IVec S2x1600000 32) : nrmK a1 = (mulf (F := Ideal) (Host.gather gather_S100000_S1700000x1_S1700000_n_0_n_n_0_1_1 (disK a1) (broadcastInDim S1700000x1 ![0] bcast_S1700000_S1700000x1_0 (select (cmpi .slt (rowK a1) (broadcastInDim S1700000 ![] bcast_S_S1700000 (constantI S_ 32 0#32))) (addi (rowK a1) (broadcastInDim S1700000 ![] bcast_S_S1700000 (constantI S_ 32 100000#32))) (rowK a1)))) (Host.gather gather_S100000_S1700000x1_S1700000_n_0_n_n_0_1_1 (disK a1) (broadcastInDim S1700000x1 ![0] bcast_S1700000_S1700000x1_0 (select (cmpi .slt (colK a1) (broadcastInDim S1700000 ![] bcast_S_S1700000 (constantI S_ 32 0#32))) (addi (colK a1) (broadcastInDim S1700000 ![] bcast_S_S1700000 (constantI S_ 32 100000#32))) (colK a1))))) := by
  unfold nrmK disK posK' powK safeK posK degK rowK colK
  rfl

end Pieces

section Forward

variable (m : (ℓ : Loc nD τ sig) → Buf (Elt Ideal) ℓ) (c : Dev nD)

theorem E0_arg (b : Ref sig .tc) (h0 : b ∉ hostOps0_W) (h01 : b ∉ hostOps0_1_W) (h02 : b ∉ hostOps0_2_W) (h03 : b ∉ hostOps0_3_W) (h04 : b ∉ hostOps0_4_W) :
    E0 m c (Proc.devRef .tc b) = m ((c : Thread nD τ).loc b) :=
  (Gen.V5_of m c b h04).trans <| (Gen.V4_of m c b h03).trans <| (Gen.V3_of m c b h02).trans <| (Gen.V2_of m c b h01).trans <| (Gen.V1_of m c b h0).trans rfl

set_option maxHeartbeats 8000000 in
theorem s_row : Gen.V1 m c (Proc.devRef .tc main_v3) = rowK (m ((c : Thread nD τ).loc main_arg1)) := by
  unfold rowK
  show StableHlo.after hostOps0 (fun b => m (c, b)) (Proc.devRef .tc main_v3) = _
  after_results_simp
  all_goals rfl

set_option maxHeartbeats 8000000 in
theorem s_col : Gen.V1 m c (Proc.devRef .tc main_v6) = colK (m ((c : Thread nD τ).loc main_arg1)) := by
  unfold colK
  show StableHlo.after hostOps0 (fun b => m (c, b)) (Proc.devRef .tc main_v6) = _
  after_results_simp
  all_goals rfl

set_option maxHeartbeats 8000000 in
theorem s_deg : Gen.V1 m c (Proc.devRef .tc main_v10) = degK (m ((c : Thread nD τ).loc main_arg1)) := by
  unfold degK colK
  show StableHlo.after hostOps0 (fun b => m (c, b)) (Proc.devRef .tc main_v10) = _
  after_results_simp
  all_goals rfl

set_option maxHeartbeats 8000000 in
theorem s_pos : Gen.V1 m c (Proc.devRef .tc main_v12) = posK (m ((c : Thread nD τ).loc main_arg1)) := by
  unfold posK degK colK
  show StableHlo.after hostOps0 (fun b => m (c, b)) (Proc.devRef .tc main_v12) = _
  after_results_simp
  all_goals rfl

set_option maxHeartbeats 8000000 in
theorem s_one : Gen.V1 m c (Proc.devRef .tc main_cst_2) = (constant (F := Ideal) S_ .f32 0x3F800000#32) := by
  skip
  show StableHlo.after hostOps0 (fun b => m (c, b)) (Proc.devRef .tc main_cst_2) = _
  after_results_simp
  all_goals rfl

set_option maxHeartbeats 8000000 in
theorem s_safe : Gen.V2 m c (Proc.devRef .tc main_v13) = safeK (m ((c : Thread nD τ).loc main_arg1)) := by
  unfold safeK
  rw [← s_pos m c, ← s_deg m c, ← s_one m c]
  show StableHlo.after hostOps0_1 (Gen.V1 m c) (Proc.devRef .tc main_v13) = _
  generalize Gen.V1 m c = W
  after_results_simp
  all_goals rfl

theorem t_deg2 : Gen.V2 m c (Proc.devRef .tc main_v10) = degK (m ((c : Thread nD τ).loc main_arg1)) := (Gen.V2_of m c main_v10 (by decide)).trans (s_deg m c)
set_option maxHeartbeats 8000000 in
theorem s_pos' : Gen.V3 m c (Proc.devRef .tc main_v15) = posK' (m ((c : Thread nD τ).loc main_arg1)) := by
  unfold posK'
  rw [← t_deg2 m c]
  show StableHlo.after hostOps0_2 (Gen.V2 m c) (Proc.devRef .tc main_v15) = _
  generalize Gen.V2 m c = W
  after_results_simp
  all_goals rfl

set_option maxHeartbeats 8000000 in
theorem s_pow : Gen.V3 m c (Proc.devRef .tc main_v17) = powK (m ((c : Thread nD τ).loc main_arg1)) := by
  unfold powK
  rw [← s_safe m c]
  show StableHlo.after hostOps0_2 (Gen.V2 m c) (Proc.devRef .tc main_v17) = _
  generalize Gen.V2 m c = W
  after_results_simp
  all_goals rfl

set_option maxHeartbeats 8000000 in
theorem s_zero : Gen.V3 m c (Proc.devRef .tc main_cst_5) = (constant (F := Ideal) S_ .f32 0x00000000#32) := by
  skip
  show StableHlo.after hostOps0_2 (Gen.V2 m c) (Proc.devRef .tc main_cst_5) = _
  after_results_simp
  all_goals rfl

set_option maxHeartbeats 8000000 in
theorem s_dis : Gen.V4 m c (Proc.devRef .tc main_v18) = disK (m ((c : Thread nD τ).loc main_arg1)) := by
  unfold disK
  rw [← s_pos' m c, ← s_pow m c, ← s_zero m c]
  show StableHlo.after hostOps0_3 (Gen.V3 m c) (Proc.devRef .tc main_v18) = _
  generalize Gen.V3 m c = W
  after_results_simp
  all_goals rfl

theorem t_row4 : Gen.V4 m c (Proc.devRef .tc main_v3) = rowK (m ((c : Thread nD τ).loc main_arg1)) :=
  (Gen.V4_of m c main_v3 (by decide)).trans <| (Gen.V3_of m c main_v3 (by decide)).trans <| (Gen.V2_of m c main_v3 (by decide)).trans (s_row m c)
theorem t_col4 : Gen.V4 m c (Proc.devRef .tc main_v6) = colK (m ((c : Thread nD τ).loc main_arg1)) :=
  (Gen.V4_of m c main_v6 (by decide)).trans <| (Gen.V3_of m c main_v6 (by decide)).trans <| (Gen.V2_of m c main_v6 (by decide)).trans (s_col m c)

theorem E0_row : E0 m c (Proc.devRef .tc main_v3) = rowK (m ((c : Thread nD τ).loc main_arg1)) := (Gen.V5_of m c main_v3 (by decide)).trans (t_row4 m c)
theorem E0_col : E0 m c (Proc.devRef .tc main_v6) = colK (m ((c : Thread nD τ).loc main_arg1)) := (Gen.V5_of m c main_v6 (by decide)).trans (t_col4 m c)

set_option maxHeartbeats 4000000 in
theorem E0_rIn : E0 m c (Proc.devRef .tc main_v34) = rInK (m ((c : Thread nD τ).loc main_arg3)) := by
  unfold rInK
  show StableHlo.after hostOps0_4 (Gen.V4 m c) (Proc.devRef .tc main_v34) = _
  after_results_simp
  exact congrArg (fun z => shapeCast _ z shapeCasts_S64_S1x64)
    ((Gen.V4_of m c main_arg3 (by decide)).trans <| (Gen.V3_of m c main_arg3 (by decide)).trans <| (Gen.V2_of m c main_arg3 (by decide)).trans <| (Gen.V1_of m c main_arg3 (by decide)).trans rfl)

set_option maxHeartbeats 8000000 in
theorem E0_nrm : E0 m c (Proc.devRef .tc main_v33) = nrmK (m ((c : Thread nD τ).loc main_arg1)) := by
  rw [nrmK_eq, ← s_dis m c, ← t_row4 m c, ← t_col4 m c]
  show StableHlo.after hostOps0_4 (Gen.V4 m c) (Proc.devRef .tc main_v33) = _
  generalize Gen.V4 m c = W
  after_results_simp
  all_goals rfl

/-! ## A host stretch leaves alone what it does not write -/

theorem E1_keep (b : Ref sig .tc) (h : b ∉ hostOps1_W) : E1 m c (Proc.devRef .tc b) = X0 m c (Proc.devRef .tc b) :=
  StableHlo.after_of_writes_sub hostOps1 _ hostOps1_writes h
theorem E2_keep (b : Ref sig .tc) (h : b ∉ hostOps2_W) : E2 m c (Proc.devRef .tc b) = X1 m c (Proc.devRef .tc b) :=
  StableHlo.after_of_writes_sub hostOps2 _ hostOps2_writes h
theorem E3_keep (b : Ref sig .tc) (h : b ∉ hostOps3_W) : E3 m c (Proc.devRef .tc b) = X2 m c (Proc.devRef .tc b) :=
  StableHlo.after_of_writes_sub hostOps3 _ hostOps3_writes h
theorem E4_keep (b : Ref sig .tc) (h : b ∉ hostOps4_W) : E4 m c (Proc.devRef .tc b) = X3 m c (Proc.devRef .tc b) :=
  StableHlo.after_of_writes_sub hostOps4 _ hostOps4_writes h
theorem E5_keep (b : Ref sig .tc) (h : b ∉ hostOps5_W) : E5 m c (Proc.devRef .tc b) = X4 m c (Proc.devRef .tc b) :=
  StableHlo.after_of_writes_sub hostOps5 _ hostOps5_writes h

set_option maxHeartbeats 4000000 in
theorem E5_r : E5 m c (Proc.devRef .tc main_v112) = rOutK (X4 m c (Proc.devRef .tc main_arg7)) := by
  unfold rOutK
  show StableHlo.after hostOps5 (X4 m c) (Proc.devRef .tc main_v112) = _
  after_results_simp
  all_goals rfl

end Forward

end Cert.KernelIdeal.Pipe

end
-- ==== Proof.KI_FwdE1.lean ====
/-
  What the host stretch before layer 1's pipeline computes from the buffers it finds: one propagation of the current state along
  the weighted edges, and the layer's weight matrix and bias row sliced out of the stacked parameters.
-/
import proofs.«134498_j40424232190561_2_alg».proof.Proof.Gen.KernelIdeal.Launch
import proofs.«134498_j40424232190561_2_alg».proof.Proof.Gen.KernelIdeal.Skeleton
import proofs.«134498_j40424232190561_2_alg».proof.Proof.Gen.KernelIdeal.Points
import proofs.«134498_j40424232190561_2_alg».proof.Proof.KI_Keep
import proofs.«134498_j40424232190561_2_alg».proof.Proof.KI_Stages
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

open Idealize.ShloMosaic.StableHlo

section Forward

variable (m : (ℓ : Loc nD τ sig) → Buf (Elt Ideal) ℓ) (c : Dev nD)

set_option maxHeartbeats 8000000 in
theorem E1_agg : E1 m c (Proc.devRef .tc main_v48) = aggK (X0 m c (Proc.devRef .tc main_v35)) (X0 m c (Proc.devRef .tc main_v3)) (X0 m c (Proc.devRef .tc main_v6)) (X0 m c (Proc.devRef .tc main_v33)) := by
  unfold aggK
  show StableHlo.after hostOps1 (X0 m c) (Proc.devRef .tc main_v48) = _
  after_results_simp
  all_goals rfl

set_option maxHeartbeats 8000000 in
theorem E1_w : E1 m c (Proc.devRef .tc main_v50) = w0K (X0 m c (Proc.devRef .tc main_arg4)) := by
  unfold w0K
  show StableHlo.after hostOps1 (X0 m c) (Proc.devRef .tc main_v50) = _
  after_results_simp
  all_goals rfl

set_option maxHeartbeats 8000000 in
theorem E1_r : E1 m c (Proc.devRef .tc main_v53) = r0K (X0 m c (Proc.devRef .tc main_arg5)) := by
  unfold r0K b0K
  show StableHlo.after hostOps1 (X0 m c) (Proc.devRef .tc main_v53) = _
  after_results_simp
  all_goals rfl

end Forward

end Cert.KernelIdeal.Pipe

end
-- ==== Proof.KI_FwdE2.lean ====
/-
  What the host stretch before layer 2's pipeline computes from the buffers it finds: one propagation of the current state along
  the weighted edges, and the layer's weight matrix and bias row sliced out of the stacked parameters.
-/
import proofs.«134498_j40424232190561_2_alg».proof.Proof.Gen.KernelIdeal.Launch
import proofs.«134498_j40424232190561_2_alg».proof.Proof.Gen.KernelIdeal.Skeleton
import proofs.«134498_j40424232190561_2_alg».proof.Proof.Gen.KernelIdeal.Points
import proofs.«134498_j40424232190561_2_alg».proof.Proof.KI_Keep
import proofs.«134498_j40424232190561_2_alg».proof.Proof.KI_Stages
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

open Idealize.ShloMosaic.StableHlo

section Forward

variable (m : (ℓ : Loc nD τ sig) → Buf (Elt Ideal) ℓ) (c : Dev nD)

set_option maxHeartbeats 8000000 in
theorem E2_agg : E2 m c (Proc.devRef .tc main_v67) = aggK (X1 m c (Proc.devRef .tc main_v54)) (X1 m c (Proc.devRef .tc main_v3)) (X1 m c (Proc.devRef .tc main_v6)) (X1 m c (Proc.devRef .tc main_v33)) := by
  unfold aggK
  show StableHlo.after hostOps2 (X1 m c) (Proc.devRef .tc main_v67) = _
  after_results_simp
  all_goals rfl

set_option maxHeartbeats 8000000 in
theorem E2_w : E2 m c (Proc.devRef .tc main_v69) = w1K (X1 m c (Proc.devRef .tc main_arg4)) := by
  unfold w1K
  show StableHlo.after hostOps2 (X1 m c) (Proc.devRef .tc main_v69) = _
  after_results_simp
  all_goals rfl

set_option maxHeartbeats 8000000 in
theorem E2_r : E2 m c (Proc.devRef .tc main_v72) = r1K (X1 m c (Proc.devRef .tc main_arg5)) := by
  unfold r1K b1K
  show StableHlo.after hostOps2 (X1 m c) (Proc.devRef .tc main_v72) = _
  after_results_simp
  all_goals rfl

end Forward

end Cert.KernelIdeal.Pipe

end
-- ==== Proof.KI_FwdE3.lean ====
/-
  What the host stretch before layer 3's pipeline computes from the buffers it finds: one propagation of the current state along
  the weighted edges, and the layer's weight matrix and bias row sliced out of the stacked parameters.
-/
import proofs.«134498_j40424232190561_2_alg».proof.Proof.Gen.KernelIdeal.Launch
import proofs.«134498_j40424232190561_2_alg».proof.Proof.Gen.KernelIdeal.Skeleton
import proofs.«134498_j40424232190561_2_alg».proof.Proof.Gen.KernelIdeal.Points
import proofs.«134498_j40424232190561_2_alg».proof.Proof.KI_Keep
import proofs.«134498_j40424232190561_2_alg».proof.Proof.KI_Stages
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

open Idealize.ShloMosaic.StableHlo

section Forward

variable (m : (ℓ : Loc nD τ sig) → Buf (Elt Ideal) ℓ) (c : Dev nD)

set_option maxHeartbeats 8000000 in
theorem E3_agg : E3 m c (Proc.devRef .tc main_v86) = aggK (X2 m c (Proc.devRef .tc main_v73)) (X2 m c (Proc.devRef .tc main_v3)) (X2 m c (Proc.devRef .tc main_v6)) (X2 m c (Proc.devRef .tc main_v33)) := by
  unfold aggK
  show StableHlo.after hostOps3 (X2 m c) (Proc.devRef .tc main_v86) = _
  after_results_simp
  all_goals rfl

set_option maxHeartbeats 8000000 in
theorem E3_w : E3 m c (Proc.devRef .tc main_v88) = w2K (X2 m c (Proc.devRef .tc main_arg4)) := by
  unfold w2K
  show StableHlo.after hostOps3 (X2 m c) (Proc.devRef .tc main_v88) = _
  after_results_simp
  all_goals rfl

set_option maxHeartbeats 8000000 in
theorem E3_r : E3 m c (Proc.devRef .tc main_v91) = r2K (X2 m c (Proc.devRef .tc main_arg5)) := by
  unfold r2K b2K
  show StableHlo.after hostOps3 (X2 m c) (Proc.devRef .tc main_v91) = _
  after_results_simp
  all_goals rfl

end Forward

end Cert.KernelIdeal.Pipe

end
-- ==== Proof.KI_FwdE4.lean ====
/-
  What the host stretch before layer 4's pipeline computes from the buffers it finds: one propagation of the current state along
  the weighted edges, and the layer's weight matrix and bias row sliced out of the stacked parameters.
-/
import proofs.«134498_j40424232190561_2_alg».proof.Proof.Gen.KernelIdeal.Launch
import proofs.«134498_j40424232190561_2_alg».proof.Proof.Gen.KernelIdeal.Skeleton
import proofs.«134498_j40424232190561_2_alg».proof.Proof.Gen.KernelIdeal.Points
import proofs.«134498_j40424232190561_2_alg».proof.Proof.KI_Keep
import proofs.«134498_j40424232190561_2_alg».proof.Proof.KI_Stages
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

open Idealize.ShloMosaic.StableHlo

section Forward

variable (m : (ℓ : Loc nD τ sig) → Buf (Elt Ideal) ℓ) (c : Dev nD)

set_option maxHeartbeats 8000000 in
theorem E4_agg : E4 m c (Proc.devRef .tc main_v105) = aggK (X3 m c (Proc.devRef .tc main_v92)) (X3 m c (Proc.devRef .tc main_v3)) (X3 m c (Proc.devRef .tc main_v6)) (X3 m c (Proc.devRef .tc main_v33)) := by
  unfold aggK
  show StableHlo.after hostOps4 (X3 m c) (Proc.devRef .tc main_v105) = _
  after_results_simp
  all_goals rfl

set_option maxHeartbeats 8000000 in
theorem E4_w : E4 m c (Proc.devRef .tc main_v107) = w3K (X3 m c (Proc.devRef .tc main_arg4)) := by
  unfold w3K
  show StableHlo.after hostOps4 (X3 m c) (Proc.devRef .tc main_v107) = _
  after_results_simp
  all_goals rfl

set_option maxHeartbeats 8000000 in
theorem E4_r : E4 m c (Proc.devRef .tc main_v110) = r3K (X3 m c (Proc.devRef .tc main_arg5)) := by
  unfold r3K b3K
  show StableHlo.after hostOps4 (X3 m c) (Proc.devRef .tc main_v110) = _
  after_results_simp
  all_goals rfl

end Forward

end Cert.KernelIdeal.Pipe

end
-- ==== Proof.KI_Final2.lean ====
/-
  Pipeline 2's output array after the run, at the exact values: every row r of it is the second propagation layer of row r of
  its three row operands, max((0.8·agg + 0.1·x + 0.1·x₀)[r,·]·W − b, 0) + b with the two coefficients kept as their literal words, the
  rows delivered in twenty blocks of 5000 that tile the array.
-/
import proofs.«134498_j40424232190561_2_alg».proof.Proof.Gen.KernelIdeal.Launch
import proofs.«134498_j40424232190561_2_alg».proof.Proof.Gen.KernelIdeal.Skeleton
import proofs.«134498_j40424232190561_2_alg».proof.Proof.Gen.KernelIdeal.Points
import proofs.«134498_j40424232190561_2_alg».proof.Proof.KI_Region2
import proofs.«134498_j40424232190561_2_alg».proof.Proof.BlockRows
import proofs.«134498_j40424232190561_2_alg».proof.Proof.KI_Final1
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

section Final2

variable (V : (c : Dev nD) → (b : Ref sig .tc) → Buf (Elt Ideal) ((c : Thread nD τ).loc b))

private theorem origin2 : (![0, 0] : Fin 2 → Nat) = fun _ => 0 := funext fun a => by fin_cases a <;> rfl

/-- The index maps over the grid: the row-block of the three row operands and of the output is the grid point's, on their one
    column-block; the weight and the bias row are their one block at every point. -/
theorem idx2 : ∀ t : Fin cfg2.N, win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = win2_5.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What grid point `t` writes back is block `t` of the rows. -/
theorem flushed2 (c : Dev nD) (t : Fin cfg2.N) :
    (dat2 V c).flushed 5 t = ((cfg2.win 5).blk t).view.read (Elt Ideal) (layerRows (V c main_v67) (V c main_v54) (V c main_v35) (V c main_v69) (V c main_v72)) := by
  show (cfg2.win 5).cut (grid2.coords t) ((dat2 V c).after 5 t) = _
  rw [after2_5]
  unfold out2
  rw [View.canon_unit_zero origin2]
  simp only [View.ld_unit_zero (S := S5000x64) origin2, View.ld_unit_zero (S := S64x64) origin2, View.ld_unit_zero (S := S1x64) origin2]
  obtain ⟨e0, e1, e2, e3, e4, e5, e6, e7, e8, e9, e10, e11⟩ := idx2 t
  funext j
  obtain ⟨p, q, rfl⟩ : ∃ (p : Fin 5000) (q : Fin 64), j = ix2 p q := ⟨j 0, j 1, eq_ix2 j⟩
  have hq : (((cfg2.win 5).blk t).view.emb (ix2 p q)) 1 = q :=
    Fin.ext (by show win2_5.index t (1 : Fin 2) * 64 + 1 * q.val = q.val; omega)
  have hemb : ((cfg2.win 5).blk t).view.emb (ix2 p q) = ix2 ((((cfg2.win 5).blk t).view.emb (ix2 p q)) 0) q :=
    (eq_ix2 _).trans (congrArg (fun z => ix2 ((((cfg2.win 5).blk t).view.emb (ix2 p q)) 0) z) hq)
  have h0 : ∀ k : Fin 64, ((cfg2.win 0).blk t).view.emb (ix2 p k) = ix2 ((((cfg2.win 5).blk t).view.emb (ix2 p q)) 0) k := fun k => by
    funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 64 + 1 * k.val = k.val; omega
  have h1 : ∀ k : Fin 64, ((cfg2.win 1).blk t).view.emb (ix2 p k) = ix2 ((((cfg2.win 5).blk t).view.emb (ix2 p q)) 0) k := fun k => by
    funext a; apply Fin.ext
    match a with
    | ⟨0, _⟩ => show win2_1.index t (0 : Fin 2) * 5000 + 1 * p.val = win2_5.index t (0 : Fin 2) * 5000 + 1 * p.val; omega
    | ⟨1, _⟩ => show win2_1.index t (1 : Fin 2) * 64 + 1 * k.val = k.val; omega
  have h2 : ∀ k : Fin 64, ((cfg2.win 2).blk t).view.emb (ix2 p k) = ix2 ((((cfg2.win 5).blk t).view.emb (ix2 p q)) 0) k := fun k => by
    funext a; apply Fin.ext
    match a with
    | ⟨0, _⟩ => show win2_2.index t (0 : Fin 2) * 5000 + 1 * p.val = win2_5.index t (0 : Fin 2) * 5000 + 1 * p.val; omega
    | ⟨1, _⟩ => show win2_2.index t (1 : Fin 2) * 64 + 1 * k.val = k.val; omega
  have h3 : ∀ k : Fin 64, ((cfg2.win 3).blk t).view.emb (ix2 k q) = ix2 k q := fun k => by
    funext a; apply Fin.ext
    match a with
    | ⟨0, _⟩ => show win2_3.index t (0 : Fin 2) * 64 + 1 * k.val = k.val; omega
    | ⟨1, _⟩ => show win2_3.index t (1 : Fin 2) * 64 + 1 * q.val = q.val; omega
  have h4 : ((cfg2.win 4).blk t).view.emb (ix2 (0 : Fin 1) q) = ix2 (0 : Fin 1) q := by
    funext a; apply Fin.ext
    match a with
    | ⟨0, _⟩ => show win2_4.index t (0 : Fin 2) * 1 + 1 * 0 = 0; omega
    | ⟨1, _⟩ => show win2_4.index t (1 : Fin 2) * 64 + 1 * q.val = q.val; omega
  show _ = layerRows (V c main_v67) (V c main_v54) (V c main_v35) (V c main_v69) (V c main_v72) (((cfg2.win 5).blk t).view.emb (ix2 p q))
  rw [hemb]
  exact rows_of_blocks2 _ _ _ _ _ _ _ _ _ _ _ p q (fun k => congrArg (V c main_v67) (h0 k)) (fun k => congrArg (V c main_v54) (h1 k))
    (fun k => congrArg (V c main_v35) (h2 k)) (fun k => congrArg (V c main_v69) (h3 k)) (congrArg (V c main_v72) h4)

/-- An index of the output array is in point `t`'s block iff its row is among the block's 5000. -/
theorem mem_blk2 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v73).slice (win2_5.rect t)).set ↔ _
  rw [View.set_slice_whole, Rect.mem_set_unit]
  exact Iff.rfl

/-- The twenty blocks tile the array: row r lies in block r / 5000. -/
theorem tiles2 (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  refine ⟨⟨(i 0).val / 5000, by rw [show cfg2.N = 20 from N_2]; omega⟩, flush2_5 _, ?_⟩
  rw [mem_blk2]
  obtain ⟨-, -, -, -, -, -, -, -, -, -, e10, e11⟩ := idx2 ⟨(i 0).val / 5000, by rw [show cfg2.N = 20 from N_2]; omega⟩
  intro a
  match a with
  | ⟨0, _⟩ => show win2_5.index _ (0 : Fin 2) * 5000 ≤ (i 0).val ∧ (i 0).val < win2_5.index _ (0 : Fin 2) * 5000 + 5000; rw [e10]; show (i 0).val / 5000 * 5000 ≤ _ ∧ _ < (i 0).val / 5000 * 5000 + 5000; omega
  | ⟨1, _⟩ => show win2_5.index _ (1 : Fin 2) * 64 ≤ (i 1).val ∧ (i 1).val < win2_5.index _ (1 : Fin 2) * 64 + 64; rw [e11]; omega

/-- THE OUTPUT ARRAY of pipeline 2 after its last point: the rows of the layer. -/
theorem final2 (c : Dev nD) : (dat2 V c).arrAt 5 cfg2.N = layerRows (V c main_v67) (V c main_v54) (V c main_v35) (V c main_v69) (V c main_v72) :=
  (dat2 V c).arrAt_eq_of_cover 5 _ (fun t _ => flushed2 V c t) tiles2

end Final2

end Cert.KernelIdeal.Pipe

end
-- ==== Proof.KI_Final3.lean ====
/-
  Pipeline 3's output array after the run, at the exact values: every row r of it is the third propagation layer of row r of
  its three row operands, max((0.8·agg + 0.1·x + 0.1·x₀)[r,·]·W − b, 0) + b with the two coefficients kept as their literal words, the
  rows delivered in twenty blocks of 5000 that tile the array.
-/
import proofs.«134498_j40424232190561_2_alg».proof.Proof.Gen.KernelIdeal.Launch
import proofs.«134498_j40424232190561_2_alg».proof.Proof.Gen.KernelIdeal.Skeleton
import proofs.«134498_j40424232190561_2_alg».proof.Proof.Gen.KernelIdeal.Points
import proofs.«134498_j40424232190561_2_alg».proof.Proof.KI_Region3
import proofs.«134498_j40424232190561_2_alg».proof.Proof.BlockRows
import proofs.«134498_j40424232190561_2_alg».proof.Proof.KI_Final1
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

section Final3

variable (V : (c : Dev nD) → (b : Ref sig .tc) → Buf (Elt Ideal) ((c : Thread nD τ).loc b))

private theorem origin2 : (![0, 0] : Fin 2 → Nat) = fun _ => 0 := funext fun a => by fin_cases a <;> rfl

/-- The index maps over the grid: the row-block of the three row operands and of the output is the grid point's, on their one
    column-block; the weight and the bias row are their one block at every point. -/
theorem idx3 : ∀ t : Fin cfg3.N, win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = win3_5.index t (0 : Fin 2) ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What grid point `t` writes back is block `t` of the rows. -/
theorem flushed3 (c : Dev nD) (t : Fin cfg3.N) :
    (dat3 V c).flushed 5 t = ((cfg3.win 5).blk t).view.read (Elt Ideal) (layerRows (V c main_v86) (V c main_v73) (V c main_v35) (V c main_v88) (V c main_v91)) := by
  show (cfg3.win 5).cut (grid3.coords t) ((dat3 V c).after 5 t) = _
  rw [after3_5]
  unfold out3
  rw [View.canon_unit_zero origin2]
  simp only [View.ld_unit_zero (S := S5000x64) origin2, View.ld_unit_zero (S := S64x64) origin2, View.ld_unit_zero (S := S1x64) origin2]
  obtain ⟨e0, e1, e2, e3, e4, e5, e6, e7, e8, e9, e10, e11⟩ := idx3 t
  funext j
  obtain ⟨p, q, rfl⟩ : ∃ (p : Fin 5000) (q : Fin 64), j = ix2 p q := ⟨j 0, j 1, eq_ix2 j⟩
  have hq : (((cfg3.win 5).blk t).view.emb (ix2 p q)) 1 = q :=
    Fin.ext (by show win3_5.index t (1 : Fin 2) * 64 + 1 * q.val = q.val; omega)
  have hemb : ((cfg3.win 5).blk t).view.emb (ix2 p q) = ix2 ((((cfg3.win 5).blk t).view.emb (ix2 p q)) 0) q :=
    (eq_ix2 _).trans (congrArg (fun z => ix2 ((((cfg3.win 5).blk t).view.emb (ix2 p q)) 0) z) hq)
  have h0 : ∀ k : Fin 64, ((cfg3.win 0).blk t).view.emb (ix2 p k) = ix2 ((((cfg3.win 5).blk t).view.emb (ix2 p q)) 0) k := fun k => by
    funext a; apply Fin.ext
    match a with
    | ⟨0, _⟩ => show win3_0.index t (0 : Fin 2) * 5000 + 1 * p.val = win3_5.index t (0 : Fin 2) * 5000 + 1 * p.val; omega
    | ⟨1, _⟩ => show win3_0.index t (1 : Fin 2) * 64 + 1 * k.val = k.val; omega
  have h1 : ∀ k : Fin 64, ((cfg3.win 1).blk t).view.emb (ix2 p k) = ix2 ((((cfg3.win 5).blk t).view.emb (ix2 p q)) 0) k := fun k => by
    funext a; apply Fin.ext
    match a with
    | ⟨0, _⟩ => show win3_1.index t (0 : Fin 2) * 5000 + 1 * p.val = win3_5.index t (0 : Fin 2) * 5000 + 1 * p.val; omega
    | ⟨1, _⟩ => show win3_1.index t (1 : Fin 2) * 64 + 1 * k.val = k.val; omega
  have h2 : ∀ k : Fin 64, ((cfg3.win 2).blk t).view.emb (ix2 p k) = ix2 ((((cfg3.win 5).blk t).view.emb (ix2 p q)) 0) k := fun k => by
    funext a; apply Fin.ext
    match a with
    | ⟨0, _⟩ => show win3_2.index t (0 : Fin 2) * 5000 + 1 * p.val = win3_5.index t (0 : Fin 2) * 5000 + 1 * p.val; omega
    | ⟨1, _⟩ => show win3_2.index t (1 : Fin 2) * 64 + 1 * k.val = k.val; omega
  have h3 : ∀ k : Fin 64, ((cfg3.win 3).blk t).view.emb (ix2 k q) = ix2 k q := fun k => by
    funext a; apply Fin.ext
    match a with
    | ⟨0, _⟩ => show win3_3.index t (0 : Fin 2) * 64 + 1 * k.val = k.val; omega
    | ⟨1, _⟩ => show win3_3.index t (1 : Fin 2) * 64 + 1 * q.val = q.val; omega
  have h4 : ((cfg3.win 4).blk t).view.emb (ix2 (0 : Fin 1) q) = ix2 (0 : Fin 1) q := by
    funext a; apply Fin.ext
    match a with
    | ⟨0, _⟩ => show win3_4.index t (0 : Fin 2) * 1 + 1 * 0 = 0; omega
    | ⟨1, _⟩ => show win3_4.index t (1 : Fin 2) * 64 + 1 * q.val = q.val; omega
  show _ = layerRows (V c main_v86) (V c main_v73) (V c main_v35) (V c main_v88) (V c main_v91) (((cfg3.win 5).blk t).view.emb (ix2 p q))
  rw [hemb]
  exact rows_of_blocks3 _ _ _ _ _ _ _ _ _ _ _ p q (fun k => congrArg (V c main_v86) (h0 k)) (fun k => congrArg (V c main_v73) (h1 k))
    (fun k => congrArg (V c main_v35) (h2 k)) (fun k => congrArg (V c main_v88) (h3 k)) (congrArg (V c main_v91) h4)

/-- An index of the output array is in point `t`'s block iff its row is among the block's 5000. -/
theorem mem_blk3 (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v92).slice (win3_5.rect t)).set ↔ _
  rw [View.set_slice_whole, Rect.mem_set_unit]
  exact Iff.rfl

/-- The twenty blocks tile the array: row r lies in block r / 5000. -/
theorem tiles3 (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  refine ⟨⟨(i 0).val / 5000, by rw [show cfg3.N = 20 from N_3]; omega⟩, flush3_5 _, ?_⟩
  rw [mem_blk3]
  obtain ⟨-, -, -, -, -, -, -, -, -, -, e10, e11⟩ := idx3 ⟨(i 0).val / 5000, by rw [show cfg3.N = 20 from N_3]; omega⟩
  intro a
  match a with
  | ⟨0, _⟩ => show win3_5.index _ (0 : Fin 2) * 5000 ≤ (i 0).val ∧ (i 0).val < win3_5.index _ (0 : Fin 2) * 5000 + 5000; rw [e10]; show (i 0).val / 5000 * 5000 ≤ _ ∧ _ < (i 0).val / 5000 * 5000 + 5000; omega
  | ⟨1, _⟩ => show win3_5.index _ (1 : Fin 2) * 64 ≤ (i 1).val ∧ (i 1).val < win3_5.index _ (1 : Fin 2) * 64 + 64; rw [e11]; omega

/-- THE OUTPUT ARRAY of pipeline 3 after its last point: the rows of the layer. -/
theorem final3 (c : Dev nD) : (dat3 V c).arrAt 5 cfg3.N = layerRows (V c main_v86) (V c main_v73) (V c main_v35) (V c main_v88) (V c main_v91) :=
  (dat3 V c).arrAt_eq_of_cover 5 _ (fun t _ => flushed3 V c t) tiles3

end Final3

end Cert.KernelIdeal.Pipe

end
-- ==== Proof.KI_Final4.lean ====
/-
  Pipeline 4's output array after the run, at the exact values: every row r of it is the fourth propagation layer of row r of
  its three row operands, max((0.8·agg + 0.1·x + 0.1·x₀)[r,·]·W − b, 0) + b with the two coefficients kept as their literal words, the
  rows delivered in twenty blocks of 5000 that tile the array.
-/
import proofs.«134498_j40424232190561_2_alg».proof.Proof.Gen.KernelIdeal.Launch
import proofs.«134498_j40424232190561_2_alg».proof.Proof.Gen.KernelIdeal.Skeleton
import proofs.«134498_j40424232190561_2_alg».proof.Proof.Gen.KernelIdeal.Points
import proofs.«134498_j40424232190561_2_alg».proof.Proof.KI_Region4
import proofs.«134498_j40424232190561_2_alg».proof.Proof.BlockRows
import proofs.«134498_j40424232190561_2_alg».proof.Proof.KI_Final1
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

section Final4

variable (V : (c : Dev nD) → (b : Ref sig .tc) → Buf (Elt Ideal) ((c : Thread nD τ).loc b))

private theorem origin2 : (![0, 0] : Fin 2 → Nat) = fun _ => 0 := funext fun a => by fin_cases a <;> rfl

/-- The index maps over the grid: the row-block of the three row operands and of the output is the grid point's, on their one
    column-block; the weight and the bias row are their one block at every point. -/
theorem idx4 : ∀ t : Fin cfg4.N, win4_0.index t (0 : Fin 2) = win4_5.index t (0 : Fin 2) ∧ win4_0.index t (1 : Fin 2) = 0
    ∧ win4_1.index t (0 : Fin 2) = win4_5.index t (0 : Fin 2) ∧ win4_1.index t (1 : Fin 2) = 0
    ∧ win4_2.index t (0 : Fin 2) = win4_5.index t (0 : Fin 2) ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- What grid point `t` writes back is block `t` of the rows. -/
theorem flushed4 (c : Dev nD) (t : Fin cfg4.N) :
    (dat4 V c).flushed 5 t = ((cfg4.win 5).blk t).view.read (Elt Ideal) (layerRows (V c main_v105) (V c main_v92) (V c main_v35) (V c main_v107) (V c main_v110)) := by
  show (cfg4.win 5).cut (grid4.coords t) ((dat4 V c).after 5 t) = _
  rw [after4_5]
  unfold out4
  rw [View.canon_unit_zero origin2]
  simp only [View.ld_unit_zero (S := S5000x64) origin2, View.ld_unit_zero (S := S64x64) origin2, View.ld_unit_zero (S := S1x64) origin2]
  obtain ⟨e0, e1, e2, e3, e4, e5, e6, e7, e8, e9, e10, e11⟩ := idx4 t
  funext j
  obtain ⟨p, q, rfl⟩ : ∃ (p : Fin 5000) (q : Fin 64), j = ix2 p q := ⟨j 0, j 1, eq_ix2 j⟩
  have hq : (((cfg4.win 5).blk t).view.emb (ix2 p q)) 1 = q :=
    Fin.ext (by show win4_5.index t (1 : Fin 2) * 64 + 1 * q.val = q.val; omega)
  have hemb : ((cfg4.win 5).blk t).view.emb (ix2 p q) = ix2 ((((cfg4.win 5).blk t).view.emb (ix2 p q)) 0) q :=
    (eq_ix2 _).trans (congrArg (fun z => ix2 ((((cfg4.win 5).blk t).view.emb (ix2 p q)) 0) z) hq)
  have h0 : ∀ k : Fin 64, ((cfg4.win 0).blk t).view.emb (ix2 p k) = ix2 ((((cfg4.win 5).blk t).view.emb (ix2 p q)) 0) k := fun k => by
    funext a; apply Fin.ext
    match a with
    | ⟨0, _⟩ => show win4_0.index t (0 : Fin 2) * 5000 + 1 * p.val = win4_5.index t (0 : Fin 2) * 5000 + 1 * p.val; omega
    | ⟨1, _⟩ => show win4_0.index t (1 : Fin 2) * 64 + 1 * k.val = k.val; omega
  have h1 : ∀ k : Fin 64, ((cfg4.win 1).blk t).view.emb (ix2 p k) = ix2 ((((cfg4.win 5).blk t).view.emb (ix2 p q)) 0) k := fun k => by
    funext a; apply Fin.ext
    match a with
    | ⟨0, _⟩ => show win4_1.index t (0 : Fin 2) * 5000 + 1 * p.val = win4_5.index t (0 : Fin 2) * 5000 + 1 * p.val; omega
    | ⟨1, _⟩ => show win4_1.index t (1 : Fin 2) * 64 + 1 * k.val = k.val; omega
  have h2 : ∀ k : Fin 64, ((cfg4.win 2).blk t).view.emb (ix2 p k) = ix2 ((((cfg4.win 5).blk t).view.emb (ix2 p q)) 0) k := fun k => by
    funext a; apply Fin.ext
    match a with
    | ⟨0, _⟩ => show win4_2.index t (0 : Fin 2) * 5000 + 1 * p.val = win4_5.index t (0 : Fin 2) * 5000 + 1 * p.val; omega
    | ⟨1, _⟩ => show win4_2.index t (1 : Fin 2) * 64 + 1 * k.val = k.val; omega
  have h3 : ∀ k : Fin 64, ((cfg4.win 3).blk t).view.emb (ix2 k q) = ix2 k q := fun k => by
    funext a; apply Fin.ext
    match a with
    | ⟨0, _⟩ => show win4_3.index t (0 : Fin 2) * 64 + 1 * k.val = k.val; omega
    | ⟨1, _⟩ => show win4_3.index t (1 : Fin 2) * 64 + 1 * q.val = q.val; omega
  have h4 : ((cfg4.win 4).blk t).view.emb (ix2 (0 : Fin 1) q) = ix2 (0 : Fin 1) q := by
    funext a; apply Fin.ext
    match a with
    | ⟨0, _⟩ => show win4_4.index t (0 : Fin 2) * 1 + 1 * 0 = 0; omega
    | ⟨1, _⟩ => show win4_4.index t (1 : Fin 2) * 64 + 1 * q.val = q.val; omega
  show _ = layerRows (V c main_v105) (V c main_v92) (V c main_v35) (V c main_v107) (V c main_v110) (((cfg4.win 5).blk t).view.emb (ix2 p q))
  rw [hemb]
  exact rows_of_blocks4 _ _ _ _ _ _ _ _ _ _ _ p q (fun k => congrArg (V c main_v105) (h0 k)) (fun k => congrArg (V c main_v92) (h1 k))
    (fun k => congrArg (V c main_v35) (h2 k)) (fun k => congrArg (V c main_v107) (h3 k)) (congrArg (V c main_v110) h4)

/-- An index of the output array is in point `t`'s block iff its row is among the block's 5000. -/
theorem mem_blk4 (t : Fin cfg4.N) (i : S100000x64.Idx) :
    i ∈ ((cfg4.win 5).blk t).view.set ↔ ∀ a : Fin 2, win4_5.index t a * S5000x64.size a ≤ (i a).val ∧ (i a).val < win4_5.index t a * S5000x64.size a + S5000x64.size a := by
  show i ∈ ((View.whole main_v111).slice (win4_5.rect t)).set ↔ _
  rw [View.set_slice_whole, Rect.mem_set_unit]
  exact Iff.rfl

/-- The twenty blocks tile the array: row r lies in block r / 5000. -/
theorem tiles4 (i : S100000x64.Idx) : ∃ t : Fin cfg4.N, (cfg4.win 5).flush t = true ∧ i ∈ ((cfg4.win 5).blk t).view.set := by
  have hi0 : (i 0).val < 100000 := (i 0).isLt
  have hi1 : (i 1).val < 64 := (i 1).isLt
  refine ⟨⟨(i 0).val / 5000, by rw [show cfg4.N = 20 from N_4]; omega⟩, flush4_5 _, ?_⟩
  rw [mem_blk4]
  obtain ⟨-, -, -, -, -, -, -, -, -, -, e10, e11⟩ := idx4 ⟨(i 0).val / 5000, by rw [show cfg4.N = 20 from N_4]; omega⟩
  intro a
  match a with
  | ⟨0, _⟩ => show win4_5.index _ (0 : Fin 2) * 5000 ≤ (i 0).val ∧ (i 0).val < win4_5.index _ (0 : Fin 2) * 5000 + 5000; rw [e10]; show (i 0).val / 5000 * 5000 ≤ _ ∧ _ < (i 0).val / 5000 * 5000 + 5000; omega
  | ⟨1, _⟩ => show win4_5.index _ (1 : Fin 2) * 64 ≤ (i 1).val ∧ (i 1).val < win4_5.index _ (1 : Fin 2) * 64 + 64; rw [e11]; omega

/-- THE OUTPUT ARRAY of pipeline 4 after its last point: the rows of the layer. -/
theorem final4 (c : Dev nD) : (dat4 V c).arrAt 5 cfg4.N = layerRows (V c main_v105) (V c main_v92) (V c main_v35) (V c main_v107) (V c main_v110) :=
  (dat4 V c).arrAt_eq_of_cover 5 _ (fun t _ => flushed4 V c t) tiles4

end Final4

end Cert.KernelIdeal.Pipe

end
-- ==== Proof.KI_Fwd.lean ====
/-
  The kernel's result buffer at the end of the run, at the exact values: each pipeline's output array is the rows of its stage
  at what the host stretch before it left, and the stages compose to the last stage of the forward pass at the launch contents
  of the arguments.
-/
import proofs.«134498_j40424232190561_2_alg».proof.Proof.Gen.KernelIdeal.Launch
import proofs.«134498_j40424232190561_2_alg».proof.Proof.Gen.KernelIdeal.Skeleton
import proofs.«134498_j40424232190561_2_alg».proof.Proof.Gen.KernelIdeal.Points
import proofs.«134498_j40424232190561_2_alg».proof.Proof.KI_Fwd0
import proofs.«134498_j40424232190561_2_alg».proof.Proof.KI_FwdE1
import proofs.«134498_j40424232190561_2_alg».proof.Proof.KI_FwdE2
import proofs.«134498_j40424232190561_2_alg».proof.Proof.KI_FwdE3
import proofs.«134498_j40424232190561_2_alg».proof.Proof.KI_FwdE4
import proofs.«134498_j40424232190561_2_alg».proof.Proof.KI_Final2
import proofs.«134498_j40424232190561_2_alg».proof.Proof.KI_Final3
import proofs.«134498_j40424232190561_2_alg».proof.Proof.KI_Final4
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

open Idealize.ShloMosaic.StableHlo

section Forward

variable (m : (ℓ : Loc nD τ sig) → Buf (Elt Ideal) ℓ) (c : Dev nD)

/-! ## Pipeline 0: the input projection -/

set_option maxHeartbeats 2000000 in
theorem X0_val : X0 m c (Proc.devRef .tc main_v35) = (x0K (m ((c : Thread nD τ).loc main_arg0)) (m ((c : Thread nD τ).loc main_arg2)) (m ((c : Thread nD τ).loc main_arg3))) := by
  refine (X0_arr m c 3).trans ((final0 (atTc (E0 m)) c).trans ?_)
  show inRows (E0 m c (Proc.devRef .tc main_arg0)) (E0 m c (Proc.devRef .tc main_arg2)) (E0 m c (Proc.devRef .tc main_v34)) = _
  rw [E0_arg m c main_arg0 (by decide) (by decide) (by decide) (by decide) (by decide),
    E0_arg m c main_arg2 (by decide) (by decide) (by decide) (by decide) (by decide), E0_rIn]
  rfl

/-! ## Layer 1 -/

set_option maxHeartbeats 2000000 in
theorem X1_val : X1 m c (Proc.devRef .tc main_v54) = (x1K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (X1_out m c).trans ((final1 (atTc (E1 m)) c).trans ?_)
  show layerRows (E1 m c (Proc.devRef .tc main_v48)) (E1 m c (Proc.devRef .tc main_v35)) (E1 m c (Proc.devRef .tc main_v35)) (E1 m c (Proc.devRef .tc main_v50)) (E1 m c (Proc.devRef .tc main_v53)) = _
  rw [E1_agg, E1_w, E1_r, E1_keep m c main_v35 (by decide)]
  rw [show X0 m c (Proc.devRef .tc main_v3) = rowK (m ((c : Thread nD τ).loc main_arg1)) from ((X0_keep m c main_v3 (by decide))).trans (E0_row m c),
    show X0 m c (Proc.devRef .tc main_v6) = colK (m ((c : Thread nD τ).loc main_arg1)) from ((X0_keep m c main_v6 (by decide))).trans (E0_col m c),
    show X0 m c (Proc.devRef .tc main_v33) = nrmK (m ((c : Thread nD τ).loc main_arg1)) from ((X0_keep m c main_v33 (by decide))).trans (E0_nrm m c),
    show X0 m c (Proc.devRef .tc main_arg4) = (m ((c : Thread nD τ).loc main_arg4)) from ((X0_keep m c main_arg4 (by decide))).trans (E0_arg m c main_arg4 (by decide) (by decide) (by decide) (by decide) (by decide)),
    show X0 m c (Proc.devRef .tc main_arg5) = (m ((c : Thread nD τ).loc main_arg5)) from ((X0_keep m c main_arg5 (by decide))).trans (E0_arg m c main_arg5 (by decide) (by decide) (by decide) (by decide) (by decide)),
    X0_val]
  rfl

/-! ## Layer 2 -/

set_option maxHeartbeats 2000000 in
theorem X2_val : X2 m c (Proc.devRef .tc main_v73) = (x2K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (X2_arr m c 5).trans ((final2 (atTc (E2 m)) c).trans ?_)
  show layerRows (E2 m c (Proc.devRef .tc main_v67)) (E2 m c (Proc.devRef .tc main_v54)) (E2 m c (Proc.devRef .tc main_v35)) (E2 m c (Proc.devRef .tc main_v69)) (E2 m c (Proc.devRef .tc main_v72)) = _
  rw [E2_agg, E2_w, E2_r, E2_keep m c main_v54 (by decide), E2_keep m c main_v35 (by decide)]
  rw [show X1 m c (Proc.devRef .tc main_v3) = rowK (m ((c : Thread nD τ).loc main_arg1)) from ((X1_of_ne m c main_v3 (by decide)).trans <| (E1_keep m c main_v3 (by decide)).trans <| (X0_keep m c main_v3 (by decide))).trans (E0_row m c),
    show X1 m c (Proc.devRef .tc main_v6) = colK (m ((c : Thread nD τ).loc main_arg1)) from ((X1_of_ne m c main_v6 (by decide)).trans <| (E1_keep m c main_v6 (by decide)).trans <| (X0_keep m c main_v6 (by decide))).trans (E0_col m c),
    show X1 m c (Proc.devRef .tc main_v33) = nrmK (m ((c : Thread nD τ).loc main_arg1)) from ((X1_of_ne m c main_v33 (by decide)).trans <| (E1_keep m c main_v33 (by decide)).trans <| (X0_keep m c main_v33 (by decide))).trans (E0_nrm m c),
    show X1 m c (Proc.devRef .tc main_arg4) = (m ((c : Thread nD τ).loc main_arg4)) from ((X1_of_ne m c main_arg4 (by decide)).trans <| (E1_keep m c main_arg4 (by decide)).trans <| (X0_keep m c main_arg4 (by decide))).trans (E0_arg m c main_arg4 (by decide) (by decide) (by decide) (by decide) (by decide)),
    show X1 m c (Proc.devRef .tc main_arg5) = (m ((c : Thread nD τ).loc main_arg5)) from ((X1_of_ne m c main_arg5 (by decide)).trans <| (E1_keep m c main_arg5 (by decide)).trans <| (X0_keep m c main_arg5 (by decide))).trans (E0_arg m c main_arg5 (by decide) (by decide) (by decide) (by decide) (by decide)),
    show X1 m c (Proc.devRef .tc main_v35) = (x0K (m ((c : Thread nD τ).loc main_arg0)) (m ((c : Thread nD τ).loc main_arg2)) (m ((c : Thread nD τ).loc main_arg3))) from ((X1_of_ne m c main_v35 (by decide)).trans (E1_keep m c main_v35 (by decide))).trans (X0_val m c),
    X1_val]
  rfl

/-! ## Layer 3 -/

set_option maxHeartbeats 2000000 in
theorem X3_val : X3 m c (Proc.devRef .tc main_v92) = (x3K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (X3_arr m c 5).trans ((final3 (atTc (E3 m)) c).trans ?_)
  show layerRows (E3 m c (Proc.devRef .tc main_v86)) (E3 m c (Proc.devRef .tc main_v73)) (E3 m c (Proc.devRef .tc main_v35)) (E3 m c (Proc.devRef .tc main_v88)) (E3 m c (Proc.devRef .tc main_v91)) = _
  rw [E3_agg, E3_w, E3_r, E3_keep m c main_v73 (by decide), E3_keep m c main_v35 (by decide)]
  rw [show X2 m c (Proc.devRef .tc main_v3) = rowK (m ((c : Thread nD τ).loc main_arg1)) from ((X2_keep m c main_v3 (by decide)).trans <| (E2_keep m c main_v3 (by decide)).trans <| (X1_of_ne m c main_v3 (by decide)).trans <| (E1_keep m c main_v3 (by decide)).trans <| (X0_keep m c main_v3 (by decide))).trans (E0_row m c),
    show X2 m c (Proc.devRef .tc main_v6) = colK (m ((c : Thread nD τ).loc main_arg1)) from ((X2_keep m c main_v6 (by decide)).trans <| (E2_keep m c main_v6 (by decide)).trans <| (X1_of_ne m c main_v6 (by decide)).trans <| (E1_keep m c main_v6 (by decide)).trans <| (X0_keep m c main_v6 (by decide))).trans (E0_col m c),
    show X2 m c (Proc.devRef .tc main_v33) = nrmK (m ((c : Thread nD τ).loc main_arg1)) from ((X2_keep m c main_v33 (by decide)).trans <| (E2_keep m c main_v33 (by decide)).trans <| (X1_of_ne m c main_v33 (by decide)).trans <| (E1_keep m c main_v33 (by decide)).trans <| (X0_keep m c main_v33 (by decide))).trans (E0_nrm m c),
    show X2 m c (Proc.devRef .tc main_arg4) = (m ((c : Thread nD τ).loc main_arg4)) from ((X2_keep m c main_arg4 (by decide)).trans <| (E2_keep m c main_arg4 (by decide)).trans <| (X1_of_ne m c main_arg4 (by decide)).trans <| (E1_keep m c main_arg4 (by decide)).trans <| (X0_keep m c main_arg4 (by decide))).trans (E0_arg m c main_arg4 (by decide) (by decide) (by decide) (by decide) (by decide)),
    show X2 m c (Proc.devRef .tc main_arg5) = (m ((c : Thread nD τ).loc main_arg5)) from ((X2_keep m c main_arg5 (by decide)).trans <| (E2_keep m c main_arg5 (by decide)).trans <| (X1_of_ne m c main_arg5 (by decide)).trans <| (E1_keep m c main_arg5 (by decide)).trans <| (X0_keep m c main_arg5 (by decide))).trans (E0_arg m c main_arg5 (by decide) (by decide) (by decide) (by decide) (by decide)),
    show X2 m c (Proc.devRef .tc main_v35) = (x0K (m ((c : Thread nD τ).loc main_arg0)) (m ((c : Thread nD τ).loc main_arg2)) (m ((c : Thread nD τ).loc main_arg3))) from ((X2_keep m c main_v35 (by decide)).trans <| (E2_keep m c main_v35 (by decide)).trans <| (X1_of_ne m c main_v35 (by decide)).trans (E1_keep m c main_v35 (by decide))).trans (X0_val m c),
    X2_val]
  rfl

/-! ## Layer 4 -/

set_option maxHeartbeats 2000000 in
theorem X4_val : X4 m c (Proc.devRef .tc main_v111) = (x4K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (X4_arr m c 5).trans ((final4 (atTc (E4 m)) c).trans ?_)
  show layerRows (E4 m c (Proc.devRef .tc main_v105)) (E4 m c (Proc.devRef .tc main_v92)) (E4 m c (Proc.devRef .tc main_v35)) (E4 m c (Proc.devRef .tc main_v107)) (E4 m c (Proc.devRef .tc main_v110)) = _
  rw [E4_agg, E4_w, E4_r, E4_keep m c main_v92 (by decide), E4_keep m c main_v35 (by decide)]
  rw [show X3 m c (Proc.devRef .tc main_v3) = rowK (m ((c : Thread nD τ).loc main_arg1)) from ((X3_keep m c main_v3 (by decide)).trans <| (E3_keep m c main_v3 (by decide)).trans <| (X2_keep m c main_v3 (by decide)).trans <| (E2_keep m c main_v3 (by decide)).trans <| (X1_of_ne m c main_v3 (by decide)).trans <| (E1_keep m c main_v3 (by decide)).trans <| (X0_keep m c main_v3 (by decide))).trans (E0_row m c),
    show X3 m c (Proc.devRef .tc main_v6) = colK (m ((c : Thread nD τ).loc main_arg1)) from ((X3_keep m c main_v6 (by decide)).trans <| (E3_keep m c main_v6 (by decide)).trans <| (X2_keep m c main_v6 (by decide)).trans <| (E2_keep m c main_v6 (by decide)).trans <| (X1_of_ne m c main_v6 (by decide)).trans <| (E1_keep m c main_v6 (by decide)).trans <| (X0_keep m c main_v6 (by decide))).trans (E0_col m c),
    show X3 m c (Proc.devRef .tc main_v33) = nrmK (m ((c : Thread nD τ).loc main_arg1)) from ((X3_keep m c main_v33 (by decide)).trans <| (E3_keep m c main_v33 (by decide)).trans <| (X2_keep m c main_v33 (by decide)).trans <| (E2_keep m c main_v33 (by decide)).trans <| (X1_of_ne m c main_v33 (by decide)).trans <| (E1_keep m c main_v33 (by decide)).trans <| (X0_keep m c main_v33 (by decide))).trans (E0_nrm m c),
    show X3 m c (Proc.devRef .tc main_arg4) = (m ((c : Thread nD τ).loc main_arg4)) from ((X3_keep m c main_arg4 (by decide)).trans <| (E3_keep m c main_arg4 (by decide)).trans <| (X2_keep m c main_arg4 (by decide)).trans <| (E2_keep m c main_arg4 (by decide)).trans <| (X1_of_ne m c main_arg4 (by decide)).trans <| (E1_keep m c main_arg4 (by decide)).trans <| (X0_keep m c main_arg4 (by decide))).trans (E0_arg m c main_arg4 (by decide) (by decide) (by decide) (by decide) (by decide)),
    show X3 m c (Proc.devRef .tc main_arg5) = (m ((c : Thread nD τ).loc main_arg5)) from ((X3_keep m c main_arg5 (by decide)).trans <| (E3_keep m c main_arg5 (by decide)).trans <| (X2_keep m c main_arg5 (by decide)).trans <| (E2_keep m c main_arg5 (by decide)).trans <| (X1_of_ne m c main_arg5 (by decide)).trans <| (E1_keep m c main_arg5 (by decide)).trans <| (X0_keep m c main_arg5 (by decide))).trans (E0_arg m c main_arg5 (by decide) (by decide) (by decide) (by decide) (by decide)),
    show X3 m c (Proc.devRef .tc main_v35) = (x0K (m ((c : Thread nD τ).loc main_arg0)) (m ((c : Thread nD τ).loc main_arg2)) (m ((c : Thread nD τ).loc main_arg3))) from ((X3_keep m c main_v35 (by decide)).trans <| (E3_keep m c main_v35 (by decide)).trans <| (X2_keep m c main_v35 (by decide)).trans <| (E2_keep m c main_v35 (by decide)).trans <| (X1_of_ne m c main_v35 (by decide)).trans (E1_keep m c main_v35 (by decide))).trans (X0_val m c),
    X3_val]
  rfl

/-! ## Pipeline 5: the output projection, and the result -/

set_option maxHeartbeats 2000000 in
/-- THE RESULT BUFFER when the run ends holds the last stage of the forward pass at the arguments' launch contents. -/
theorem X5_val : X5 m c (Proc.devRef .tc main_v113) = yK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (X5_arr m c 3).trans ((final5 (atTc (E5 m)) c).trans ?_)
  show outRows (E5 m c (Proc.devRef .tc main_v111)) (E5 m c (Proc.devRef .tc main_arg6)) (E5 m c (Proc.devRef .tc main_v112)) = _
  rw [E5_r, E5_keep m c main_v111 (by decide), E5_keep m c main_arg6 (by decide)]
  rw [show X4 m c (Proc.devRef .tc main_arg6) = (m ((c : Thread nD τ).loc main_arg6)) from ((X4_keep m c main_arg6 (by decide)).trans <| (E4_keep m c main_arg6 (by decide)).trans <| (X3_keep m c main_arg6 (by decide)).trans <| (E3_keep m c main_arg6 (by decide)).trans <| (X2_keep m c main_arg6 (by decide)).trans <| (E2_keep m c main_arg6 (by decide)).trans <| (X1_of_ne m c main_arg6 (by decide)).trans <| (E1_keep m c main_arg6 (by decide)).trans <| (X0_keep m c main_arg6 (by decide))).trans (E0_arg m c main_arg6 (by decide) (by decide) (by decide) (by decide) (by decide)),
    show X4 m c (Proc.devRef .tc main_arg7) = (m ((c : Thread nD τ).loc main_arg7)) from ((X4_keep m c main_arg7 (by decide)).trans <| (E4_keep m c main_arg7 (by decide)).trans <| (X3_keep m c main_arg7 (by decide)).trans <| (E3_keep m c main_arg7 (by decide)).trans <| (X2_keep m c main_arg7 (by decide)).trans <| (E2_keep m c main_arg7 (by decide)).trans <| (X1_of_ne m c main_arg7 (by decide)).trans <| (E1_keep m c main_arg7 (by decide)).trans <| (X0_keep m c main_arg7 (by decide))).trans (E0_arg m c main_arg7 (by decide) (by decide) (by decide) (by decide) (by decide)),
    X4_val]
  rfl

end Forward

end Cert.KernelIdeal.Pipe

end
-- ==== Proof.LibHostRows.lean ====
/-
  Host-side row operations read at one entry, at the exact values.

  * A `dot_general` of an `M × K` by a `K × N` matrix along the one shared axis: entry `(p, j)` is
    `∑ k, l[p,k] · r[k,j]` — at the exact values the host's product has no accumulator, no rounding and no order.
  * A vector of length `C` viewed as one row and that row spread over `R` rows: entry `(p, k)` is the vector's `k`.
  * A vector of length `C` re-laid as a `1 × C` block: entry `(0, k)` is the vector's `k`.
-/
import Idealize.ShloMosaic.PureOps.Ideal.Laws
import Idealize.ShloMosaic.Lib.ValueIdx
import Idealize.ShloMosaic.Lib.Pipeline.Value

noncomputable section

open scoped BigOperators

namespace Cert.LibHostRows

open Idealize.ShloMosaic Idealize.ShloMosaic.ValueIdx

/-- `(l · r)[p, j] = ∑ k, l[p,k] · r[k,j]` for the host's product whose left operand index at output `i` and
    contraction position `q` is `(i 0, q)` and whose right operand index is `(q, i 1)`. -/
theorem hostDot_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    Host.dotGeneral (F := Ideal) D prec l r (ix2 p j) = ∑ k : Fin K, l (ix2 p k) * r (ix2 k j) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A vector viewed as one row, the row spread over `R` rows: entry `(p, k)` is the vector's entry `k`. -/
theorem rowOfVec_spread_apply {α : Type} {R C : ℕ} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (k : Fin C) :
    broadcastInDim ⟨2, ![R, C]⟩ ![0, 1] h2 (broadcastInDim ⟨2, ![1, C]⟩ ![1] h1 b) (ix2 p k) = b (ix1 k) := by
  rw [broadcastInDim_apply ![0, 1] h2 _ (ix2 p k) (ix2 (0 : Fin 1) k) (fun a => match a with
    | ⟨0, _⟩ => by show 0 = if (1 : Nat) = 1 then 0 else _; rw [if_pos rfl]
    | ⟨1, _⟩ => by show k.val = if C = 1 then 0 else k.val; rw [if_neg hC])]
  exact broadcastInDim_apply ![1] h1 b (ix2 (0 : Fin 1) k) (ix1 k) (fun a => match a with
    | ⟨0, _⟩ => by show k.val = if C = 1 then 0 else k.val; rw [if_neg hC])

/-- A vector re-laid as a one-row block: entry `(0, k)` is the vector's entry `k` (the same row-major position). -/
theorem rowOfVec_cast_apply {α : Type} {C : ℕ} (b : (⟨1, ![C]⟩ : Shape).Idx → α)
    (h : (⟨1, ![C]⟩ : Shape).ShapeCasts ⟨2, ![1, C]⟩) (k : Fin C) :
    shapeCast ⟨2, ![1, C]⟩ b h (ix2 (0 : Fin 1) k) = b (ix1 k) :=
  shapeCast_apply b h (ix2 (0 : Fin 1) k) (ix1 k) (by
    rw [Shape.rowMajor_val_one, Shape.rowMajor_val_two]
    show k.val = 0 * C + k.val
    omega)

end Cert.LibHostRows

end
-- ==== Proof.RefRows.lean ====
/-
  The reference's three dense steps, each read at one entry of its whole array.

  The reference works on whole arrays of 100000 rows with the host's operations.  The three steps below are its
  terms, operation by operation: the input projection (a product, the bias spread over the rows, a clamp below at the
  zero word), a layer (the mix `c₈·agg + c₁·x + c₁·x₀` with the two literal words kept as words, a product, the bias
  subtracted, a clamp below at the zero word, the bias added back), and the output projection (a product and the bias).
  At the exact values the host's product is the plain sum over the contraction index and every other operation acts
  entry by entry, so an entry of each step is a closed expression in the entries of its operands; the bias, a vector
  spread over the rows, is read at the column.
-/
import proofs.«134498_j40424232190561_2_alg».proof.ReferenceIdeal
import proofs.«134498_j40424232190561_2_alg».proof.Proof.LibHostRows

noncomputable section

open scoped BigOperators

namespace Cert.ReferenceIdeal.RefRows

open Idealize.ShloMosaic Idealize.ShloMosaic.ValueIdx Cert.ReferenceIdeal

variable [Facts₀]
open Facts₀

/-! ## The three steps, as the reference's own terms -/

/-- The input projection: `max (X·W + b) 0`, the bias spread over the rows. -/
def inProj (X : FVec Ideal S100000x128 .f32) (W : FVec Ideal S128x64 .f32) (b : FVec Ideal S64 .f32) :
    FVec Ideal S100000x64 .f32 :=
  maximumf
    (addf (Host.dotGeneral (F := Ideal) dot_S100000x128_S128x64_S100000x64_1_0_0_1_n_n none X W)
      (broadcastInDim S100000x64 ![0, 1] bcast_S1x64_S100000x64_0_1 (broadcastInDim S1x64 ![1] bcast_S64_S1x64_1 b)))
    (broadcastInDim S100000x64 ![] bcast_S_S100000x64 (constant (F := Ideal) S_ .f32 0x00000000#32))

/-- A layer: `max ((c₈·agg + c₁·x + c₁·x₀)·W − b) 0 + b`, the bias spread over the rows. -/
def layer (agg x x0 : FVec Ideal S100000x64 .f32) (W : FVec Ideal S64x64 .f32) (b : FVec Ideal S64 .f32) :
    FVec Ideal S100000x64 .f32 :=
  addf
    (maximumf
      (subf
        (Host.dotGeneral (F := Ideal) dot_S100000x64_S64x64_S100000x64_1_0_0_1_n_n none
          (addf
            (addf
              (mulf (broadcastInDim S100000x64 ![] bcast_S_S100000x64 (constant (F := Ideal) S_ .f32 0x3F4CCCCD#32)) agg)
              (mulf (broadcastInDim S100000x64 ![] bcast_S_S100000x64 (constant (F := Ideal) S_ .f32 0x3DCCCCCD#32)) x))
            (mulf (broadcastInDim S100000x64 ![] bcast_S_S100000x64 (constant (F := Ideal) S_ .f32 0x3DCCCCCD#32)) x0))
          W)
        (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32)))
    (broadcastInDim S100000x64 ![0, 1] bcast_S1x64_S100000x64_0_1 (broadcastInDim S1x64 ![1] bcast_S64_S1x64_1 b))

/-- The output projection: `x·W + b`, the bias spread over the rows. -/
def outProj (x : FVec Ideal S100000x64 .f32) (W : FVec Ideal S64x40 .f32) (b : FVec Ideal S40 .f32) :
    FVec Ideal S100000x40 .f32 :=
  addf (Host.dotGeneral (F := Ideal) dot_S100000x64_S64x40_S100000x40_1_0_0_1_n_n none x W)
    (broadcastInDim S100000x40 ![0, 1] bcast_S1x40_S100000x40_0_1 (broadcastInDim S1x40 ![1] bcast_S40_S1x40_1 b))

/-! ## The three products read at a row and a column -/

/-- The input projection's product: the 100000 × 128 features by the 128 × 64 weights. -/
theorem inDot_apply (l : FVec Ideal S100000x128 .f32) (r : FVec Ideal S128x64 .f32) (p : Fin 100000) (j : Fin 64) :
    Host.dotGeneral (F := Ideal) dot_S100000x128_S128x64_S100000x64_1_0_0_1_n_n none l r (ix2 p j)
      = ∑ k : Fin 128, l (ix2 p k) * r (ix2 k j) :=
  Cert.LibHostRows.hostDot_apply dot_S100000x128_S128x64_S100000x64_1_0_0_1_n_n rfl rfl
    (fun i q => by
      unfold DotDims.lhsIdx
      rw [dif_neg (show ¬(0 : Fin S100000x128.rank) ∈ dot_S100000x128_S128x64_S100000x64_1_0_0_1_n_n.lhsBatch from List.not_mem_nil),
        dif_pos (show (0 : Fin S100000x128.rank) ∈ dot_S100000x128_S128x64_S100000x64_1_0_0_1_n_n.lhsNonContracting from List.mem_singleton.mpr rfl)]
      rfl)
    (fun i q => dot_S100000x128_S128x64_S100000x64_1_0_0_1_n_n.lhsIdx_val_of_single rfl i q)
    (fun i q => dot_S100000x128_S128x64_S100000x64_1_0_0_1_n_n.rhsIdx_val_of_single rfl i q)
    (fun i q => by
      unfold DotDims.rhsIdx
      rw [dif_neg (show ¬(1 : Fin S128x64.rank) ∈ dot_S100000x128_S128x64_S100000x64_1_0_0_1_n_n.rhsBatch from List.not_mem_nil),
        dif_pos (show (1 : Fin S128x64.rank) ∈ dot_S100000x128_S128x64_S100000x64_1_0_0_1_n_n.rhsNonContracting from List.mem_singleton.mpr rfl)]
      rfl)
    none l r p j

/-- A layer's product: a 100000 × 64 array by the 64 × 64 weights. -/
theorem layerDot_apply (l : FVec Ideal S100000x64 .f32) (r : FVec Ideal S64x64 .f32) (p : Fin 100000) (j : Fin 64) :
    Host.dotGeneral (F := Ideal) dot_S100000x64_S64x64_S100000x64_1_0_0_1_n_n none l r (ix2 p j)
      = ∑ k : Fin 64, l (ix2 p k) * r (ix2 k j) :=
  Cert.LibHostRows.hostDot_apply dot_S100000x64_S64x64_S100000x64_1_0_0_1_n_n rfl rfl
    (fun i q => by
      unfold DotDims.lhsIdx
      rw [dif_neg (show ¬(0 : Fin S100000x64.rank) ∈ dot_S100000x64_S64x64_S100000x64_1_0_0_1_n_n.lhsBatch from List.not_mem_nil),
        dif_pos (show (0 : Fin S100000x64.rank) ∈ dot_S100000x64_S64x64_S100000x64_1_0_0_1_n_n.lhsNonContracting from List.mem_singleton.mpr rfl)]
      rfl)
    (fun i q => dot_S100000x64_S64x64_S100000x64_1_0_0_1_n_n.lhsIdx_val_of_single rfl i q)
    (fun i q => dot_S100000x64_S64x64_S100000x64_1_0_0_1_n_n.rhsIdx_val_of_single rfl i q)
    (fun i q => by
      unfold DotDims.rhsIdx
      rw [dif_neg (show ¬(1 : Fin S64x64.rank) ∈ dot_S100000x64_S64x64_S100000x64_1_0_0_1_n_n.rhsBatch from List.not_mem_nil),
        dif_pos (show (1 : Fin S64x64.rank) ∈ dot_S100000x64_S64x64_S100000x64_1_0_0_1_n_n.rhsNonContracting from List.mem_singleton.mpr rfl)]
      rfl)
    none l r p j

/-- The output projection's product: a 100000 × 64 array by the 64 × 40 weights. -/
theorem outDot_apply (l : FVec Ideal S100000x64 .f32) (r : FVec Ideal S64x40 .f32) (p : Fin 100000) (j : Fin 40) :
    Host.dotGeneral (F := Ideal) dot_S100000x64_S64x40_S100000x40_1_0_0_1_n_n none l r (ix2 p j)
      = ∑ k : Fin 64, l (ix2 p k) * r (ix2 k j) :=
  Cert.LibHostRows.hostDot_apply dot_S100000x64_S64x40_S100000x40_1_0_0_1_n_n rfl rfl
    (fun i q => by
      unfold DotDims.lhsIdx
      rw [dif_neg (show ¬(0 : Fin S100000x64.rank) ∈ dot_S100000x64_S64x40_S100000x40_1_0_0_1_n_n.lhsBatch from List.not_mem_nil),
        dif_pos (show (0 : Fin S100000x64.rank) ∈ dot_S100000x64_S64x40_S100000x40_1_0_0_1_n_n.lhsNonContracting from List.mem_singleton.mpr rfl)]
      rfl)
    (fun i q => dot_S100000x64_S64x40_S100000x40_1_0_0_1_n_n.lhsIdx_val_of_single rfl i q)
    (fun i q => dot_S100000x64_S64x40_S100000x40_1_0_0_1_n_n.rhsIdx_val_of_single rfl i q)
    (fun i q => by
      unfold DotDims.rhsIdx
      rw [dif_neg (show ¬(1 : Fin S64x40.rank) ∈ dot_S100000x64_S64x40_S100000x40_1_0_0_1_n_n.rhsBatch from List.not_mem_nil),
        dif_pos (show (1 : Fin S64x40.rank) ∈ dot_S100000x64_S64x40_S100000x40_1_0_0_1_n_n.rhsNonContracting from List.mem_singleton.mpr rfl)]
      rfl)
    none l r p j

/-! ## A word spread over a whole array -/

/-- A scalar constant spread over the whole 100000 × 64 array reads the word's value at every entry. -/
theorem spreadWord_apply (w : BitVec 32) (i : S100000x64.Idx) :
    broadcastInDim S100000x64 ![] bcast_S_S100000x64 (constant (F := Ideal) S_ .f32 w) i = Ideal.ofBits .f32 w :=
  broadcastInDim_apply ![] bcast_S_S100000x64 _ i ix0 (fun a => a.elim0)

/-! ## The mix of a layer at an entry -/

/-- The mix `c₈·agg + c₁·x + c₁·x₀` read at an entry: the two literal words stay words. -/
theorem mix_apply (agg x x0 : FVec Ideal S100000x64 .f32) (i : S100000x64.Idx) :
    addf
        (addf
          (mulf (broadcastInDim S100000x64 ![] bcast_S_S100000x64 (constant (F := Ideal) S_ .f32 0x3F4CCCCD#32)) agg)
          (mulf (broadcastInDim S100000x64 ![] bcast_S_S100000x64 (constant (F := Ideal) S_ .f32 0x3DCCCCCD#32)) x))
        (mulf (broadcastInDim S100000x64 ![] bcast_S_S100000x64 (constant (F := Ideal) S_ .f32 0x3DCCCCCD#32)) x0) i
      = (Ideal.ofBits .f32 0x3F4CCCCD#32 * agg i + Ideal.ofBits .f32 0x3DCCCCCD#32 * x i)
          + Ideal.ofBits .f32 0x3DCCCCCD#32 * x0 i := by
  rw [addf_apply, addf_apply, mulf_apply, mulf_apply, mulf_apply, spreadWord_apply, spreadWord_apply]

/-! ## The three steps at an entry -/

/-- Entry `(r, j)` of the input projection: `max (∑ k, X[r,k]·W[k,j] + b[j]) 0`. -/
theorem inProj_apply (X : FVec Ideal S100000x128 .f32) (W : FVec Ideal S128x64 .f32) (b : FVec Ideal S64 .f32)
    (r : Fin 100000) (j : Fin 64) :
    inProj X W b (ix2 r j)
      = max ((∑ k : Fin 128, X (ix2 r k) * W (ix2 k j)) + b (ix1 j)) (Ideal.ofBits .f32 0x00000000#32) := by
  unfold inProj
  rw [maximumf_apply, addf_apply, inDot_apply, spreadWord_apply,
    Cert.LibHostRows.rowOfVec_spread_apply (by decide)]

/-- Entry `(r, j)` of a layer: `max (∑ k, (c₈·agg[r,k] + c₁·x[r,k] + c₁·x₀[r,k])·W[k,j] − b[j]) 0 + b[j]`. -/
theorem layer_apply (agg x x0 : FVec Ideal S100000x64 .f32) (W : FVec Ideal S64x64 .f32) (b : FVec Ideal S64 .f32)
    (r : Fin 100000) (j : Fin 64) :
    layer agg x x0 W b (ix2 r j)
      = max ((∑ k : Fin 64, ((Ideal.ofBits .f32 0x3F4CCCCD#32 * agg (ix2 r k) + Ideal.ofBits .f32 0x3DCCCCCD#32 * x (ix2 r k))
          + Ideal.ofBits .f32 0x3DCCCCCD#32 * x0 (ix2 r k)) * W (ix2 k j)) - b (ix1 j))
        (Ideal.ofBits .f32 0x00000000#32) + b (ix1 j) := by
  unfold layer
  rw [addf_apply, maximumf_apply, subf_apply, layerDot_apply, spreadWord_apply,
    Cert.LibHostRows.rowOfVec_spread_apply (by decide)]
  rw [Finset.sum_congr rfl fun k _ => congrArg (· * W (ix2 k j)) (mix_apply agg x x0 (ix2 r k))]

/-- Entry `(r, j)` of the output projection: `∑ k, x[r,k]·W[k,j] + b[j]`. -/
theorem outProj_apply (x : FVec Ideal S100000x64 .f32) (W : FVec Ideal S64x40 .f32) (b : FVec Ideal S40 .f32)
    (r : Fin 100000) (j : Fin 40) :
    outProj x W b (ix2 r j) = (∑ k : Fin 64, x (ix2 r k) * W (ix2 k j)) + b (ix1 j) := by
  unfold outProj
  rw [addf_apply, outDot_apply, Cert.LibHostRows.rowOfVec_spread_apply (by decide)]

end Cert.ReferenceIdeal.RefRows

end
-- ==== Proof.RefStages.lean ====
/-
  The reference's forward pass as a composition of named stages, each a function of the eight argument arrays and each the
  reference's own host operations: the edge lists with their self-loops, the symmetric degree normalisation, one propagation, the
  per-layer weight and bias slices, the state after the input projection and after each of the four layers, and the result.
-/
import proofs.«134498_j40424232190561_2_alg».proof.Proof.Gen.ReferenceIdeal
import proofs.«134498_j40424232190561_2_alg».proof.Proof.RefRows

set_option maxRecDepth 16384

noncomputable section

namespace Cert.ReferenceIdeal.Fwd

open Cert.ReferenceIdeal Cert.ReferenceIdeal.Gen Idealize.ShloMosaic Idealize.ShloMosaic.TcCoe Idealize.SL.Sem Idealize.ShloMosaic.StableHlo

section Stages

/-- The source node of every edge, the N self-loops appended. -/
def rowR (a1 : IVec S2x1600000 32) : IVec S1700000 32 := (concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0)
/-- The target node of every edge, the N self-loops appended. -/
def colR (a1 : IVec S2x1600000 32) : IVec S1700000 32 := (concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0)
/-- The edge weights d(source)^(-1/2) · d(target)^(-1/2), d the in-degree counted with the self-loop (zero where the degree is not positive). -/
def nrmR (a1 : IVec S2x1600000 32) : FVec Ideal S1700000 .f32 := (mulf (Host.gather gather_S100000_S1700000x1_S1700000_n_0_n_n_0_1_1 (select (cmpf (F := Ideal) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (colR a1)) (broadcastInDim S1700000 ![] bcast_S_S1700000 (constant S_ .f32 0x3F800000#32))) (broadcastInDim S100000 ![] bcast_S_S100000 (constant S_ .f32 0x00000000#32))) (Host.powf (Host.scatterAdd scatter_S100000_S1700000x1_S1700000_n_0_0_1 (broadcastInDim S100000 ![] bcast_S_S100000 (constant S_ .f32 0x00000000#32)) (broadcastInDim S1700000x1 ![0] bcast_S1700000_S1700000x1_0 (colR a1)) (broadcastInDim S1700000 ![] bcast_S_S1700000 (constant S_ .f32 0x3F800000#32))) (broadcastInDim S100000 ![] bcast_S_S100000 (constant S_ .f32 0xBF000000#32))) (broadcastInDim S100000 ![] bcast_S_S100000 (id (constant S_ .f32 0x00000000#32)))) (broadcastInDim S1700000x1 ![0] bcast_S1700000_S1700000x1_0 (select (cmpi .slt (rowR a1) (broadcastInDim S1700000 ![] bcast_S_S1700000 (constantI S_ 32 0#32))) (addi (rowR a1) (broadcastInDim S1700000 ![] bcast_S_S1700000 (constantI S_ 32 100000#32))) (rowR a1)))) (Host.gather gather_S100000_S1700000x1_S1700000_n_0_n_n_0_1_1 (select (cmpf (F := Ideal) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (colR a1)) (broadcastInDim S1700000 ![] bcast_S_S1700000 (constant S_ .f32 0x3F800000#32))) (broadcastInDim S100000 ![] bcast_S_S100000 (constant S_ .f32 0x00000000#32))) (Host.powf (Host.scatterAdd scatter_S100000_S1700000x1_S1700000_n_0_0_1 (broadcastInDim S100000 ![] bcast_S_S100000 (constant S_ .f32 0x00000000#32)) (broadcastInDim S1700000x1 ![0] bcast_S1700000_S1700000x1_0 (colR a1)) (broadcastInDim S1700000 ![] bcast_S_S1700000 (constant S_ .f32 0x3F800000#32))) (broadcastInDim S100000 ![] bcast_S_S100000 (constant S_ .f32 0xBF000000#32))) (broadcastInDim S100000 ![] bcast_S_S100000 (id (constant S_ .f32 0x00000000#32)))) (broadcastInDim S1700000x1 ![0] bcast_S1700000_S1700000x1_0 (select (cmpi .slt (colR a1) (broadcastInDim S1700000 ![] bcast_S_S1700000 (constantI S_ 32 0#32))) (addi (colR a1) (broadcastInDim S1700000 ![] bcast_S_S1700000 (constantI S_ 32 100000#32))) (colR a1)))))
/-- One propagation of the state `x`: row `col e` of the result accumulates `nrm e` times row `row e` of `x`. -/
def aggR (x : FVec Ideal S100000x64 .f32) (row col : IVec S1700000 32) (nrm : FVec Ideal S1700000 .f32) : FVec Ideal S100000x64 .f32 :=
  (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 col) (mulf (Host.gather gather_S100000x64_S1700000x1_S1700000x64_1_0_n_n_0_1_164 x (broadcastInDim S1700000x1 ![0] bcast_S1700000_S1700000x1_0 (select (cmpi .slt row (broadcastInDim S1700000 ![] bcast_S_S1700000 (constantI S_ 32 0#32))) (addi row (broadcastInDim S1700000 ![] bcast_S_S1700000 (constantI S_ 32 100000#32))) row))) (broadcastInDim S1700000x64 ![0, 1] bcast_S1700000x1_S1700000x64_0_1 (broadcastInDim S1700000x1 ![0] bcast_S1700000_S1700000x1_0 nrm))))
/-- Layer 1's weight matrix and bias vector. -/
def w0R (a4 : FVec Ideal S4x64x64 .f32) : FVec Ideal S64x64 .f32 := (shapeCast _ (extractStridedSlice S1x64x64 ![0, 0, 0] a4 slices_S4x64x64_S1x64x64_0_0_0) shapeCasts_S1x64x64_S64x64)
def b0R (a5 : FVec Ideal S4x64 .f32) : FVec Ideal S64 .f32 := (shapeCast _ (extractStridedSlice S1x64 ![0, 0] a5 slices_S4x64_S1x64_0_0) shapeCasts_S1x64_S64)
/-- Layer 2's weight matrix and bias vector. -/
def w1R (a4 : FVec Ideal S4x64x64 .f32) : FVec Ideal S64x64 .f32 := (shapeCast _ (extractStridedSlice S1x64x64 ![1, 0, 0] a4 slices_S4x64x64_S1x64x64_1_0_0) shapeCasts_S1x64x64_S64x64)
def b1R (a5 : FVec Ideal S4x64 .f32) : FVec Ideal S64 .f32 := (shapeCast _ (extractStridedSlice S1x64 ![1, 0] a5 slices_S4x64_S1x64_1_0) shapeCasts_S1x64_S64)
/-- Layer 3's weight matrix and bias vector. -/
def w2R (a4 : FVec Ideal S4x64x64 .f32) : FVec Ideal S64x64 .f32 := (shapeCast _ (extractStridedSlice S1x64x64 ![2, 0, 0] a4 slices_S4x64x64_S1x64x64_2_0_0) shapeCasts_S1x64x64_S64x64)
def b2R (a5 : FVec Ideal S4x64 .f32) : FVec Ideal S64 .f32 := (shapeCast _ (extractStridedSlice S1x64 ![2, 0] a5 slices_S4x64_S1x64_2_0) shapeCasts_S1x64_S64)
/-- Layer 4's weight matrix and bias vector. -/
def w3R (a4 : FVec Ideal S4x64x64 .f32) : FVec Ideal S64x64 .f32 := (shapeCast _ (extractStridedSlice S1x64x64 ![3, 0, 0] a4 slices_S4x64x64_S1x64x64_3_0_0) shapeCasts_S1x64x64_S64x64)
def b3R (a5 : FVec Ideal S4x64 .f32) : FVec Ideal S64 .f32 := (shapeCast _ (extractStridedSlice S1x64 ![3, 0] a5 slices_S4x64_S1x64_3_0) shapeCasts_S1x64_S64)

/-- The state after the input projection, -/
def x0R (a0 : FVec Ideal S100000x128 .f32) (a2 : FVec Ideal S128x64 .f32) (a3 : FVec Ideal S64 .f32) : FVec Ideal S100000x64 .f32 := RefRows.inProj a0 a2 a3
/-- after each layer (the first layer's "initial state" is the state itself), -/
def x1R (a0 : FVec Ideal S100000x128 .f32) (a1 : IVec S2x1600000 32) (a2 : FVec Ideal S128x64 .f32) (a3 : FVec Ideal S64 .f32) (a4 : FVec Ideal S4x64x64 .f32) (a5 : FVec Ideal S4x64 .f32) : FVec Ideal S100000x64 .f32 :=
  RefRows.layer (aggR (x0R a0 a2 a3) (rowR a1) (colR a1) (nrmR a1)) (x0R a0 a2 a3) (x0R a0 a2 a3) (w0R a4) (b0R a5)
def x2R (a0 : FVec Ideal S100000x128 .f32) (a1 : IVec S2x1600000 32) (a2 : FVec Ideal S128x64 .f32) (a3 : FVec Ideal S64 .f32) (a4 : FVec Ideal S4x64x64 .f32) (a5 : FVec Ideal S4x64 .f32) : FVec Ideal S100000x64 .f32 :=
  RefRows.layer (aggR (x1R a0 a1 a2 a3 a4 a5) (rowR a1) (colR a1) (nrmR a1)) (x1R a0 a1 a2 a3 a4 a5) (x0R a0 a2 a3) (w1R a4) (b1R a5)
def x3R (a0 : FVec Ideal S100000x128 .f32) (a1 : IVec S2x1600000 32) (a2 : FVec Ideal S128x64 .f32) (a3 : FVec Ideal S64 .f32) (a4 : FVec Ideal S4x64x64 .f32) (a5 : FVec Ideal S4x64 .f32) : FVec Ideal S100000x64 .f32 :=
  RefRows.layer (aggR (x2R a0 a1 a2 a3 a4 a5) (rowR a1) (colR a1) (nrmR a1)) (x2R a0 a1 a2 a3 a4 a5) (x0R a0 a2 a3) (w2R a4) (b2R a5)
def x4R (a0 : FVec Ideal S100000x128 .f32) (a1 : IVec S2x1600000 32) (a2 : FVec Ideal S128x64 .f32) (a3 : FVec Ideal S64 .f32) (a4 : FVec Ideal S4x64x64 .f32) (a5 : FVec Ideal S4x64 .f32) : FVec Ideal S100000x64 .f32 :=
  RefRows.layer (aggR (x3R a0 a1 a2 a3 a4 a5) (rowR a1) (colR a1) (nrmR a1)) (x3R a0 a1 a2 a3 a4 a5) (x0R a0 a2 a3) (w3R a4) (b3R a5)
/-- and the result. -/
def yR (a0 : FVec Ideal S100000x128 .f32) (a1 : IVec S2x1600000 32) (a2 : FVec Ideal S128x64 .f32) (a3 : FVec Ideal S64 .f32) (a4 : FVec Ideal S4x64x64 .f32) (a5 : FVec Ideal S4x64 .f32) (a6 : FVec Ideal S64x40 .f32) (a7 : FVec Ideal S40 .f32) : FVec Ideal S100000x40 .f32 := RefRows.outProj (x4R a0 a1 a2 a3 a4 a5) a6 a7

end Stages

end Cert.ReferenceIdeal.Fwd

end
-- ==== Proof.RefFwd.lean ====
/-
  The reference run's composed result is the last stage of the reference's forward pass at the launch contents of the arguments.
-/
import proofs.«134498_j40424232190561_2_alg».proof.Proof.RefRunP
import proofs.«134498_j40424232190561_2_alg».proof.Proof.RefStages

set_option maxRecDepth 16384

noncomputable section

namespace Cert.ReferenceIdeal.Fwd

open Cert.ReferenceIdeal Cert.ReferenceIdeal.Gen Idealize.ShloMosaic Idealize.ShloMosaic.TcCoe Idealize.SL.Sem Idealize.ShloMosaic.StableHlo

set_option maxHeartbeats 4000000 in
/-- The same operations, named: unfolding every stage gives back the composed term, literal for literal. -/
theorem res_eq (m : (ℓ : Loc nD τ sig) → Buf (Elt Ideal) ℓ) (c : Dev nD) :
    ValueP.res_main_v171 (F := Ideal) m c = yR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold ValueP.res_main_v171 yR x4R x3R x2R x1R x0R RefRows.outProj RefRows.layer RefRows.inProj aggR nrmR w0R w1R w2R w3R b0R b1R b2R b3R rowR colR
  rfl

end Cert.ReferenceIdeal.Fwd

end
-- ==== Proof.Join.lean ====
/-
  The reference's three dense steps and the kernel's three row functions are the same functions.

  Each side was read at one entry as the same closed expression in the operands' entries; the only difference is how the
  bias reaches it.  The reference spreads the bias vector over the rows and reads it at the column; the kernel re-lays the
  vector as a one-row block and reads that block at row 0 and the column.  A vector re-laid as one row keeps its entries
  in place, so the two readings agree and the two functions are equal, entry by entry.
-/
import proofs.«134498_j40424232190561_2_alg».proof.Proof.KI_Final0
import proofs.«134498_j40424232190561_2_alg».proof.Proof.KI_Final1
import proofs.«134498_j40424232190561_2_alg».proof.Proof.KI_Final5
import proofs.«134498_j40424232190561_2_alg».proof.Proof.RefRows

noncomputable section

open scoped BigOperators

namespace Cert.Join

open Idealize.ShloMosaic Idealize.ShloMosaic.ValueIdx

variable [Cert.ReferenceIdeal.Facts₀]

/-- The reference's input projection is the kernel's rows, the bias vector re-laid as the kernel's one-row block. -/
theorem inProj_eq_inRows (X : FVec Ideal Cert.ReferenceIdeal.S100000x128 .f32) (W : FVec Ideal Cert.ReferenceIdeal.S128x64 .f32)
    (b : FVec Ideal Cert.ReferenceIdeal.S64 .f32) :
    Cert.ReferenceIdeal.RefRows.inProj X W b
      = Cert.KernelIdeal.Pipe.inRows X W (shapeCast Cert.KernelIdeal.S1x64 b Cert.KernelIdeal.Facts₀.shapeCasts_S64_S1x64) := by
  funext i
  obtain ⟨r, j, rfl⟩ : ∃ (r : Fin 100000) (j : Fin 64), i = ix2 r j := ⟨i 0, i 1, eq_ix2 i⟩
  rw [Cert.ReferenceIdeal.RefRows.inProj_apply]
  unfold Cert.KernelIdeal.Pipe.inRows
  rw [Cert.LibHostRows.rowOfVec_cast_apply]

/-- The reference's layer is the kernel's rows, the bias vector re-laid as the kernel's one-row block. -/
theorem layer_eq_layerRows (agg x x0 : FVec Ideal Cert.ReferenceIdeal.S100000x64 .f32) (W : FVec Ideal Cert.ReferenceIdeal.S64x64 .f32)
    (b : FVec Ideal Cert.ReferenceIdeal.S64 .f32) :
    Cert.ReferenceIdeal.RefRows.layer agg x x0 W b
      = Cert.KernelIdeal.Pipe.layerRows agg x x0 W (shapeCast Cert.KernelIdeal.S1x64 b Cert.KernelIdeal.Facts₀.shapeCasts_S64_S1x64) := by
  funext i
  obtain ⟨r, j, rfl⟩ : ∃ (r : Fin 100000) (j : Fin 64), i = ix2 r j := ⟨i 0, i 1, eq_ix2 i⟩
  rw [Cert.ReferenceIdeal.RefRows.layer_apply]
  unfold Cert.KernelIdeal.Pipe.layerRows
  rw [Cert.LibHostRows.rowOfVec_cast_apply]

/-- The reference's output projection is the kernel's rows, the bias vector re-laid as the kernel's one-row block. -/
theorem outProj_eq_outRows (x : FVec Ideal Cert.ReferenceIdeal.S100000x64 .f32) (W : FVec Ideal Cert.ReferenceIdeal.S64x40 .f32)
    (b : FVec Ideal Cert.ReferenceIdeal.S40 .f32) :
    Cert.ReferenceIdeal.RefRows.outProj x W b
      = Cert.KernelIdeal.Pipe.outRows x W (shapeCast Cert.KernelIdeal.S1x40 b Cert.KernelIdeal.Facts₀.shapeCasts_S40_S1x40) := by
  funext i
  obtain ⟨r, j, rfl⟩ : ∃ (r : Fin 100000) (j : Fin 40), i = ix2 r j := ⟨i 0, i 1, eq_ix2 i⟩
  rw [Cert.ReferenceIdeal.RefRows.outProj_apply]
  unfold Cert.KernelIdeal.Pipe.outRows
  rw [Cert.LibHostRows.rowOfVec_cast_apply]

end Cert.Join

end
-- ==== Proof.DegNorm.lean ====
/-
  A value guarded twice by the same condition.

  Where a condition bit is set, a choice between `x` and `y` on that bit is `x`; where it is not set, an outer choice on
  the same bit discards whatever was computed from the inner one.  So a function applied to a guarded operand, under the
  same guard, is the function applied to the operand itself under that guard.  The fact is about the choice alone: it
  holds for every interpretation of the floats, and for a power with any exponent in particular.
-/
import Idealize.ShloMosaic.PureOps.Ideal
import Idealize.ShloMosaic.Lib.ValueIdx

noncomputable section

namespace Cert.DegNorm

open Idealize.ShloMosaic Idealize.ShloMosaic.ValueIdx

/-- `select b (g (select b x y)) z = select b (g x) z`: on a set bit the inner choice is `x`, otherwise both sides are `z`. -/
theorem select_guard {α β : Type} (b : BitVec 1) (g : α → β) (x y : α) (z : β) :
    Scalar.select b (g (Scalar.select b x y)) z = Scalar.select b (g x) z := by
  unfold Scalar.select
  by_cases h : b = 1
  · rw [if_pos h, if_pos h, if_pos h]
  · rw [if_neg h, if_neg h]

variable {F : FTy → Type} [FloatOps F] {s : Shape} {φ : FTy}

/-- For whole arrays and the host's power: `select c (powf (select c d u) e) z = select c (powf d e) z`. -/
theorem select_hostPowf_guard (c : IVec s 1) (d u e z : FVec F s φ) :
    select c (Host.powf (select c d u) e) z = select c (Host.powf d e) z :=
  funext fun i => select_guard (c i) (fun t => FloatOps.hostPowf t (e i)) (d i) (u i) (z i)

/-- The same for the vector unit's power. -/
theorem select_powf_guard (c : IVec s 1) (d u e z : FVec F s φ) :
    select c (powf (select c d u) e) z = select c (powf d e) z :=
  funext fun i => select_guard (c i) (fun t => FloatOps.powf t (e i)) (d i) (u i) (z i)

end Cert.DegNorm

end
-- ==== Proof.Bridge.lean ====
/-
  The reference's forward pass and the kernel's are the same function of the eight argument arrays.

  Both sides are compositions of the same named stages.  The edge lists, one propagation and the per-layer weight and bias slices are
  the same host operations on both sides.  The edge weights differ only in that the kernel guards the degree before taking its power
  as well as after: under the outer guard the inner one does nothing.  The dense steps — the input projection, the four layers, the
  output projection — are equal entry by entry, the bias read from the vector on one side and from the vector re-laid as a row on the other.
  Stage by stage the equalities compose to the equality of the results.
-/
import proofs.«134498_j40424232190561_2_alg».proof.Proof.KI_Stages
import proofs.«134498_j40424232190561_2_alg».proof.Proof.RefStages
import proofs.«134498_j40424232190561_2_alg».proof.Proof.Join
import proofs.«134498_j40424232190561_2_alg».proof.Proof.DegNorm

set_option maxRecDepth 16384

noncomputable section

namespace Cert.Bridge

open Idealize.ShloMosaic

/-! ## The stages both sides compute with the same host operations -/

/-- The edge sources are the same on both sides. -/
theorem row_eq (a1 : IVec Cert.ReferenceIdeal.S2x1600000 32) : Cert.ReferenceIdeal.Fwd.rowR a1 = Cert.KernelIdeal.Pipe.rowK a1 := rfl
/-- The edge targets are the same on both sides. -/
theorem col_eq (a1 : IVec Cert.ReferenceIdeal.S2x1600000 32) : Cert.ReferenceIdeal.Fwd.colR a1 = Cert.KernelIdeal.Pipe.colK a1 := rfl
/-- One propagation is the same function on both sides. -/
theorem agg_eq (x : FVec Ideal Cert.ReferenceIdeal.S100000x64 .f32) (row col : IVec Cert.ReferenceIdeal.S1700000 32) (nrm : FVec Ideal Cert.ReferenceIdeal.S1700000 .f32) :
    Cert.ReferenceIdeal.Fwd.aggR x row col nrm = Cert.KernelIdeal.Pipe.aggK x row col nrm := rfl

/-- The first layer's weight slice is the same on both sides. -/
theorem w0_eq (a4 : FVec Ideal Cert.ReferenceIdeal.S4x64x64 .f32) : Cert.ReferenceIdeal.Fwd.w0R a4 = Cert.KernelIdeal.Pipe.w0K a4 := rfl
/-- The first layer's bias slice is the same on both sides. -/
theorem b0_eq (a5 : FVec Ideal Cert.ReferenceIdeal.S4x64 .f32) : Cert.ReferenceIdeal.Fwd.b0R a5 = Cert.KernelIdeal.Pipe.b0K a5 := rfl

/-- The second layer's weight slice is the same on both sides. -/
theorem w1_eq (a4 : FVec Ideal Cert.ReferenceIdeal.S4x64x64 .f32) : Cert.ReferenceIdeal.Fwd.w1R a4 = Cert.KernelIdeal.Pipe.w1K a4 := rfl
/-- The second layer's bias slice is the same on both sides. -/
theorem b1_eq (a5 : FVec Ideal Cert.ReferenceIdeal.S4x64 .f32) : Cert.ReferenceIdeal.Fwd.b1R a5 = Cert.KernelIdeal.Pipe.b1K a5 := rfl

/-- The third layer's weight slice is the same on both sides. -/
theorem w2_eq (a4 : FVec Ideal Cert.ReferenceIdeal.S4x64x64 .f32) : Cert.ReferenceIdeal.Fwd.w2R a4 = Cert.KernelIdeal.Pipe.w2K a4 := rfl
/-- The third layer's bias slice is the same on both sides. -/
theorem b2_eq (a5 : FVec Ideal Cert.ReferenceIdeal.S4x64 .f32) : Cert.ReferenceIdeal.Fwd.b2R a5 = Cert.KernelIdeal.Pipe.b2K a5 := rfl

/-- The fourth layer's weight slice is the same on both sides. -/
theorem w3_eq (a4 : FVec Ideal Cert.ReferenceIdeal.S4x64x64 .f32) : Cert.ReferenceIdeal.Fwd.w3R a4 = Cert.KernelIdeal.Pipe.w3K a4 := rfl
/-- The fourth layer's bias slice is the same on both sides. -/
theorem b3_eq (a5 : FVec Ideal Cert.ReferenceIdeal.S4x64 .f32) : Cert.ReferenceIdeal.Fwd.b3R a5 = Cert.KernelIdeal.Pipe.b3K a5 := rfl

/-! ## The edge weights: a power guarded twice by the same condition -/

/-- The kernel takes the power of the degree where it is positive and of one elsewhere, and discards it there; the reference
    takes the power of the degree and discards it there. Under the outer guard the inner one does nothing. -/
theorem nrm_eq (a1 : IVec Cert.ReferenceIdeal.S2x1600000 32) : Cert.ReferenceIdeal.Fwd.nrmR a1 = Cert.KernelIdeal.Pipe.nrmK a1 := by
  unfold Cert.KernelIdeal.Pipe.nrmK
  rw [Cert.DegNorm.select_hostPowf_guard]
  rfl

/-! ## The states -/

/-- The state after the input projection is the same on both sides. -/
theorem x0_eq (a0 : FVec Ideal Cert.ReferenceIdeal.S100000x128 .f32) (a2 : FVec Ideal Cert.ReferenceIdeal.S128x64 .f32) (a3 : FVec Ideal Cert.ReferenceIdeal.S64 .f32) :
    Cert.ReferenceIdeal.Fwd.x0R a0 a2 a3 = Cert.KernelIdeal.Pipe.x0K a0 a2 a3 :=
  Cert.Join.inProj_eq_inRows a0 a2 a3

/-- The state after the first layer is the same on both sides. -/
theorem x1_eq (a0 : FVec Ideal Cert.ReferenceIdeal.S100000x128 .f32) (a1 : IVec Cert.ReferenceIdeal.S2x1600000 32) (a2 : FVec Ideal Cert.ReferenceIdeal.S128x64 .f32)
    (a3 : FVec Ideal Cert.ReferenceIdeal.S64 .f32) (a4 : FVec Ideal Cert.ReferenceIdeal.S4x64x64 .f32) (a5 : FVec Ideal Cert.ReferenceIdeal.S4x64 .f32) :
    Cert.ReferenceIdeal.Fwd.x1R a0 a1 a2 a3 a4 a5 = Cert.KernelIdeal.Pipe.x1K a0 a1 a2 a3 a4 a5 := by
  unfold Cert.ReferenceIdeal.Fwd.x1R Cert.KernelIdeal.Pipe.x1K Cert.KernelIdeal.Pipe.r0K
  rw [Cert.Join.layer_eq_layerRows, agg_eq, x0_eq, row_eq, col_eq, nrm_eq, w0_eq, b0_eq]

/-- The state after the second layer is the same on both sides. -/
theorem x2_eq (a0 : FVec Ideal Cert.ReferenceIdeal.S100000x128 .f32) (a1 : IVec Cert.ReferenceIdeal.S2x1600000 32) (a2 : FVec Ideal Cert.ReferenceIdeal.S128x64 .f32)
    (a3 : FVec Ideal Cert.ReferenceIdeal.S64 .f32) (a4 : FVec Ideal Cert.ReferenceIdeal.S4x64x64 .f32) (a5 : FVec Ideal Cert.ReferenceIdeal.S4x64 .f32) :
    Cert.ReferenceIdeal.Fwd.x2R a0 a1 a2 a3 a4 a5 = Cert.KernelIdeal.Pipe.x2K a0 a1 a2 a3 a4 a5 := by
  unfold Cert.ReferenceIdeal.Fwd.x2R Cert.KernelIdeal.Pipe.x2K Cert.KernelIdeal.Pipe.r1K
  rw [Cert.Join.layer_eq_layerRows, agg_eq, x1_eq, x0_eq, row_eq, col_eq, nrm_eq, w1_eq, b1_eq]

/-- The state after the third layer is the same on both sides. -/
theorem x3_eq (a0 : FVec Ideal Cert.ReferenceIdeal.S100000x128 .f32) (a1 : IVec Cert.ReferenceIdeal.S2x1600000 32) (a2 : FVec Ideal Cert.ReferenceIdeal.S128x64 .f32)
    (a3 : FVec Ideal Cert.ReferenceIdeal.S64 .f32) (a4 : FVec Ideal Cert.ReferenceIdeal.S4x64x64 .f32) (a5 : FVec Ideal Cert.ReferenceIdeal.S4x64 .f32) :
    Cert.ReferenceIdeal.Fwd.x3R a0 a1 a2 a3 a4 a5 = Cert.KernelIdeal.Pipe.x3K a0 a1 a2 a3 a4 a5 := by
  unfold Cert.ReferenceIdeal.Fwd.x3R Cert.KernelIdeal.Pipe.x3K Cert.KernelIdeal.Pipe.r2K
  rw [Cert.Join.layer_eq_layerRows, agg_eq, x2_eq, x0_eq, row_eq, col_eq, nrm_eq, w2_eq, b2_eq]

/-- The state after the fourth layer is the same on both sides. -/
theorem x4_eq (a0 : FVec Ideal Cert.ReferenceIdeal.S100000x128 .f32) (a1 : IVec Cert.ReferenceIdeal.S2x1600000 32) (a2 : FVec Ideal Cert.ReferenceIdeal.S128x64 .f32)
    (a3 : FVec Ideal Cert.ReferenceIdeal.S64 .f32) (a4 : FVec Ideal Cert.ReferenceIdeal.S4x64x64 .f32) (a5 : FVec Ideal Cert.ReferenceIdeal.S4x64 .f32) :
    Cert.ReferenceIdeal.Fwd.x4R a0 a1 a2 a3 a4 a5 = Cert.KernelIdeal.Pipe.x4K a0 a1 a2 a3 a4 a5 := by
  unfold Cert.ReferenceIdeal.Fwd.x4R Cert.KernelIdeal.Pipe.x4K Cert.KernelIdeal.Pipe.r3K
  rw [Cert.Join.layer_eq_layerRows, agg_eq, x3_eq, x0_eq, row_eq, col_eq, nrm_eq, w3_eq, b3_eq]

/-! ## The result -/

/-- THE FORWARD PASS: the reference's result and the kernel's rows are the same function of the eight argument arrays. -/
theorem forward_eq (a0 : FVec Ideal Cert.ReferenceIdeal.S100000x128 .f32) (a1 : IVec Cert.ReferenceIdeal.S2x1600000 32) (a2 : FVec Ideal Cert.ReferenceIdeal.S128x64 .f32)
    (a3 : FVec Ideal Cert.ReferenceIdeal.S64 .f32) (a4 : FVec Ideal Cert.ReferenceIdeal.S4x64x64 .f32) (a5 : FVec Ideal Cert.ReferenceIdeal.S4x64 .f32)
    (a6 : FVec Ideal Cert.ReferenceIdeal.S64x40 .f32) (a7 : FVec Ideal Cert.ReferenceIdeal.S40 .f32) :
    Cert.ReferenceIdeal.Fwd.yR a0 a1 a2 a3 a4 a5 a6 a7 = Cert.KernelIdeal.Pipe.yK a0 a1 a2 a3 a4 a5 a6 a7 := by
  unfold Cert.ReferenceIdeal.Fwd.yR Cert.KernelIdeal.Pipe.yK Cert.KernelIdeal.Pipe.rOutK
  rw [Cert.Join.outProj_eq_outRows, x4_eq]

end Cert.Bridge

end
-- ==== Proof.lean ====
/-
  The certificate of a four-layer graph network's forward pass: a Pallas kernel (six row-blocked pipelines — an input projection,
  four propagation layers, an output projection — between host stretches that build the edge lists with self-loops, the symmetric
  degree normalisation and each layer's gather / scatter-add) against its jnp reference.

  * Frames. Each kernel program runs as sixteen items in order; every pipeline changes its output array only and every host
    stretch writes fresh buffers only, so the eight argument arrays end as launched. The reference is host operations only.
  * Preservation. The idealisation rewrote nothing.
  * Equality at the exact values. Row r of a pipeline's output is max(x[r,·]·W + b, 0), max(h[r,·]·W − b, 0) + b with
    h = 0.8·agg + 0.1·x + 0.1·x0, or x[r,·]·W + b — the same sums the reference's dot_general computes on whole arrays; the
    propagation between two layers is the same host operations on both sides; and the kernel's guarded power
    (the power of the degree where it is positive and of one elsewhere, then discarded elsewhere) is the reference's.
    No law used needs finiteness, so the precondition is never opened.
-/
import proofs.«134498_j40424232190561_2_alg».proof.Defs
import proofs.«134498_j40424232190561_2_alg».proof.Proof.Gen.Kernel
import proofs.«134498_j40424232190561_2_alg».proof.Proof.Gen.KernelIdeal
import proofs.«134498_j40424232190561_2_alg».proof.Proof.Gen.ReferenceIdeal
import proofs.«134498_j40424232190561_2_alg».proof.Proof.Gen.Pre_finite_inputs
import proofs.«134498_j40424232190561_2_alg».proof.Proof.K_All
import proofs.«134498_j40424232190561_2_alg».proof.Proof.KI_All
import proofs.«134498_j40424232190561_2_alg».proof.Proof.KI_Fwd
import proofs.«134498_j40424232190561_2_alg».proof.Proof.RefFwd
import proofs.«134498_j40424232190561_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs to its end and its arguments end as launched. -/
theorem frame_k : Cert.frame_Kernel := fun m ρ _ =>
  (θ_run Cert.Kernel.defs _ _).mono (fun r h c =>
    ⟨(h c _ (Cert.Kernel.Pipe.mem_uc Cert.Kernel.main_arg0 (by decide))).trans (Cert.Kernel.Pipe.kept m c Cert.Kernel.main_arg0 (by decide) (by decide) (by decide) (by decide) (by decide) (by decide) (by decide) (by decide) (by decide) (by decide) (by decide) (by decide) (by decide) (by decide) (by decide) (by decide)),
     (h c _ (Cert.Kernel.Pipe.mem_uc Cert.Kernel.main_arg1 (by decide))).trans (Cert.Kernel.Pipe.kept m c Cert.Kernel.main_arg1 (by decide) (by decide) (by decide) (by decide) (by decide) (by decide) (by decide) (by decide) (by decide) (by decide) (by decide) (by decide) (by decide) (by decide) (by decide) (by decide)),
     (h c _ (Cert.Kernel.Pipe.mem_uc Cert.Kernel.main_arg2 (by decide))).trans (Cert.Kernel.Pipe.kept m c Cert.Kernel.main_arg2 (by decide) (by decide) (by decide) (by decide) (by decide) (by decide) (by decide) (by decide) (by decide) (by decide) (by decide) (by decide) (by decide) (by decide) (by decide) (by decide)),
     (h c _ (Cert.Kernel.Pipe.mem_uc Cert.Kernel.main_arg3 (by decide))).trans (Cert.Kernel.Pipe.kept m c Cert.Kernel.main_arg3 (by decide) (by decide) (by decide) (by decide) (by decide) (by decide) (by decide) (by decide) (by decide) (by decide) (by decide) (by decide) (by decide) (by decide) (by decide) (by decide)),
     (h c _ (Cert.Kernel.Pipe.mem_uc Cert.Kernel.main_arg4 (by decide))).trans (Cert.Kernel.Pipe.kept m c Cert.Kernel.main_arg4 (by decide) (by decide) (by decide) (by decide) (by decide) (by decide) (by decide) (by decide) (by decide) (by decide) (by decide) (by decide) (by decide) (by decide) (by decide) (by decide)),
     (h c _ (Cert.Kernel.Pipe.mem_uc Cert.Kernel.main_arg5 (by decide))).trans (Cert.Kernel.Pipe.kept m c Cert.Kernel.main_arg5 (by decide) (by decide) (by decide) (by decide) (by decide) (by decide) (by decide) (by decide) (by decide) (by decide) (by decide) (by decide) (by decide) (by decide) (by decide) (by decide)),
     (h c _ (Cert.Kernel.Pipe.mem_uc Cert.Kernel.main_arg6 (by decide))).trans (Cert.Kernel.Pipe.kept m c Cert.Kernel.main_arg6 (by decide) (by decide) (by decide) (by decide) (by decide) (by decide) (by decide) (by decide) (by decide) (by decide) (by decide) (by decide) (by decide) (by decide) (by decide) (by decide)),
     (h c _ (Cert.Kernel.Pipe.mem_uc Cert.Kernel.main_arg7 (by decide))).trans (Cert.Kernel.Pipe.kept m c Cert.Kernel.main_arg7 (by decide) (by decide) (by decide) (by decide) (by decide) (by decide) (by decide) (by decide) (by decide) (by decide) (by decide) (by decide) (by decide) (by decide) (by decide) (by decide))⟩)
    (Cert.Kernel.Pipe.run_all (F := Bits) m ρ)

/-- So does the idealized kernel. -/
theorem frame_ki : Cert.frame_KernelIdeal := fun m ρ _ =>
  (θ_run Cert.KernelIdeal.defs _ _).mono (fun r h c =>
    ⟨(h c _ (Cert.KernelIdeal.Pipe.mem_uc Cert.KernelIdeal.main_arg0 (by decide))).trans (Cert.KernelIdeal.Pipe.kept m c Cert.KernelIdeal.main_arg0 (by decide) (by decide) (by decide) (by decide) (by decide) (by decide) (by decide) (by decide) (by decide) (by decide) (by decide) (by decide) (by decide) (by decide) (by decide) (by decide)),
     (h c _ (Cert.KernelIdeal.Pipe.mem_uc Cert.KernelIdeal.main_arg1 (by decide))).trans (Cert.KernelIdeal.Pipe.kept m c Cert.KernelIdeal.main_arg1 (by decide) (by decide) (by decide) (by decide) (by decide) (by decide) (by decide) (by decide) (by decide) (by decide) (by decide) (by decide) (by decide) (by decide) (by decide) (by decide)),
     (h c _ (Cert.KernelIdeal.Pipe.mem_uc Cert.KernelIdeal.main_arg2 (by decide))).trans (Cert.KernelIdeal.Pipe.kept m c Cert.KernelIdeal.main_arg2 (by decide) (by decide) (by decide) (by decide) (by decide) (by decide) (by decide) (by decide) (by decide) (by decide) (by decide) (by decide) (by decide) (by decide) (by decide) (by decide)),
     (h c _ (Cert.KernelIdeal.Pipe.mem_uc Cert.KernelIdeal.main_arg3 (by decide))).trans (Cert.KernelIdeal.Pipe.kept m c Cert.KernelIdeal.main_arg3 (by decide) (by decide) (by decide) (by decide) (by decide) (by decide) (by decide) (by decide) (by decide) (by decide) (by decide) (by decide) (by decide) (by decide) (by decide) (by decide)),
     (h c _ (Cert.KernelIdeal.Pipe.mem_uc Cert.KernelIdeal.main_arg4 (by decide))).trans (Cert.KernelIdeal.Pipe.kept m c Cert.KernelIdeal.main_arg4 (by decide) (by decide) (by decide) (by decide) (by decide) (by decide) (by decide) (by decide) (by decide) (by decide) (by decide) (by decide) (by decide) (by decide) (by decide) (by decide)),
     (h c _ (Cert.KernelIdeal.Pipe.mem_uc Cert.KernelIdeal.main_arg5 (by decide))).trans (Cert.KernelIdeal.Pipe.kept m c Cert.KernelIdeal.main_arg5 (by decide) (by decide) (by decide) (by decide) (by decide) (by decide) (by decide) (by decide) (by decide) (by decide) (by decide) (by decide) (by decide) (by decide) (by decide) (by decide)),
     (h c _ (Cert.KernelIdeal.Pipe.mem_uc Cert.KernelIdeal.main_arg6 (by decide))).trans (Cert.KernelIdeal.Pipe.kept m c Cert.KernelIdeal.main_arg6 (by decide) (by decide) (by decide) (by decide) (by decide) (by decide) (by decide) (by decide) (by decide) (by decide) (by decide) (by decide) (by decide) (by decide) (by decide) (by decide)),
     (h c _ (Cert.KernelIdeal.Pipe.mem_uc Cert.KernelIdeal.main_arg7 (by decide))).trans (Cert.KernelIdeal.Pipe.kept m c Cert.KernelIdeal.main_arg7 (by decide) (by decide) (by decide) (by decide) (by decide) (by decide) (by decide) (by decide) (by decide) (by decide) (by decide) (by decide) (by decide) (by decide) (by decide) (by decide))⟩)
    (Cert.KernelIdeal.Pipe.run_all (F := Ideal) m ρ)

/-- The reference is host operations only: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- At the exact values both programs end with the last stage of the forward pass at the arguments' launch contents. -/
theorem algebraic : Cert.algebraic_KernelIdeal_ReferenceIdeal := by
  intro m ρ m' ρ' _ hagree
  refine ⟨fun c => Cert.KernelIdeal.Pipe.yK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c =>
      ⟨(h c _ (Cert.KernelIdeal.Pipe.mem_uc Cert.KernelIdeal.main_v113 (by decide))).trans (Cert.KernelIdeal.Pipe.X5_val m c),
       (h c _ (Cert.KernelIdeal.Pipe.mem_uc Cert.KernelIdeal.main_arg0 (by decide))).trans (Cert.KernelIdeal.Pipe.kept m c Cert.KernelIdeal.main_arg0 (by decide) (by decide) (by decide) (by decide) (by decide) (by decide) (by decide) (by decide) (by decide) (by decide) (by decide) (by decide) (by decide) (by decide) (by decide) (by decide)),
       (h c _ (Cert.KernelIdeal.Pipe.mem_uc Cert.KernelIdeal.main_arg1 (by decide))).trans (Cert.KernelIdeal.Pipe.kept m c Cert.KernelIdeal.main_arg1 (by decide) (by decide) (by decide) (by decide) (by decide) (by decide) (by decide) (by decide) (by decide) (by decide) (by decide) (by decide) (by decide) (by decide) (by decide) (by decide)),
       (h c _ (Cert.KernelIdeal.Pipe.mem_uc Cert.KernelIdeal.main_arg2 (by decide))).trans (Cert.KernelIdeal.Pipe.kept m c Cert.KernelIdeal.main_arg2 (by decide) (by decide) (by decide) (by decide) (by decide) (by decide) (by decide) (by decide) (by decide) (by decide) (by decide) (by decide) (by decide) (by decide) (by decide) (by decide)),
       (h c _ (Cert.KernelIdeal.Pipe.mem_uc Cert.KernelIdeal.main_arg3 (by decide))).trans (Cert.KernelIdeal.Pipe.kept m c Cert.KernelIdeal.main_arg3 (by decide) (by decide) (by decide) (by decide) (by decide) (by decide) (by decide) (by decide) (by decide) (by decide) (by decide) (by decide) (by decide) (by decide) (by decide) (by decide)),
       (h c _ (Cert.KernelIdeal.Pipe.mem_uc Cert.KernelIdeal.main_arg4 (by decide))).trans (Cert.KernelIdeal.Pipe.kept m c Cert.KernelIdeal.main_arg4 (by decide) (by decide) (by decide) (by decide) (by decide) (by decide) (by decide) (by decide) (by decide) (by decide) (by decide) (by decide) (by decide) (by decide) (by decide) (by decide)),
       (h c _ (Cert.KernelIdeal.Pipe.mem_uc Cert.KernelIdeal.main_arg5 (by decide))).trans (Cert.KernelIdeal.Pipe.kept m c Cert.KernelIdeal.main_arg5 (by decide) (by decide) (by decide) (by decide) (by decide) (by decide) (by decide) (by decide) (by decide) (by decide) (by decide) (by decide) (by decide) (by decide) (by decide) (by decide)),
       (h c _ (Cert.KernelIdeal.Pipe.mem_uc Cert.KernelIdeal.main_arg6 (by decide))).trans (Cert.KernelIdeal.Pipe.kept m c Cert.KernelIdeal.main_arg6 (by decide) (by decide) (by decide) (by decide) (by decide) (by decide) (by decide) (by decide) (by decide) (by decide) (by decide) (by decide) (by decide) (by decide) (by decide) (by decide)),
       (h c _ (Cert.KernelIdeal.Pipe.mem_uc Cert.KernelIdeal.main_arg7 (by decide))).trans (Cert.KernelIdeal.Pipe.kept m c Cert.KernelIdeal.main_arg7 (by decide) (by decide) (by decide) (by decide) (by decide) (by decide) (by decide) (by decide) (by decide) (by decide) (by decide) (by decide) (by decide) (by decide) (by decide) (by decide))⟩)
      (Cert.KernelIdeal.Pipe.run_all (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.Fwd.res_eq, (hagree c).1, (hagree c).2.1, (hagree c).2.2.1, (hagree c).2.2.2.1, (hagree c).2.2.2.2.1, (hagree c).2.2.2.2.2.1, (hagree c).2.2.2.2.2.2.1, (hagree c).2.2.2.2.2.2.2]
    exact Cert.Bridge.forward_eq _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
